-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x1024 : Shape := ⟨2, ![60000, 1024]⟩
abbrev S100000x64 : Shape := ⟨2, ![100000, 64]⟩
abbrev S40000x128 : Shape := ⟨2, ![40000, 128]⟩
abbrev S128x1024 : Shape := ⟨2, ![128, 1024]⟩
abbrev S128 : Shape := ⟨1, ![128]⟩
abbrev S128x128 : Shape := ⟨2, ![128, 128]⟩
abbrev S64x128 : Shape := ⟨2, ![64, 128]⟩
abbrev S64 : Shape := ⟨1, ![64]⟩
abbrev S64x64 : Shape := ⟨2, ![64, 64]⟩
abbrev S2x1600000 : Shape := ⟨2, ![2, 1600000]⟩
abbrev S_ : Shape := ⟨0, ![]⟩

class Facts : Prop where
  bcast_S_S60000x1024 : S_.BroadcastsInDim S60000x1024 (![] : Fin 0 → Fin S60000x1024.rank)
  reducesTo_S60000x1024_S_d0_1 : S60000x1024.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S40000x128 : S_.BroadcastsInDim S40000x128 (![] : Fin 0 → Fin S40000x128.rank)
  reducesTo_S40000x128_S_d0_1 : S40000x128.ReducesTo [0, 1] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S64x64 .f32) (main_arg12 : FVec F S64 .f32) (main_arg13 : FVec F S64x64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_v63 main_v67

def fn_part2 {F : FTy → Type} [FloatOps F] (main_arg7 : FVec F S64 .f32) (main_arg8 : FVec F S64x128 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S64x128 .f32) (main_arg7 : FVec F S64 .f32) (main_arg8 : FVec F S64x128 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S60000x1024 .f32) (main_arg1 : FVec F S100000x64 .f32) (main_arg2 : FVec F S40000x128 .f32) (main_arg3 : FVec F S128x1024 .f32) (main_arg4 : FVec F S128 .f32) (main_arg5 : FVec F S128x128 .f32) (main_arg6 : FVec F S64x128 .f32) (main_arg7 : FVec F S64 .f32) (main_arg8 : FVec F S64x128 .f32) (main_arg9 : FVec F S64 .f32) (main_arg10 : FVec F S64x64 .f32) (main_arg11 : FVec F S64x64 .f32) (main_arg12 : FVec F S64 .f32) (main_arg13 : FVec F S64x64 .f32) (main_arg14 : FVec F S64 .f32) (main_arg15 : IVec S2x1600000 32) : IVec S_ 1 :=
  let main_v0 : FVec F S60000x1024 .f32 := Host.absf main_arg0
  let main_cst : FVec F S_ .f32 := constant S_ .f32 0x7F800000#32
  let main_v1 : FVec F S60000x1024 .f32 := broadcastInDim S60000x1024 ![] bcast_S_S60000x1024 main_cst
  let main_v2 : IVec S60000x1024 1 := cmpf .olt main_v0 main_v1
  let main_c : IVec S_ 1 := constantI S_ 1 1#1
  let main_v3 : IVec S_ 1 := (fun x v => Host.reduce IntOp.andi x v reducesTo_S60000x1024_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S40000x128 .f32 := Host.absf main_arg2
  let main_cst_2 : FVec F S_ .f32 := constant S_ .f32 0x7F800000#32
  let main_v10 : FVec F S40000x128 .f32 := broadcastInDim S40000x128 ![] bcast_S_S40000x128 main_cst_2
  let main_v11 : IVec S40000x128 1 := cmpf .olt main_v9 main_v10
  let main_c_3 : IVec S_ 1 := constantI S_ 1 1#1
  let main_v12 : IVec S_ 1 := (fun x v => Host.reduce IntOp.andi x v reducesTo_S40000x128_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S60000x1024 : Shape := ⟨2, ![60000, 1024]⟩
abbrev S100000x64 : Shape := ⟨2, ![100000, 64]⟩
abbrev S40000x128 : Shape := ⟨2, ![40000, 128]⟩
abbrev S128x1024 : Shape := ⟨2, ![128, 1024]⟩
abbrev S128 : Shape := ⟨1, ![128]⟩
abbrev S128x128 : Shape := ⟨2, ![128, 128]⟩
abbrev S64x128 : Shape := ⟨2, ![64, 128]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S1x128 : Shape := ⟨2, ![1, 128]⟩
abbrev S60000x128 : Shape := ⟨2, ![60000, 128]⟩
abbrev S2000x1024 : Shape := ⟨2, ![2000, 1024]⟩
abbrev S2000x128 : Shape := ⟨2, ![2000, 128]⟩
abbrev S100000x128 : Shape := ⟨2, ![100000, 128]⟩
abbrev S1x64 : Shape := ⟨2, ![1, 64]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩
abbrev S_ : Shape := ⟨0, ![]⟩
abbrev S1600000x1 : Shape := ⟨2, ![1600000, 1]⟩
abbrev S1600000x128 : Shape := ⟨2, ![1600000, 128]⟩
abbrev S1600000x64 : Shape := ⟨2, ![1600000, 64]⟩

abbrev nBuf : Space → Nat
  | .hbm => 59
  | .vmem => 44
  | .smem => 0
  | _ => 0

abbrev bufTy : (tb : Table) → Fin (tcTables nBuf tb) → BufTy
  | .hbm, ⟨0, _⟩ => ⟨S60000x1024, .f32⟩
  | .hbm, ⟨1, _⟩ => ⟨S100000x64, .f32⟩
  | .hbm, ⟨2, _⟩ => ⟨S40000x128, .f32⟩
  | .hbm, ⟨3, _⟩ => ⟨S128x1024, .f32⟩
  | .hbm, ⟨4, _⟩ => ⟨S128, .f32⟩
  | .hbm, ⟨5, _⟩ => ⟨S128x128, .f32⟩
  | .hbm, ⟨6, _⟩ => ⟨S64x128, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S2x1600000, .i32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1x128, .f32⟩
  | .hbm, ⟨21, _⟩ => ⟨S60000x128, .f32⟩
  | .hbm, ⟨22, _⟩ => ⟨S100000x128, .f32⟩
  | .hbm, ⟨23, _⟩ => ⟨S1x64, .f32⟩
  | .hbm, ⟨24, _⟩ => ⟨S100000x128, .f32⟩
  | .hbm, ⟨25, _⟩ => ⟨S100000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S2000x1024, .f32⟩
  | .local _ .vmem, ⟨1, _⟩ => ⟨S2000x1024, .f32⟩
  | .local _ .vmem, ⟨2, _⟩ => ⟨S128x1024, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S128x128, .f32⟩
  | .local _ .vmem, ⟨11, _⟩ => ⟨S64x128, .f32⟩
  | .local _ .vmem, ⟨12, _⟩ => ⟨S1x64, .f32⟩
  | .local _ .vmem, ⟨13, _⟩ => ⟨S5000x128, .f32⟩
  | .local _ .vmem, ⟨14, _⟩ => ⟨S5000x128, .f32⟩
  | .local _ .vmem, ⟨15, _⟩ => ⟨S5000x64, .f32⟩
  | .local _ .vmem, ⟨16, _⟩ => ⟨S5000x64, .f32⟩
  | .local _ .vmem, ⟨17, _⟩ => ⟨S5000x128, .f32⟩
  | .local _ .vmem, ⟨18, _⟩ => ⟨S5000x128, .f32⟩
  | .local _ .vmem, ⟨19, _⟩ => ⟨S5000x64, .f32⟩
  | .local _ .vmem, ⟨20, _⟩ => ⟨S5000x64, .f32⟩
  | .local _ .vmem, ⟨21, _⟩ => ⟨S64x128, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | _, _ => ⟨S60000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_c : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_c_1 : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  concatenates_S40000x128_S60000x128_S100000x128_d0 : Shape.Concatenates [S40000x128, S60000x128] S100000x128 0
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  dot_S2000x1024_S128x1024_S2000x128_1_1_0_0_n_n_wf : DotDims.WF S2000x1024 S128x1024 S2000x128 [1] [1] [0] [0] [] []
  dot_S5000x128_S128x128_S5000x128_1_0_0_1_n_n_wf : DotDims.WF S5000x128 S128x128 S5000x128 [1] [0] [0] [1] [] []
  dot_S5000x128_S64x128_S5000x64_1_1_0_0_n_n_wf : DotDims.WF S5000x128 S64x128 S5000x64 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S64x64_S5000x64_1_0_0_1_n_n_wf : DotDims.WF S5000x64 S64x64 S5000x64 [1] [0] [0] [1] [] []
  dot_S5000x64_S64x64_S5000x64_1_1_0_0_n_n_wf : DotDims.WF S5000x64 S64x64 S5000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S60000x1024.size a
  hwx0_0 : ∀ i : grid0.Coords, EltTy.bits .f32 = 32 ∨ (Rect.block (s := S60000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S60000x128.size a
  hwx0_3 : ∀ i : grid0.Coords, EltTy.bits .f32 = 32 ∨ (Rect.block (s := S60000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)

variable [Facts₀]

def dot_S2000x1024_S128x1024_S2000x128_1_1_0_0_n_n : DotDims S2000x1024 S128x1024 S2000x128 where
  lhsContracting := [1]
  rhsContracting := [1]
  lhsNonContracting := [0]
  rhsNonContracting := [0]
  lhsBatch := []
  rhsBatch := []
  wf := dot_S2000x1024_S128x1024_S2000x128_1_1_0_0_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22_0) S5000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v22_1) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v32) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22_1) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S60000x1024 : Shape := ⟨2, ![60000, 1024]⟩
abbrev S100000x64 : Shape := ⟨2, ![100000, 64]⟩
abbrev S40000x128 : Shape := ⟨2, ![40000, 128]⟩
abbrev S128x1024 : Shape := ⟨2, ![128, 1024]⟩
abbrev S128 : Shape := ⟨1, ![128]⟩
abbrev S128x128 : Shape := ⟨2, ![128, 128]⟩
abbrev S64x128 : Shape := ⟨2, ![64, 128]⟩
abbrev S64 : Shape := ⟨1, ![64]⟩
abbrev S64x64 : Shape := ⟨2, ![64, 64]⟩
abbrev S2x1600000 : Shape := ⟨2, ![2, 1600000]⟩
abbrev S1x1600000 : Shape := ⟨2, ![1, 1600000]⟩
abbrev S1600000 : Shape := ⟨1, ![1600000]⟩
abbrev S1024x128 : Shape := ⟨2, ![1024, 128]⟩
abbrev S60000x128 : Shape := ⟨2, ![60000, 128]⟩
abbrev S1x128 : Shape := ⟨2, ![1, 128]⟩
abbrev S100000x128 : Shape := ⟨2, ![100000, 128]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x128 : Shape := ⟨2, ![1600000, 128]⟩
abbrev S128x64 : Shape := ⟨2, ![128, 64]⟩
abbrev S1x64 : Shape := ⟨2, ![1, 64]⟩
abbrev S1600000x64 : Shape := ⟨2, ![1600000, 64]⟩

abbrev nBuf : Space → Nat
  | .hbm => 131
  | .vmem => 0
  | .smem => 0
  | _ => 0

abbrev hbmTy0_0 (i : Nat) : BufTy := match i % 128 with
  | 0 => ⟨S60000x1024, .f32⟩
  | 1 => ⟨S100000x64, .f32⟩
  | 2 => ⟨S40000x128, .f32⟩
  | 3 => ⟨S128x1024, .f32⟩
  | 4 => ⟨S128, .f32⟩
  | 5 => ⟨S128x128, .f32⟩
  | 6 => ⟨S64x128, .f32⟩
  | 7 => ⟨S64, .f32⟩
  | 8 => ⟨S64x128, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64, .f32⟩
  | 15 => ⟨S2x1600000, .i32⟩
  | 16 => ⟨S1x1600000, .i32⟩
  | 17 => ⟨S1600000, .i32⟩
  | 18 => ⟨S1x1600000, .i32⟩
  | 19 => ⟨S1600000, .i32⟩
  | 20 => ⟨S1024x128, .f32⟩
  | 21 => ⟨S60000x128, .f32⟩
  | 22 => ⟨S1x128, .f32⟩
  | 23 => ⟨S60000x128, .f32⟩
  | 24 => ⟨S60000x128, .f32⟩
  | 25 => ⟨S100000x128, .f32⟩
  | 26 => ⟨S100000x128, .f32⟩
  | 27 => ⟨S_, .f32⟩
  | 28 => ⟨S100000, .f32⟩
  | 29 => ⟨S100000x1, .f32⟩
  | 30 => ⟨S100000x1, .f32⟩
  | 31 => ⟨S_, .f32⟩
  | 32 => ⟨S_, .f32⟩
  | 33 => ⟨S100000x1, .f32⟩
  | 34 => ⟨S100000x1, .f32⟩
  | 35 => ⟨S100000x128, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S_, .f32⟩
  | 52 => ⟨S100000x128, .f32⟩
  | 53 => ⟨S100000x128, .i1⟩
  | 54 => ⟨S_, .f32⟩
  | 55 => ⟨S100000x128, .f32⟩
  | 56 => ⟨S100000x128, .f32⟩
  | 57 => ⟨S100000x128, .f32⟩
  | 58 => ⟨S128x64, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .i1⟩
  | 66 => ⟨S_, .f32⟩
  | 67 => ⟨S100000x64, .f32⟩
  | 68 => ⟨S100000x64, .f32⟩
  | 69 => ⟨S100000x64, .f32⟩
  | 70 => ⟨S100000x64, .f32⟩
  | 71 => ⟨S128x64, .f32⟩
  | 72 => ⟨S100000x64, .f32⟩
  | 73 => ⟨S1x64, .f32⟩
  | 74 => ⟨S100000x64, .f32⟩
  | 75 => ⟨S100000x64, .f32⟩
  | 76 => ⟨S100000x64, .f32⟩
  | 77 => ⟨S_, .f32⟩
  | 78 => ⟨S100000x64, .f32⟩
  | 79 => ⟨S100000x64, .i1⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S_, .f32⟩
  | 99 => ⟨S100000x64, .f32⟩
  | 100 => ⟨S100000x64, .i1⟩
  | 101 => ⟨S_, .f32⟩
  | 102 => ⟨S100000x64, .f32⟩
  | 103 => ⟨S100000x64, .f32⟩
  | 104 => ⟨S100000x64, .f32⟩
  | 105 => ⟨S64x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .i1⟩
  | 113 => ⟨S_, .f32⟩
  | 114 => ⟨S100000x64, .f32⟩
  | 115 => ⟨S100000x64, .f32⟩
  | 116 => ⟨S100000x64, .f32⟩
  | 117 => ⟨S100000x64, .f32⟩
  | 118 => ⟨S64x64, .f32⟩
  | 119 => ⟨S100000x64, .f32⟩
  | 120 => ⟨S1x64, .f32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .i1⟩
  | 127 => ⟨S_, .f32⟩
  | _ => ⟨S60000x1024, .f32⟩

abbrev hbmTy0_1 (i : Nat) : BufTy := match i % 128 with
  | 0 => ⟨S100000x64, .f32⟩
  | 1 => ⟨S100000x64, .f32⟩
  | 2 => ⟨S100000x64, .f32⟩
  | _ => ⟨S60000x1024, .f32⟩

abbrev hbmTy (i : Nat) : BufTy := match i / 128 with
  | 0 => hbmTy0_0 i
  | 1 => hbmTy0_1 i
  | _ => ⟨S60000x1024, .f32⟩

abbrev bufTy : (tb : Table) → Fin (tcTables nBuf tb) → BufTy
  | .hbm, ⟨i, _⟩ => hbmTy i
  | _, _ => ⟨S60000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v10 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_6 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_8 : Ref sig .tc := ⟨.hbm, 85, rfl⟩
abbrev main_v53 : Ref sig .tc := ⟨.hbm, 86, rfl⟩
abbrev main_v54 : Ref sig .tc := ⟨.hbm, 87, rfl⟩
abbrev main_c_9 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_11 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_13 : Ref sig .tc := ⟨.hbm, 110, rfl⟩
abbrev main_v73 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_15 : Ref sig .tc := ⟨.hbm, 124, rfl⟩
abbrev main_v85 : Ref sig .tc := ⟨.hbm, 125, rfl⟩
abbrev main_v86 : Ref sig .tc := ⟨.hbm, 126, rfl⟩
abbrev main_cst_16 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x1024_S1024x128_1_0 : S128x1024.Transposes [1, 0] S1024x128
  bcast_S128_S1x128_1 : S128.BroadcastsInDim S1x128 (![1] : Fin 1 → Fin S1x128.rank)
  bcast_S1x128_S60000x128_0_1 : S1x128.BroadcastsInDim S60000x128 (![0, 1] : Fin 2 → Fin S60000x128.rank)
  concatenates_S40000x128_S60000x128_S100000x128_d0 : Shape.Concatenates [S40000x128, S60000x128] S100000x128 0
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  dot_S60000x1024_S1024x128_S60000x128_1_0_0_1_n_n_wf : DotDims.WF S60000x1024 S1024x128 S60000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S60000x1024_S1024x128_S60000x128_1_0_0_1_n_n : DotDims S60000x1024 S1024x128 S60000x128 where
  lhsContracting := [1]
  rhsContracting := [0]
  lhsNonContracting := [0]
  rhsNonContracting := [1]
  lhsBatch := []
  rhsBatch := []
  wf := dot_S60000x1024_S1024x128_S60000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its RESULT named: every weakly fair execution of @main ends with the result
  array holding what the last boundary of the fold through @main holds there (`W10`), and with the argument
  arrays as launched.  The fold `W0 … W10` walks @main's ten segments: a stretch of host operations rewrites the
  contents by `StableHlo.after`, a kernel region replaces its output arrays by what its write-backs leave.
-/
import proofs.«124986_j71038759076272_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its ten segments, read at the result array and at every argument. -/
theorem run_value : θ_run defs (onTc (τ := τ) (main (F := F))) ⟨m, fun _ => 0, ρ⟩ (fun r => ∀ c : Dev nD,
      r.2.mem ((c.tc : Thread nD τ).loc main_v34) = W10 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v34 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.Whole

end
-- ==== Proof.KernelWalk.lean ====
/-
  Reading the fold through the idealized kernel's @main at the buffers its five regions and its host stretches read:
  an argument array is never written, so at every boundary it holds what it held at launch; the two index rows cut
  out of the edge list by the first stretch are never written again; each stretch's own results are its operations'
  values of what the previous boundary holds.
-/
import proofs.«124986_j71038759076272_1_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- A buffer no operation of the stretch writes is left as it was. -/
macro "host_keep" ops:ident : tactic => `(tactic|
  exact Idealize.ShloMosaic.StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Buffers that are carried unchanged -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keep hostOps0
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keep hostOps0
    _ = m ((c : Thread nD τ).loc main_arg3) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keep hostOps0
    _ = m ((c : Thread nD τ).loc main_arg2) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keep hostOps0
    _ = m ((c : Thread nD τ).loc main_arg7) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_keep hostOps1
    _ = W1 m ρ c (Proc.devRef .tc main_arg1) := W2_of_ne m ρ c main_arg1 (by decide)
    _ = W0 m ρ c (Proc.devRef .tc main_arg1) := by host_keep hostOps0
    _ = m ((c : Thread nD τ).loc main_arg1) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keep hostOps1
    _ = W1 m ρ c (Proc.devRef .tc main_arg5) := W2_of_ne m ρ c main_arg5 (by decide)
    _ = W0 m ρ c (Proc.devRef .tc main_arg5) := by host_keep hostOps0
    _ = m ((c : Thread nD τ).loc main_arg5) := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_keep hostOps1
    _ = W1 m ρ c (Proc.devRef .tc main_arg6) := W2_of_ne m ρ c main_arg6 (by decide)
    _ = W0 m ρ c (Proc.devRef .tc main_arg6) := by host_keep hostOps0
    _ = m ((c : Thread nD τ).loc main_arg6) := rfl

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keep hostOps1
    _ = W1 m ρ c (Proc.devRef .tc main_arg9) := W2_of_ne m ρ c main_arg9 (by decide)
    _ = W0 m ρ c (Proc.devRef .tc main_arg9) := by host_keep hostOps0
    _ = m ((c : Thread nD τ).loc main_arg9) := rfl

theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by host_keep hostOps2
    _ = W3 m ρ c (Proc.devRef .tc main_arg8) := W4_of_ne m ρ c main_arg8 (by decide)
    _ = W2 m ρ c (Proc.devRef .tc main_arg8) := by host_keep hostOps1
    _ = W1 m ρ c (Proc.devRef .tc main_arg8) := W2_of_ne m ρ c main_arg8 (by decide)
    _ = W0 m ρ c (Proc.devRef .tc main_arg8) := by host_keep hostOps0
    _ = m ((c : Thread nD τ).loc main_arg8) := rfl

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keep hostOps2
    _ = W3 m ρ c (Proc.devRef .tc main_arg12) := W4_of_ne m ρ c main_arg12 (by decide)
    _ = W2 m ρ c (Proc.devRef .tc main_arg12) := by host_keep hostOps1
    _ = W1 m ρ c (Proc.devRef .tc main_arg12) := W2_of_ne m ρ c main_arg12 (by decide)
    _ = W0 m ρ c (Proc.devRef .tc main_arg12) := by host_keep hostOps0
    _ = m ((c : Thread nD τ).loc main_arg12) := rfl

theorem W7_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by host_keep hostOps3
    _ = W5 m ρ c (Proc.devRef .tc main_arg1) := W6_of_ne m ρ c main_arg1 (by decide)
    _ = W4 m ρ c (Proc.devRef .tc main_arg1) := by host_keep hostOps2
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := by host_keep hostOps1
    _ = W1 m ρ c (Proc.devRef .tc main_arg1) := W2_of_ne m ρ c main_arg1 (by decide)
    _ = W0 m ρ c (Proc.devRef .tc main_arg1) := by host_keep hostOps0
    _ = m ((c : Thread nD τ).loc main_arg1) := rfl

theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by host_keep hostOps3
    _ = W5 m ρ c (Proc.devRef .tc main_arg10) := W6_of_ne m ρ c main_arg10 (by decide)
    _ = W4 m ρ c (Proc.devRef .tc main_arg10) := by host_keep hostOps2
    _ = W3 m ρ c (Proc.devRef .tc main_arg10) := W4_of_ne m ρ c main_arg10 (by decide)
    _ = W2 m ρ c (Proc.devRef .tc main_arg10) := by host_keep hostOps1
    _ = W1 m ρ c (Proc.devRef .tc main_arg10) := W2_of_ne m ρ c main_arg10 (by decide)
    _ = W0 m ρ c (Proc.devRef .tc main_arg10) := by host_keep hostOps0
    _ = m ((c : Thread nD τ).loc main_arg10) := rfl

theorem W7_arg11 (c : Dev nD) : W7 m ρ c (Proc.devRef .tc main_arg11) = m ((c : Thread nD τ).loc main_arg11) :=
  calc W7 m ρ c (Proc.devRef .tc main_arg11)
    _ = W6 m ρ c (Proc.devRef .tc main_arg11) := by host_keep hostOps3
    _ = W5 m ρ c (Proc.devRef .tc main_arg11) := W6_of_ne m ρ c main_arg11 (by decide)
    _ = W4 m ρ c (Proc.devRef .tc main_arg11) := by host_keep hostOps2
    _ = W3 m ρ c (Proc.devRef .tc main_arg11) := W4_of_ne m ρ c main_arg11 (by decide)
    _ = W2 m ρ c (Proc.devRef .tc main_arg11) := by host_keep hostOps1
    _ = W1 m ρ c (Proc.devRef .tc main_arg11) := W2_of_ne m ρ c main_arg11 (by decide)
    _ = W0 m ρ c (Proc.devRef .tc main_arg11) := by host_keep hostOps0
    _ = m ((c : Thread nD τ).loc main_arg11) := rfl

theorem W8_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := by host_keep hostOps3
    _ = W5 m ρ c (Proc.devRef .tc main_arg14) := W6_of_ne m ρ c main_arg14 (by decide)
    _ = W4 m ρ c (Proc.devRef .tc main_arg14) := by host_keep hostOps2
    _ = W3 m ρ c (Proc.devRef .tc main_arg14) := W4_of_ne m ρ c main_arg14 (by decide)
    _ = W2 m ρ c (Proc.devRef .tc main_arg14) := by host_keep hostOps1
    _ = W1 m ρ c (Proc.devRef .tc main_arg14) := W2_of_ne m ρ c main_arg14 (by decide)
    _ = W0 m ρ c (Proc.devRef .tc main_arg14) := by host_keep hostOps0
    _ = m ((c : Thread nD τ).loc main_arg14) := rfl

theorem W8_v1 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keep hostOps3
    _ = W5 m ρ c (Proc.devRef .tc main_v1) := W6_of_ne m ρ c main_v1 (by decide)
    _ = W4 m ρ c (Proc.devRef .tc main_v1) := by host_keep hostOps2
    _ = W3 m ρ c (Proc.devRef .tc main_v1) := W4_of_ne m ρ c main_v1 (by decide)
    _ = W2 m ρ c (Proc.devRef .tc main_v1) := by host_keep hostOps1
    _ = W1 m ρ c (Proc.devRef .tc main_v1) := W2_of_ne m ρ c main_v1 (by decide)

theorem W8_v3 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keep hostOps3
    _ = W5 m ρ c (Proc.devRef .tc main_v3) := W6_of_ne m ρ c main_v3 (by decide)
    _ = W4 m ρ c (Proc.devRef .tc main_v3) := by host_keep hostOps2
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)

theorem W9_arg13 (c : Dev nD) : W9 m ρ c (Proc.devRef .tc main_arg13) = m ((c : Thread nD τ).loc main_arg13) :=
  calc W9 m ρ c (Proc.devRef .tc main_arg13)
    _ = W8 m ρ c (Proc.devRef .tc main_arg13) := by host_keep hostOps4
    _ = W7 m ρ c (Proc.devRef .tc main_arg13) := W8_of_ne m ρ c main_arg13 (by decide)
    _ = W6 m ρ c (Proc.devRef .tc main_arg13) := by host_keep hostOps3
    _ = W5 m ρ c (Proc.devRef .tc main_arg13) := W6_of_ne m ρ c main_arg13 (by decide)
    _ = W4 m ρ c (Proc.devRef .tc main_arg13) := by host_keep hostOps2
    _ = W3 m ρ c (Proc.devRef .tc main_arg13) := W4_of_ne m ρ c main_arg13 (by decide)
    _ = W2 m ρ c (Proc.devRef .tc main_arg13) := by host_keep hostOps1
    _ = W1 m ρ c (Proc.devRef .tc main_arg13) := W2_of_ne m ρ c main_arg13 (by decide)
    _ = W0 m ρ c (Proc.devRef .tc main_arg13) := by host_keep hostOps0
    _ = m ((c : Thread nD τ).loc main_arg13) := rfl

end Cert.KernelIdeal.Whole

end
-- ==== Proof.KernelHost.lean ====
/-
  What each stretch of host operations of the idealized kernel's @main leaves in the buffers the next region reads,
  in terms of the previous boundary's contents: the bias vectors laid as rows, the user rows joined above the item
  rows, the two index rows of the edge list, and the neighbourhood sums (a gather of the source rows scattered and
  added into the destination rows).
-/
import proofs.«124986_j71038759076272_1_alg».proof.Proof.KernelWalk

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The neighbourhood sum over 128 columns: rows of `X` gathered at the (wrapped) source indices `e1`, added into the
    rows the destination indices `e3` name, from zero. -/
def agg128 (X : (⟨S100000x128, .f32⟩ : BufTy).Contents (Elt Ideal)) (e1 e3 : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 e3)
      (Host.gather gather_S100000x128_S1600000x1_S1600000x128_1_0_n_n_0_1_1128 X
        (broadcastInDim S1600000x1 ![0] bcast_S1600000_S1600000x1_0
          (select (cmpi .slt e1 (broadcastInDim S1600000 ![] bcast_S_S1600000 (constantI S_ 32 0#32)))
            (addi e1 (broadcastInDim S1600000 ![] bcast_S_S1600000 (constantI S_ 32 100000#32)))
            e1)))

/-- The same over 64 columns. -/
def agg64 (X : (⟨S100000x64, .f32⟩ : BufTy).Contents (Elt Ideal)) (e1 e3 : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 e3)
      (Host.gather gather_S100000x64_S1600000x1_S1600000x64_1_0_n_n_0_1_164 X
        (broadcastInDim S1600000x1 ![0] bcast_S1600000_S1600000x1_0
          (select (cmpi .slt e1 (broadcastInDim S1600000 ![] bcast_S_S1600000 (constantI S_ 32 0#32)))
            (addi e1 (broadcastInDim S1600000 ![] bcast_S_S1600000 (constantI S_ 32 100000#32)))
            e1)))

/-- Row `s` of the edge list as a vector. -/
def edgeRow0 (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
def edgeRow1 (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

theorem W1_v1 (c : Dev nD) : W1 m ρ c (Proc.devRef .tc main_v1) = edgeRow0 (m ((c : Thread nD τ).loc main_arg15)) := by
  show StableHlo.after hostOps0 (W0 m ρ c) (Proc.devRef .tc main_v1) = _
  after_results <;> rfl
theorem W1_v3 (c : Dev nD) : W1 m ρ c (Proc.devRef .tc main_v3) = edgeRow1 (m ((c : Thread nD τ).loc main_arg15)) := by
  show StableHlo.after hostOps0 (W0 m ρ c) (Proc.devRef .tc main_v3) = _
  after_results <;> rfl
theorem W1_v4 (c : Dev nD) : W1 m ρ c (Proc.devRef .tc main_v4) = (shapeCast S1x128 (m ((c : Thread nD τ).loc main_arg4)) shapeCasts_S128_S1x128 : S1x128.Idx → EReal) := by
  show StableHlo.after hostOps0 (W0 m ρ c) (Proc.devRef .tc main_v4) = _
  after_results <;> rfl

theorem W3_v6 (c : Dev nD) : W3 m ρ c (Proc.devRef .tc main_v6) =
    concatenate S100000x128 0 [⟨S40000x128, W2 m ρ c (Proc.devRef .tc main_arg2)⟩, ⟨S60000x128, W2 m ρ c (Proc.devRef .tc main_v5)⟩] concatenates_S40000x128_S60000x128_S100000x128_d0 := by
  show StableHlo.after hostOps1 (W2 m ρ c) (Proc.devRef .tc main_v6) = _
  after_results <;> rfl
theorem W3_v7 (c : Dev nD) : W3 m ρ c (Proc.devRef .tc main_v7) = (shapeCast S1x64 (W2 m ρ c (Proc.devRef .tc main_arg7)) shapeCasts_S64_S1x64 : S1x64.Idx → EReal) := by
  show StableHlo.after hostOps1 (W2 m ρ c) (Proc.devRef .tc main_v7) = _
  after_results <;> rfl

theorem W5_v18 (c : Dev nD) : W5 m ρ c (Proc.devRef .tc main_v18) = agg128 (W4 m ρ c (Proc.devRef .tc main_v8_0)) (W4 m ρ c (Proc.devRef .tc main_v1)) (W4 m ρ c (Proc.devRef .tc main_v3)) := by
  show StableHlo.after hostOps2 (W4 m ρ c) (Proc.devRef .tc main_v18) = _
  after_results <;> rfl
theorem W5_v8_1 (c : Dev nD) : W5 m ρ c (Proc.devRef .tc main_v8_1) = W4 m ρ c (Proc.devRef .tc main_v8_1) := by host_keep hostOps2
theorem W5_v19 (c : Dev nD) : W5 m ρ c (Proc.devRef .tc main_v19) = (shapeCast S1x64 (W4 m ρ c (Proc.devRef .tc main_arg9)) shapeCasts_S64_S1x64 : S1x64.Idx → EReal) := by
  show StableHlo.after hostOps2 (W4 m ρ c) (Proc.devRef .tc main_v19) = _
  after_results <;> rfl

theorem W7_v20 (c : Dev nD) : W7 m ρ c (Proc.devRef .tc main_v20) = W6 m ρ c (Proc.devRef .tc main_v20) := by host_keep hostOps3
theorem W7_v21 (c : Dev nD) : W7 m ρ c (Proc.devRef .tc main_v21) = (shapeCast S1x64 (W6 m ρ c (Proc.devRef .tc main_arg12)) shapeCasts_S64_S1x64 : S1x64.Idx → EReal) := by
  show StableHlo.after hostOps3 (W6 m ρ c) (Proc.devRef .tc main_v21) = _
  after_results <;> rfl

theorem W9_v32 (c : Dev nD) : W9 m ρ c (Proc.devRef .tc main_v32) = agg64 (W8 m ρ c (Proc.devRef .tc main_v22_0)) (W8 m ρ c (Proc.devRef .tc main_v1)) (W8 m ρ c (Proc.devRef .tc main_v3)) := by
  show StableHlo.after hostOps4 (W8 m ρ c) (Proc.devRef .tc main_v32) = _
  after_results <;> rfl
theorem W9_v22_1 (c : Dev nD) : W9 m ρ c (Proc.devRef .tc main_v22_1) = W8 m ρ c (Proc.devRef .tc main_v22_1) := by host_keep hostOps4
theorem W9_v33 (c : Dev nD) : W9 m ρ c (Proc.devRef .tc main_v33) = (shapeCast S1x64 (W8 m ρ c (Proc.devRef .tc main_arg14)) shapeCasts_S64_S1x64 : S1x64.Idx → EReal) := by
  show StableHlo.after hostOps4 (W8 m ρ c) (Proc.devRef .tc main_v33) = _
  after_results <;> rfl

end Cert.KernelIdeal.Whole

end
-- ==== Proof.Spec.lean ====
/-
  The mathematics of the certificate, with no program in sight: the row-wise formulas every stage of the two
  programs computes, on the extended reals.  A matrix is a function of a rank-2 index; every formula below reads
  its row operand at ONE row only, which is why a row tile of the kernel computes the rows of the whole array.

  * `dotT X W r n = Σ_k X(r,k) · W(n,k)`  (x @ w.T),  `dotN X C r n = Σ_k X(r,k) · C(k,n)`  (x @ c);
  * `unitAt X r k = X(r,k) / max (sqrt Σ_j X(r,j)²) ε`  (a row divided by its clamped length);
  * `leaky x = x if 0 < x, else slope · x`, spelt with the comparison and the selection the programs print.
-/
import Idealize.ShloMosaic.PureOps.Ideal
import Idealize.ShloMosaic.Lib.ValueIdx

noncomputable section

namespace Cert.Spec

open Idealize.ShloMosaic Idealize.ShloMosaic.ValueIdx

/-- A matrix of extended reals over a literal rank-2 shape. -/
abbrev Mat (a b : ℕ) : Type := (⟨2, ![a, b]⟩ : Shape).Idx → EReal
/-- A vector of extended reals over a literal rank-1 shape. -/
abbrev Vc (a : ℕ) : Type := (⟨1, ![a]⟩ : Shape).Idx → EReal

/-- The f32 word of zero, of the slope 0.01 (rounded) and of the clamp 1e-12 (rounded), as the programs print them. -/
def zeroW : EReal := Ideal.ofBits .f32 0x00000000#32
def slopeW : EReal := Ideal.ofBits .f32 0x3C23D70A#32
def epsW : EReal := Ideal.ofBits .f32 0x2B8CBCCC#32

/-- The leaky rectifier: `x` where `0 < x`, `slope · x` elsewhere. -/
def leaky (x : EReal) : EReal := Scalar.select (Ideal.cmp .ogt x zeroW) x (slopeW * x)

/-- Row `r` of `X` against row `n` of `W`: the entry of `X · Wᵀ`. -/
def dotT {R K N : ℕ} (X : Mat R K) (W : Mat N K) (r : Fin R) (n : Fin N) : EReal :=
  ∑ k : Fin K, X (ix2 r k) * W (ix2 n k)

/-- Row `r` of `X` against column `n` of `C`: the entry of `X · C`. -/
def dotN {R K N : ℕ} (X : Mat R K) (C : Mat K N) (r : Fin R) (n : Fin N) : EReal :=
  ∑ k : Fin K, X (ix2 r k) * C (ix2 k n)

/-- Row `r` of `X` divided by its length clamped below by ε. -/
def unitAt {R K : ℕ} (X : Mat R K) (r : Fin R) (k : Fin K) : EReal :=
  Ideal.div (X (ix2 r k)) (max (Ideal.sqrt (∑ j : Fin K, X (ix2 r j) * X (ix2 r j))) epsW)

/-- The unit rows as a matrix. -/
def unitRows {R K : ℕ} (X : Mat R K) : Mat R K := fun i => unitAt X (i 0) (i 1)

/-- The leaky rectifier of every entry. -/
def leakyAll {R K : ℕ} (X : Mat R K) : Mat R K := fun i => leaky (X i)

/-- The dense transform of the item features: `X · Wᵀ + b`. -/
def denseAt {R K N : ℕ} (X : Mat R K) (W : Mat N K) (b : Vc N) (r : Fin R) (n : Fin N) : EReal :=
  dotT X W r n + b (ix1 n)

/-- The embedding branch of a layer: `leaky (X · Lᵀ + lb) + E`. -/
def hatAt {R K N : ℕ} (X : Mat R K) (L : Mat N K) (lb : Vc N) (E : Mat R N) (r : Fin R) (n : Fin N) : EReal :=
  leaky (dotT X L r n + lb (ix1 n)) + E (ix2 r n)

/-- The combination closing a layer: `leaky ((leaky H · Gᵀ + gb) + Xhat)`. -/
def combAt {R K N : ℕ} (H : Mat R K) (Xh : Mat R N) (G : Mat N K) (gb : Vc N) (r : Fin R) (n : Fin N) : EReal :=
  leaky ((dotT (leakyAll H) G r n + gb (ix1 n)) + Xh (ix2 r n))

/-- The same formulas as whole matrices. -/
def dense {R K N : ℕ} (X : Mat R K) (W : Mat N K) (b : Vc N) : Mat R N := fun i => denseAt X W b (i 0) (i 1)
def conv {R K N : ℕ} (X : Mat R K) (C : Mat K N) : Mat R N := fun i => dotN X C (i 0) (i 1)
def hat {R K N : ℕ} (X : Mat R K) (L : Mat N K) (lb : Vc N) (E : Mat R N) : Mat R N := fun i => hatAt X L lb E (i 0) (i 1)
def comb {R K N : ℕ} (H : Mat R K) (Xh : Mat R N) (G : Mat N K) (gb : Vc N) : Mat R N := fun i => combAt H Xh G gb (i 0) (i 1)

theorem dense_ix2 {R K N : ℕ} (X : Mat R K) (W : Mat N K) (b : Vc N) (r : Fin R) (n : Fin N) :
    dense X W b (ix2 r n) = denseAt X W b r n := rfl
theorem conv_ix2 {R K N : ℕ} (X : Mat R K) (C : Mat K N) (r : Fin R) (n : Fin N) :
    conv X C (ix2 r n) = dotN X C r n := rfl
theorem hat_ix2 {R K N : ℕ} (X : Mat R K) (L : Mat N K) (lb : Vc N) (E : Mat R N) (r : Fin R) (n : Fin N) :
    hat X L lb E (ix2 r n) = hatAt X L lb E r n := rfl
theorem comb_ix2 {R K N : ℕ} (H : Mat R K) (Xh : Mat R N) (G : Mat N K) (gb : Vc N) (r : Fin R) (n : Fin N) :
    comb H Xh G gb (ix2 r n) = combAt H Xh G gb r n := rfl
theorem unitRows_ix2 {R K : ℕ} (X : Mat R K) (r : Fin R) (k : Fin K) : unitRows X (ix2 r k) = unitAt X r k := rfl
theorem leakyAll_apply {R K : ℕ} (X : Mat R K) (i) : leakyAll X i = leaky (X i) := rfl

end Cert.Spec

end
-- ==== Proof.TileBodies.lean ====
import proofs.«124986_j71038759076272_1_alg».proof.Proof.Spec
import proofs.«124986_j71038759076272_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.TileBodies

open Idealize.ShloMosaic Idealize.ShloMosaic.ValueIdx Idealize.SL.Sem Cert.KernelIdeal Cert.KernelIdeal.Gen

/-- The left operand's row coordinate is the result's row coordinate. -/
theorem matmulT_2000x1024_128_lhsNon (i : S2000x128.Idx) (q : dot_S2000x1024_S128x1024_S2000x128_1_1_0_0_n_n.contr.Idx) :
    (dot_S2000x1024_S128x1024_S2000x128_1_1_0_0_n_n.lhsIdx i q 0).val = (i 0).val := by
  unfold DotDims.lhsIdx
  rw [dif_neg (show ¬(0 : Fin S2000x1024.rank) ∈ dot_S2000x1024_S128x1024_S2000x128_1_1_0_0_n_n.lhsBatch by decide), dif_pos (show (0 : Fin S2000x1024.rank) ∈ dot_S2000x1024_S128x1024_S2000x128_1_1_0_0_n_n.lhsNonContracting by decide)]
  rfl
/-- The right operand's free coordinate is the result's column coordinate. -/
theorem matmulT_2000x1024_128_rhsNon (i : S2000x128.Idx) (q : dot_S2000x1024_S128x1024_S2000x128_1_1_0_0_n_n.contr.Idx) :
    (dot_S2000x1024_S128x1024_S2000x128_1_1_0_0_n_n.rhsIdx i q 0).val = (i 1).val := by
  unfold DotDims.rhsIdx
  rw [dif_neg (show ¬(0 : Fin S128x1024.rank) ∈ dot_S2000x1024_S128x1024_S2000x128_1_1_0_0_n_n.rhsBatch by decide), dif_pos (show (0 : Fin S128x1024.rank) ∈ dot_S2000x1024_S128x1024_S2000x128_1_1_0_0_n_n.rhsNonContracting by decide)]
  rfl
/-- A [2000,1024] block times the transpose of a [128,1024] block, accumulated into zero, at (p, n): the sum over the shared axis. -/
theorem matmulT_2000x1024_128 (x : FVec Ideal S2000x1024 .bf16) (w : FVec Ideal S128x1024 .bf16) (p : Fin 2000) (n : Fin 128) :
    matmul dot_S2000x1024_S128x1024_S2000x128_1_1_0_0_n_n none x w (constant S2000x128 .f32 0x00000000#32) (ix2 p n)
      = ∑ k : Fin 1024, x (ix2 p k) * w (ix2 n k) := by
  refine (Ideal.matmul_constant_zero_apply dot_S2000x1024_S128x1024_S2000x128_1_1_0_0_n_n none x w (ix2 p n)).trans ?_
  rw [← Equiv.sum_comp (contrEquiv1 dot_S2000x1024_S128x1024_S2000x128_1_1_0_0_n_n 1024 rfl rfl).symm]
  refine Finset.sum_congr rfl fun k _ => ?_
  have hk := contrEquiv1_symm_val dot_S2000x1024_S128x1024_S2000x128_1_1_0_0_n_n 1024 rfl rfl k
  have el : dot_S2000x1024_S128x1024_S2000x128_1_1_0_0_n_n.lhsIdx (ix2 p n) ((contrEquiv1 dot_S2000x1024_S128x1024_S2000x128_1_1_0_0_n_n 1024 rfl rfl).symm k) = ix2 p k := funext fun a => Fin.ext (by
    match a with
    | ⟨0, _⟩ => exact matmulT_2000x1024_128_lhsNon _ _
    | ⟨1, _⟩ => exact (dot_S2000x1024_S128x1024_S2000x128_1_1_0_0_n_n.lhsIdx_val_of_single rfl _ _).trans hk)
  have er : dot_S2000x1024_S128x1024_S2000x128_1_1_0_0_n_n.rhsIdx (ix2 p n) ((contrEquiv1 dot_S2000x1024_S128x1024_S2000x128_1_1_0_0_n_n 1024 rfl rfl).symm k) = ix2 n k := funext fun a => Fin.ext (by
    match a with
    | ⟨0, _⟩ => exact matmulT_2000x1024_128_rhsNon _ _
    | ⟨1, _⟩ => exact (dot_S2000x1024_S128x1024_S2000x128_1_1_0_0_n_n.rhsIdx_val_of_single rfl _ _).trans hk)
  rw [el, er]

/-- The left operand's row coordinate is the result's row coordinate. -/
theorem matmulN_5000x128_128_lhsNon (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's free coordinate is the result's column coordinate. -/
theorem matmulN_5000x128_128_rhsNon (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- A [5000,128] block times a [128,128] block, accumulated into zero, at (p, n): the sum over the shared axis. -/
theorem matmulN_5000x128_128 (x : FVec Ideal S5000x128 .bf16) (w : FVec Ideal S128x128 .bf16) (p : Fin 5000) (n : Fin 128) :
    matmul dot_S5000x128_S128x128_S5000x128_1_0_0_1_n_n none x w (constant S5000x128 .f32 0x00000000#32) (ix2 p n)
      = ∑ k : Fin 128, x (ix2 p k) * w (ix2 k n) := by
  refine (Ideal.matmul_constant_zero_apply dot_S5000x128_S128x128_S5000x128_1_0_0_1_n_n none x w (ix2 p n)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p n) ((contrEquiv1 dot_S5000x128_S128x128_S5000x128_1_0_0_1_n_n 128 rfl rfl).symm k) = ix2 p k := funext fun a => Fin.ext (by
    match a with
    | ⟨0, _⟩ => exact matmulN_5000x128_128_lhsNon _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p n) ((contrEquiv1 dot_S5000x128_S128x128_S5000x128_1_0_0_1_n_n 128 rfl rfl).symm k) = ix2 k n := funext fun a => Fin.ext (by
    match a with
    | ⟨0, _⟩ => exact (dot_S5000x128_S128x128_S5000x128_1_0_0_1_n_n.rhsIdx_val_of_single rfl _ _).trans hk
    | ⟨1, _⟩ => exact matmulN_5000x128_128_rhsNon _ _)
  rw [el, er]

/-- The left operand's row coordinate is the result's row coordinate. -/
theorem matmulT_5000x128_64_lhsNon (i : S5000x64.Idx) (q : dot_S5000x128_S64x128_S5000x64_1_1_0_0_n_n.contr.Idx) :
    (dot_S5000x128_S64x128_S5000x64_1_1_0_0_n_n.lhsIdx i q 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
/-- The right operand's free coordinate is the result's column coordinate. -/
theorem matmulT_5000x128_64_rhsNon (i : S5000x64.Idx) (q : dot_S5000x128_S64x128_S5000x64_1_1_0_0_n_n.contr.Idx) :
    (dot_S5000x128_S64x128_S5000x64_1_1_0_0_n_n.rhsIdx i q 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
/-- A [5000,128] block times the transpose of a [64,128] block, accumulated into zero, at (p, n): the sum over the shared axis. -/
theorem matmulT_5000x128_64 (x : FVec Ideal S5000x128 .bf16) (w : FVec Ideal S64x128 .bf16) (p : Fin 5000) (n : Fin 64) :
    matmul dot_S5000x128_S64x128_S5000x64_1_1_0_0_n_n none x w (constant S5000x64 .f32 0x00000000#32) (ix2 p n)
      = ∑ k : Fin 128, x (ix2 p k) * w (ix2 n k) := by
  refine (Ideal.matmul_constant_zero_apply dot_S5000x128_S64x128_S5000x64_1_1_0_0_n_n none x w (ix2 p n)).trans ?_
  rw [← Equiv.sum_comp (contrEquiv1 dot_S5000x128_S64x128_S5000x64_1_1_0_0_n_n 128 rfl rfl).symm]
  refine Finset.sum_congr rfl fun k _ => ?_
  have hk := contrEquiv1_symm_val dot_S5000x128_S64x128_S5000x64_1_1_0_0_n_n 128 rfl rfl k
  have el : dot_S5000x128_S64x128_S5000x64_1_1_0_0_n_n.lhsIdx (ix2 p n) ((contrEquiv1 dot_S5000x128_S64x128_S5000x64_1_1_0_0_n_n 128 rfl rfl).symm k) = ix2 p k := funext fun a => Fin.ext (by
    match a with
    | ⟨0, _⟩ => exact matmulT_5000x128_64_lhsNon _ _
    | ⟨1, _⟩ => exact (dot_S5000x128_S64x128_S5000x64_1_1_0_0_n_n.lhsIdx_val_of_single rfl _ _).trans hk)
  have er : dot_S5000x128_S64x128_S5000x64_1_1_0_0_n_n.rhsIdx (ix2 p n) ((contrEquiv1 dot_S5000x128_S64x128_S5000x64_1_1_0_0_n_n 128 rfl rfl).symm k) = ix2 n k := funext fun a => Fin.ext (by
    match a with
    | ⟨0, _⟩ => exact matmulT_5000x128_64_rhsNon _ _
    | ⟨1, _⟩ => exact (dot_S5000x128_S64x128_S5000x64_1_1_0_0_n_n.rhsIdx_val_of_single rfl _ _).trans hk)
  rw [el, er]

/-- The left operand's row coordinate is the result's row coordinate. -/
theorem matmulN_5000x64_64_lhsNon (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The right operand's free coordinate is the result's column coordinate. -/
theorem matmulN_5000x64_64_rhsNon (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- A [5000,64] block times a [64,64] block, accumulated into zero, at (p, n): the sum over the shared axis. -/
theorem matmulN_5000x64_64 (x : FVec Ideal S5000x64 .bf16) (w : FVec Ideal S64x64 .bf16) (p : Fin 5000) (n : Fin 64) :
    matmul dot_S5000x64_S64x64_S5000x64_1_0_0_1_n_n none x w (constant S5000x64 .f32 0x00000000#32) (ix2 p n)
      = ∑ k : Fin 64, x (ix2 p k) * w (ix2 k n) := by
  refine (Ideal.matmul_constant_zero_apply dot_S5000x64_S64x64_S5000x64_1_0_0_1_n_n none x w (ix2 p n)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p n) ((contrEquiv1 dot_S5000x64_S64x64_S5000x64_1_0_0_1_n_n 64 rfl rfl).symm k) = ix2 p k := funext fun a => Fin.ext (by
    match a with
    | ⟨0, _⟩ => exact matmulN_5000x64_64_lhsNon _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p n) ((contrEquiv1 dot_S5000x64_S64x64_S5000x64_1_0_0_1_n_n 64 rfl rfl).symm k) = ix2 k n := funext fun a => Fin.ext (by
    match a with
    | ⟨0, _⟩ => exact (dot_S5000x64_S64x64_S5000x64_1_0_0_1_n_n.rhsIdx_val_of_single rfl _ _).trans hk
    | ⟨1, _⟩ => exact matmulN_5000x64_64_rhsNon _ _)
  rw [el, er]

/-- The left operand's row coordinate is the result's row coordinate. -/
theorem matmulT_5000x64_64_lhsNon (i : S5000x64.Idx) (q : dot_S5000x64_S64x64_S5000x64_1_1_0_0_n_n.contr.Idx) :
    (dot_S5000x64_S64x64_S5000x64_1_1_0_0_n_n.lhsIdx i q 0).val = (i 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
/-- The right operand's free coordinate is the result's column coordinate. -/
theorem matmulT_5000x64_64_rhsNon (i : S5000x64.Idx) (q : dot_S5000x64_S64x64_S5000x64_1_1_0_0_n_n.contr.Idx) :
    (dot_S5000x64_S64x64_S5000x64_1_1_0_0_n_n.rhsIdx i q 0).val = (i 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
/-- A [5000,64] block times the transpose of a [64,64] block, accumulated into zero, at (p, n): the sum over the shared axis. -/
theorem matmulT_5000x64_64 (x : FVec Ideal S5000x64 .bf16) (w : FVec Ideal S64x64 .bf16) (p : Fin 5000) (n : Fin 64) :
    matmul dot_S5000x64_S64x64_S5000x64_1_1_0_0_n_n none x w (constant S5000x64 .f32 0x00000000#32) (ix2 p n)
      = ∑ k : Fin 64, x (ix2 p k) * w (ix2 n k) := by
  refine (Ideal.matmul_constant_zero_apply dot_S5000x64_S64x64_S5000x64_1_1_0_0_n_n none x w (ix2 p n)).trans ?_
  rw [← Equiv.sum_comp (contrEquiv1 dot_S5000x64_S64x64_S5000x64_1_1_0_0_n_n 64 rfl rfl).symm]
  refine Finset.sum_congr rfl fun k _ => ?_
  have hk := contrEquiv1_symm_val dot_S5000x64_S64x64_S5000x64_1_1_0_0_n_n 64 rfl rfl k
  have el : dot_S5000x64_S64x64_S5000x64_1_1_0_0_n_n.lhsIdx (ix2 p n) ((contrEquiv1 dot_S5000x64_S64x64_S5000x64_1_1_0_0_n_n 64 rfl rfl).symm k) = ix2 p k := funext fun a => Fin.ext (by
    match a with
    | ⟨0, _⟩ => exact matmulT_5000x64_64_lhsNon _ _
    | ⟨1, _⟩ => exact (dot_S5000x64_S64x64_S5000x64_1_1_0_0_n_n.lhsIdx_val_of_single rfl _ _).trans hk)
  have er : dot_S5000x64_S64x64_S5000x64_1_1_0_0_n_n.rhsIdx (ix2 p n) ((contrEquiv1 dot_S5000x64_S64x64_S5000x64_1_1_0_0_n_n 64 rfl rfl).symm k) = ix2 n k := funext fun a => Fin.ext (by
    match a with
    | ⟨0, _⟩ => exact matmulT_5000x64_64_rhsNon _ _
    | ⟨1, _⟩ => exact (dot_S5000x64_S64x64_S5000x64_1_1_0_0_n_n.rhsIdx_val_of_single rfl _ _).trans hk)
  rw [el, er]

/-- A vector viewed as one column reads, at (i, 0), its entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Comparing with zero and selecting between an entry and its slope multiple is the leaky rectifier of the entry; here followed by a sum. -/
theorem leaky_add_apply {s : Shape} (v e : FVec Ideal s .f32) (i : s.Idx) :
    addf (select (cmpf .ogt v (broadcast s (Scalar.ofBits .f32 0x00000000#32))) v
      (mulf (broadcast s (Scalar.ofBits .f32 0x3C23D70A#32)) v)) e i = Spec.leaky (v i) + e i := rfl

/-- Comparing with zero and selecting between an entry and its slope multiple is the leaky rectifier of the entry. -/
theorem leaky_apply {s : Shape} (v : FVec Ideal s .f32) (i : s.Idx) :
    select (cmpf .ogt v (broadcast s (Scalar.ofBits .f32 0x00000000#32))) v
      (mulf (broadcast s (Scalar.ofBits .f32 0x3C23D70A#32)) v) i = Spec.leaky (v i) := rfl

/-- The first kernel's body at (p, n): row p of x against row n of w, plus the bias at n. -/
theorem k0_pay1_apply (x : Vec Ideal S2000x1024 .f32) (w : Vec Ideal S128x1024 .f32) (b : Vec Ideal S1x128 .f32)
    (p : Fin 2000) (n : Fin 128) :
    k0_pay1 (F := Ideal) x w b (ix2 p n) = Spec.dotT x w p n + b (ix2 0 n) := by
  unfold k0_pay1
  refine (addf_apply _ _ _).trans ?_
  refine congrArg₂ (· + ·) ?_ ?_
  · exact matmulT_2000x1024_128 _ _ p n
  · refine (broadcastTo_1b_ab_apply _ broadcasts_S1x128_S2000x128 p n).trans ?_
    rw [shapeCast_self]

/-- The sum of squares along a row, as the lane reduction computes it. -/
theorem rowSumSq_apply (x : FVec Ideal S5000x128 .f32) (p : Fin 5000)
    (hφ : FKind.Formats .f32) (hacc : (0x00000000#32 : BitVec 32) = FKind.add.neutral .f32 hφ) :
    multiReduction .add [1] S5000 (mulf x x) 0x00000000#32 reduces_S5000x128_S5000 hφ hacc (ix1 p)
      = ∑ j : Fin 128, x (ix2 p j) * x (ix2 p j) := by
  refine (Ideal.multiReduction_add_single (mulf x x) 0x00000000#32 reduces_S5000x128_S5000 hφ hacc (ix1 p)).trans ?_
  refine Finset.sum_congr rfl fun j _ => ?_
  have e : reduces_S5000x128_S5000.lift (ix1 p) j = ix2 p j := funext fun a => Fin.ext (by
    match a with
    | ⟨0, _⟩ => rfl
    | ⟨1, _⟩ => rfl)
  rw [e]
  rfl

/-- The unit rows the second kernel forms: each entry divided by its row's clamped length. -/
theorem k1_pay1_apply (x : Vec Ideal S5000x128 .f32) (p : Fin 5000) (k : Fin 128) :
    k1_pay1 (F := Ideal) x (ix2 p k) = Spec.unitAt x p k := by
  unfold k1_pay1 Spec.unitAt
  rw [shapeCast_self]
  refine congrArg₂ Ideal.div rfl ?_
  refine (broadcastTo_a1_ab_apply _ broadcasts_S5000x1_S5000x128 p k).trans ?_
  refine congrArg₂ max ?_ rfl
  refine congrArg Ideal.sqrt ?_
  refine (shapeCast_a_a1_apply _ shapeCasts_S5000_S5000x1 p 0).trans ?_
  exact rowSumSq_apply x p _ _

/-- The same for every index at once: the block of unit rows is the matrix of unit rows. -/
theorem k1_pay1_eq (x : Vec Ideal S5000x128 .f32) : k1_pay1 (F := Ideal) x = Spec.unitRows x := by
  funext i
  rw [eq_ix2 i]
  exact k1_pay1_apply x (i 0) (i 1)

/-- The product with the square block at (p, n): row p against column n of c. -/
theorem k1_pay2_apply (x : Vec Ideal S5000x128 .f32) (c : Vec Ideal S128x128 .f32) (p : Fin 5000) (n : Fin 128) :
    k1_pay2 (F := Ideal) x c (ix2 p n) = Spec.dotN (Spec.unitRows x) c p n := by
  unfold k1_pay2
  refine (matmulN_5000x128_128 _ _ p n).trans ?_
  rw [k1_pay1_eq]
  rfl

/-- The embedding branch at (p, n): the leaky rectifier of row p against row n of l plus the bias, plus the entry of e. -/
theorem k1_pay3_apply (x : Vec Ideal S5000x128 .f32) (l : Vec Ideal S64x128 .f32) (lb : Vec Ideal S1x64 .f32)
    (e : Vec Ideal S5000x64 .f32) (p : Fin 5000) (n : Fin 64) :
    k1_pay3 (F := Ideal) x l lb e (ix2 p n)
      = Spec.leaky (Spec.dotT (Spec.unitRows x) l p n + lb (ix2 0 n)) + e (ix2 p n) := by
  unfold k1_pay3
  refine (leaky_add_apply _ _ _).trans ?_
  refine congrArg (fun t => Spec.leaky t + e (ix2 p n)) ?_
  refine (addf_apply _ _ _).trans ?_
  refine congrArg₂ (· + ·) ?_ ?_
  · refine (matmulT_5000x128_64 _ _ p n).trans ?_
    rw [k1_pay1_eq]
    rfl
  · refine (broadcastTo_1b_ab_apply _ broadcasts_S1x64_S5000x64 p n).trans ?_
    rw [shapeCast_self]

/-- The combination at (p, n): the leaky rectifier of (leaky h) row p against row n of g, plus the bias, plus the entry of xh. -/
theorem k2_pay1_apply (h : Vec Ideal S5000x128 .f32) (g : Vec Ideal S64x128 .f32) (gb : Vec Ideal S1x64 .f32)
    (xh : Vec Ideal S5000x64 .f32) (p : Fin 5000) (n : Fin 64) :
    k2_pay1 (F := Ideal) h g gb xh (ix2 p n)
      = Spec.leaky ((Spec.dotT (Spec.leakyAll h) g p n + gb (ix2 0 n)) + xh (ix2 p n)) := by
  unfold k2_pay1
  refine (leaky_apply _ _).trans ?_
  refine congrArg Spec.leaky ?_
  refine (addf_apply _ _ _).trans ?_
  refine congrArg₂ (· + ·) ?_ ?_
  · refine (addf_apply _ _ _).trans ?_
    refine congrArg₂ (· + ·) ?_ ?_
    · refine (matmulT_5000x128_64 _ _ p n).trans ?_
      rw [shapeCast_self]
      rfl
    · refine (broadcastTo_1b_ab_apply _ broadcasts_S1x64_S5000x64 p n).trans ?_
      rw [shapeCast_self]
  · rw [shapeCast_self]

/-- The product with the square block at (p, n): row p against column n of c. -/
theorem k3_pay2_apply (x : Vec Ideal S5000x64 .f32) (c : Vec Ideal S64x64 .f32) (p : Fin 5000) (n : Fin 64) :
    k3_pay2 (F := Ideal) x c (ix2 p n) = Spec.dotN x c p n := by
  unfold k3_pay2
  refine (matmulN_5000x64_64 _ _ p n).trans ?_
  unfold k3_pay1
  rw [shapeCast_self]
  rfl

/-- The embedding branch at (p, n): the leaky rectifier of row p against row n of l plus the bias, plus the entry of e. -/
theorem k3_pay3_apply (x : Vec Ideal S5000x64 .f32) (l : Vec Ideal S64x64 .f32) (lb : Vec Ideal S1x64 .f32)
    (e : Vec Ideal S5000x64 .f32) (p : Fin 5000) (n : Fin 64) :
    k3_pay3 (F := Ideal) x l lb e (ix2 p n)
      = Spec.leaky (Spec.dotT x l p n + lb (ix2 0 n)) + e (ix2 p n) := by
  unfold k3_pay3
  refine (leaky_add_apply _ _ _).trans ?_
  refine congrArg (fun t => Spec.leaky t + e (ix2 p n)) ?_
  refine (addf_apply _ _ _).trans ?_
  refine congrArg₂ (· + ·) ?_ ?_
  · refine (matmulT_5000x64_64 _ _ p n).trans ?_
    unfold k3_pay1
    rw [shapeCast_self]
    rfl
  · refine (broadcastTo_1b_ab_apply _ broadcasts_S1x64_S5000x64 p n).trans ?_
    rw [shapeCast_self]

/-- The combination at (p, n): the leaky rectifier of (leaky h) row p against row n of g, plus the bias, plus the entry of xh. -/
theorem k4_pay1_apply (h : Vec Ideal S5000x64 .f32) (g : Vec Ideal S64x64 .f32) (gb : Vec Ideal S1x64 .f32)
    (xh : Vec Ideal S5000x64 .f32) (p : Fin 5000) (n : Fin 64) :
    k4_pay1 (F := Ideal) h g gb xh (ix2 p n)
      = Spec.leaky ((Spec.dotT (Spec.leakyAll h) g p n + gb (ix2 0 n)) + xh (ix2 p n)) := by
  unfold k4_pay1
  refine (leaky_apply _ _).trans ?_
  refine congrArg Spec.leaky ?_
  refine (addf_apply _ _ _).trans ?_
  refine congrArg₂ (· + ·) ?_ ?_
  · refine (addf_apply _ _ _).trans ?_
    refine congrArg₂ (· + ·) ?_ ?_
    · refine (matmulT_5000x64_64 _ _ p n).trans ?_
      rw [shapeCast_self]
      rfl
    · refine (broadcastTo_1b_ab_apply _ broadcasts_S1x64_S5000x64 p n).trans ?_
      rw [shapeCast_self]
  · rw [shapeCast_self]

end Cert.TileBodies

end
-- ==== Proof.Region0.lean ====
/-
  Region 0 of the idealized kernel (the dense transform of the item features), as a whole array: the 30 grid points
  each write a tile of 2000 rows, tile t holding rows 2000·t … 2000·t + 1999 of  X · Wᵀ + bias row,  where X is read
  through the same rows and the weights and the bias row are read whole.  The tiles cover the array.
-/
import proofs.«124986_j71038759076272_1_alg».proof.Proof.Spec
import proofs.«124986_j71038759076272_1_alg».proof.Proof.TileBodies
import proofs.«124986_j71038759076272_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Region 0's printed index maps over its 30 points: the row tile moves with the point, the weights and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem blk0_0 (c : Dev nD) (t : Fin cfg0.N) (p : Fin 2000) (k : Fin 1024) (r : Fin 60000) (hr : r.val = 2000 * t.val + p.val) :
    (iblk0 V c 0 t : Vec Ideal S2000x1024 .f32) (ix2 p k) = (V c main_arg0 : S60000x1024.Idx → EReal) (ix2 r k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * p.val = r.val; rw [e0, hr]; omega
  | ⟨1, _⟩ => show win0_0.index t 1 * 1024 + 1 * k.val = k.val; rw [e1]; omega

theorem blk0_1 (c : Dev nD) (t : Fin cfg0.N) (p : Fin 128) (k : Fin 1024) :
    (iblk0 V c 1 t : Vec Ideal S128x1024 .f32) (ix2 p k) = (V c main_arg3 : S128x1024.Idx → EReal) (ix2 p k) := by
  obtain ⟨-, -, e0, e1, -⟩ := idx0 t
  unfold iblk0
  rw [View.read_apply]
  show V c main_arg3 _ = V c main_arg3 _
  congr 1
  funext a
  apply Fin.ext
  match a with
  | ⟨0, _⟩ => show win0_1.index t 0 * 128 + 1 * p.val = p.val; rw [e0]; omega
  | ⟨1, _⟩ => show win0_1.index t 1 * 1024 + 1 * k.val = k.val; rw [e1]; omega

theorem blk0_2 (c : Dev nD) (t : Fin cfg0.N) (p : Fin 1) (k : Fin 128) :
    (iblk0 V c 2 t : Vec Ideal S1x128 .f32) (ix2 p k) = (V c main_v4 : S1x128.Idx → EReal) (ix2 p k) := by
  obtain ⟨-, -, -, -, e0, e1, -⟩ := idx0 t
  unfold iblk0
  rw [View.read_apply]
  show V c main_v4 _ = V c main_v4 _
  congr 1
  funext a
  apply Fin.ext
  match a with
  | ⟨0, _⟩ => show win0_2.index t 0 * 1 + 1 * p.val = p.val; rw [e0]; omega
  | ⟨1, _⟩ => show win0_2.index t 1 * 128 + 1 * k.val = k.val; rw [e1]; omega

/-- What region 0 leaves in its output array: X · Wᵀ plus the bias row. -/
def G0 (X : Spec.Mat 60000 1024) (W : Spec.Mat 128 1024) (B : Spec.Mat 1 128) : Spec.Mat 60000 128 :=
  fun i => Spec.dotT X W (i 0) (i 1) + B (ix2 0 (i 1))

theorem flushed0 (c : Dev nD) (t : Fin cfg0.N) :
    (dat0 V c).flushed 3 t = ((cfg0.win 3).blk t).view.read (Elt Ideal) (G0 (V c main_arg0) (V c main_arg3) (V c main_v4)) := by
  show (cfg0.win 3).cut (grid0.coords t) ((dat0 V c).after 3 t) = _
  rw [after0_3]
  unfold out0_3
  rw [View.canon_unit_zero hz]
  simp only [View.ld_unit_zero (S := S2000x1024) hz, View.ld_unit_zero (S := S128x1024) hz, View.ld_unit_zero (S := S1x128) hz]
  obtain ⟨-, -, -, -, -, -, e0, e1⟩ := idx0 t
  funext j
  obtain ⟨p, n, rfl⟩ : ∃ (p : Fin 2000) (n : Fin 128), j = ix2 p n := ⟨j 0, j 1, eq_ix2 j⟩
  have hN : cfg0.N = 30 := N_0
  have ht : t.val < 30 := hN ▸ t.isLt
  have he : ((cfg0.win 3).blk t).view.emb (ix2 p n) = (ix2 (⟨2000 * t.val + p.val, by omega⟩ : Fin 60000) n : S60000x128.Idx) := by
    funext a
    apply Fin.ext
    match a with
    | ⟨0, _⟩ => show win0_3.index t 0 * 2000 + 1 * p.val = 2000 * t.val + p.val; rw [e0]; omega
    | ⟨1, _⟩ => show win0_3.index t 1 * 128 + 1 * n.val = n.val; rw [e1]; omega
  show k0_pay1 (F := Ideal) (iblk0 V c 0 t) (iblk0 V c 1 t) (iblk0 V c 2 t) (ix2 p n) = G0 (V c main_arg0) (V c main_arg3) (V c main_v4) (((cfg0.win 3).blk t).view.emb (ix2 p n))
  rw [he]
  refine (Cert.TileBodies.k0_pay1_apply _ _ _ p n).trans ?_
  show Spec.dotT _ _ p n + _ = Spec.dotT _ _ (⟨2000 * t.val + p.val, by omega⟩ : Fin 60000) n + _
  unfold Spec.dotT
  congr 1
  · refine Finset.sum_congr rfl fun k _ => ?_
    rw [blk0_0 V c t p k ⟨2000 * t.val + p.val, by omega⟩ rfl, blk0_1 V c t n k]
  · exact blk0_2 V c t 0 n

theorem cover0 (i : S60000x128.Idx) : ∃ t : Fin cfg0.N, (cfg0.win 3).flush t = true ∧ i ∈ ((cfg0.win 3).blk t).view.set := by
  have hi0 : (i 0).val < 60000 := (i 0).isLt
  have hi1 : (i 1).val < 128 := (i 1).isLt
  have hN : cfg0.N = 30 := N_0
  let t : Fin cfg0.N := ⟨(i 0).val / 2000, by rw [hN]; omega⟩
  obtain ⟨-, -, -, -, -, -, e0, e1⟩ := idx0 t
  refine ⟨t, flush0_3 t, ?_⟩
  show i ∈ ((View.whole main_v5).slice (win0_3.rect t)).set
  rw [View.set_slice_whole, Rect.mem_set_unit]
  intro a
  have ht : t.val = (i 0).val / 2000 := rfl
  match a with
  | ⟨0, _⟩ => show win0_3.index t 0 * 2000 ≤ (i 0).val ∧ (i 0).val < win0_3.index t 0 * 2000 + 2000; rw [e0, ht]; omega
  | ⟨1, _⟩ => show win0_3.index t 1 * 128 ≤ (i 1).val ∧ (i 1).val < win0_3.index t 1 * 128 + 128; rw [e1]; omega

theorem arr0 (c : Dev nD) : (dat0 V c).arrAt 3 cfg0.N = G0 (V c main_arg0) (V c main_arg3) (V c main_v4) :=
  (dat0 V c).arrAt_eq_of_cover 3 _ (fun t _ => flushed0 V c t) cover0

end Cert.KernelIdeal.Whole

end
-- ==== Proof.Region1.lean ====
/-
  Region 1 of the idealized kernel, as whole arrays: the 20 grid points each write a tile of 5000 rows of two arrays,
  tile t holding rows 5000·t … 5000·t + 4999 of  unit(X) · C  and of  leaky(unit(X) · Lᵀ + bias row) + E,  where unit(X)
  divides each row of X by its clamped length, X and E are read through the same rows and C, L and the bias row are read
  whole.  A unit row depends on its own row only, so a tile's unit rows are the array's.  The tiles cover the arrays.
-/
import proofs.«124986_j71038759076272_1_alg».proof.Proof.Spec
import proofs.«124986_j71038759076272_1_alg».proof.Proof.TileBodies
import proofs.«124986_j71038759076272_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- A unit row depends on its own row only: two matrices that agree on a row have the same unit row there. -/
theorem unitAt_congr {R R' K : ℕ} (A : Spec.Mat R K) (X : Spec.Mat R' K) (p : Fin R) (r : Fin R')
    (h : ∀ j : Fin K, A (ix2 p j) = X (ix2 r j)) (k : Fin K) : Spec.unitAt A p k = Spec.unitAt X r k := by
  unfold Spec.unitAt
  have hs : (∑ j : Fin K, A (ix2 p j) * A (ix2 p j)) = ∑ j : Fin K, X (ix2 r j) * X (ix2 r j) :=
    Finset.sum_congr rfl fun j _ => by rw [h j]
  rw [h k, hs]

/-- Region 1's index maps over its 20 points: a row tile moves with the point, an array read whole stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row p of the tile of window 0 at point t is row 5000·t + p of its array. -/
theorem blk1_0 (c : Dev nD) (t : Fin cfg1.N) (p : Fin 5000) (k : Fin 128) (r : Fin 100000) (hr : r.val = 5000 * t.val + p.val) :
    (iblk1 V c 0 t : Vec Ideal S5000x128 .f32) (ix2 p k) = (V c main_v6 : S100000x128.Idx → EReal) (ix2 r k) := by
  obtain ⟨e0_0, e0_1, e1_0, e1_1, e2_0, e2_1, e3_0, e3_1, e4_0, e4_1, e5_0, e5_1, e6_0, e6_1⟩ := idx1 t
  unfold iblk1
  rw [View.read_apply]
  show V c main_v6 _ = V c main_v6 _
  congr 1
  funext a
  apply Fin.ext
  match a with
  | ⟨0, _⟩ => show win1_0.index t 0 * 5000 + 1 * p.val = r.val; rw [e0_0, hr]; omega
  | ⟨1, _⟩ => show win1_0.index t 1 * 128 + 1 * k.val = k.val; rw [e0_1]; omega

/-- Row p of the tile of window 1 at point t is row 5000·t + p of its array. -/
theorem blk1_1 (c : Dev nD) (t : Fin cfg1.N) (p : Fin 5000) (k : Fin 64) (r : Fin 100000) (hr : r.val = 5000 * t.val + p.val) :
    (iblk1 V c 1 t : Vec Ideal S5000x64 .f32) (ix2 p k) = (V c main_arg1 : S100000x64.Idx → EReal) (ix2 r k) := by
  obtain ⟨e0_0, e0_1, e1_0, e1_1, e2_0, e2_1, e3_0, e3_1, e4_0, e4_1, e5_0, e5_1, e6_0, e6_1⟩ := idx1 t
  unfold iblk1
  rw [View.read_apply]
  show V c main_arg1 _ = V c main_arg1 _
  congr 1
  funext a
  apply Fin.ext
  match a with
  | ⟨0, _⟩ => show win1_1.index t 0 * 5000 + 1 * p.val = r.val; rw [e1_0, hr]; omega
  | ⟨1, _⟩ => show win1_1.index t 1 * 64 + 1 * k.val = k.val; rw [e1_1]; omega

/-- Window 2 reads its array whole at every point. -/
theorem blk1_2 (c : Dev nD) (t : Fin cfg1.N) (p : Fin 128) (k : Fin 128) :
    (iblk1 V c 2 t : Vec Ideal S128x128 .f32) (ix2 p k) = (V c main_arg5 : S128x128.Idx → EReal) (ix2 p k) := by
  obtain ⟨e0_0, e0_1, e1_0, e1_1, e2_0, e2_1, e3_0, e3_1, e4_0, e4_1, e5_0, e5_1, e6_0, e6_1⟩ := idx1 t
  unfold iblk1
  rw [View.read_apply]
  show V c main_arg5 _ = V c main_arg5 _
  congr 1
  funext a
  apply Fin.ext
  match a with
  | ⟨0, _⟩ => show win1_2.index t 0 * 128 + 1 * p.val = p.val; rw [e2_0]; omega
  | ⟨1, _⟩ => show win1_2.index t 1 * 128 + 1 * k.val = k.val; rw [e2_1]; omega

/-- Window 3 reads its array whole at every point. -/
theorem blk1_3 (c : Dev nD) (t : Fin cfg1.N) (p : Fin 64) (k : Fin 128) :
    (iblk1 V c 3 t : Vec Ideal S64x128 .f32) (ix2 p k) = (V c main_arg6 : S64x128.Idx → EReal) (ix2 p k) := by
  obtain ⟨e0_0, e0_1, e1_0, e1_1, e2_0, e2_1, e3_0, e3_1, e4_0, e4_1, e5_0, e5_1, e6_0, e6_1⟩ := idx1 t
  unfold iblk1
  rw [View.read_apply]
  show V c main_arg6 _ = V c main_arg6 _
  congr 1
  funext a
  apply Fin.ext
  match a with
  | ⟨0, _⟩ => show win1_3.index t 0 * 64 + 1 * p.val = p.val; rw [e3_0]; omega
  | ⟨1, _⟩ => show win1_3.index t 1 * 128 + 1 * k.val = k.val; rw [e3_1]; omega

/-- Window 4 reads its array whole at every point. -/
theorem blk1_4 (c : Dev nD) (t : Fin cfg1.N) (p : Fin 1) (k : Fin 64) :
    (iblk1 V c 4 t : Vec Ideal S1x64 .f32) (ix2 p k) = (V c main_v7 : S1x64.Idx → EReal) (ix2 p k) := by
  obtain ⟨e0_0, e0_1, e1_0, e1_1, e2_0, e2_1, e3_0, e3_1, e4_0, e4_1, e5_0, e5_1, e6_0, e6_1⟩ := idx1 t
  unfold iblk1
  rw [View.read_apply]
  show V c main_v7 _ = V c main_v7 _
  congr 1
  funext a
  apply Fin.ext
  match a with
  | ⟨0, _⟩ => show win1_4.index t 0 * 1 + 1 * p.val = p.val; rw [e4_0]; omega
  | ⟨1, _⟩ => show win1_4.index t 1 * 64 + 1 * k.val = k.val; rw [e4_1]; omega

/-- What region 1 leaves in its first output array: the unit rows of X times C. -/
def G1a (X : Spec.Mat 100000 128) (C : Spec.Mat 128 128) : Spec.Mat 100000 128 :=
  fun i => Spec.dotN (Spec.unitRows X) C (i 0) (i 1)

theorem flushed1_5 (c : Dev nD) (t : Fin cfg1.N) :
    (dat1 V c).flushed 5 t = ((cfg1.win 5).blk t).view.read (Elt Ideal) (G1a (V c main_v6) (V c main_arg5)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x128) hz1]
  obtain ⟨e0_0, e0_1, e1_0, e1_1, e2_0, e2_1, e3_0, e3_1, e4_0, e4_1, e5_0, e5_1, e6_0, e6_1⟩ := idx1 t
  funext j
  obtain ⟨p, n, rfl⟩ : ∃ (p : Fin 5000) (n : Fin 128), j = ix2 p n := ⟨j 0, j 1, eq_ix2 j⟩
  have hN : cfg1.N = 20 := N_1
  have ht : t.val < 20 := hN ▸ t.isLt
  have he : ((cfg1.win 5).blk t).view.emb (ix2 p n) = (ix2 (⟨5000 * t.val + p.val, by omega⟩ : Fin 100000) n : S100000x128.Idx) := by
    funext a
    apply Fin.ext
    match a with
    | ⟨0, _⟩ => show win1_5.index t 0 * 5000 + 1 * p.val = 5000 * t.val + p.val; rw [e5_0]; omega
    | ⟨1, _⟩ => show win1_5.index t 1 * 128 + 1 * n.val = n.val; rw [e5_1]; omega
  show k1_pay2 (F := Ideal) (iblk1 V c 0 t) (iblk1 V c 2 t) (ix2 p n) = G1a (V c main_v6) (V c main_arg5) (((cfg1.win 5).blk t).view.emb (ix2 p n))
  rw [he]
  refine (Cert.TileBodies.k1_pay2_apply _ _ p n).trans ?_
  show Spec.dotN (Spec.unitRows _) _ p n = Spec.dotN (Spec.unitRows _) _ (⟨5000 * t.val + p.val, by omega⟩ : Fin 100000) n
  unfold Spec.dotN
  exact Finset.sum_congr rfl fun k _ => congrArg₂ (· * ·)
    (unitAt_congr _ _ p (⟨5000 * t.val + p.val, by omega⟩ : Fin 100000) (fun j => blk1_0 V c t p j _ rfl) k) (blk1_2 V c t k n)

/-- Every row of the output lies in the tile of the point ⌊row / 5000⌋, which is written back. -/
theorem covered1_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0_0, e0_1, e1_0, e1_1, e2_0, e2_1, e3_0, e3_1, e4_0, e4_1, e5_0, e5_1, e6_0, e6_1⟩ := idx1 t
  refine ⟨t, flush1_5 t, ?_⟩
  show i ∈ ((View.whole main_v8_0).slice (win1_5.rect t)).set
  rw [View.set_slice_whole, Rect.mem_set_unit]
  intro a
  have ht : t.val = (i 0).val / 5000 := rfl
  match a with
  | ⟨0, _⟩ => show win1_5.index t 0 * 5000 ≤ (i 0).val ∧ (i 0).val < win1_5.index t 0 * 5000 + 5000; rw [e5_0, ht]; omega
  | ⟨1, _⟩ => show win1_5.index t 1 * 128 ≤ (i 1).val ∧ (i 1).val < win1_5.index t 1 * 128 + 128; rw [e5_1]; omega

theorem arr1_5 (c : Dev nD) : (dat1 V c).arrAt 5 cfg1.N = G1a (V c main_v6) (V c main_arg5) :=
  (dat1 V c).arrAt_eq_of_cover 5 _ (fun t _ => flushed1_5 V c t) covered1_5

/-- What region 1 leaves in its second output array: leaky(unit rows of X times Lᵀ, plus the bias row) plus E. -/
def G1b (X : Spec.Mat 100000 128) (L : Spec.Mat 64 128) (B : Spec.Mat 1 64) (E : Spec.Mat 100000 64) : Spec.Mat 100000 64 :=
  fun i => Spec.leaky (Spec.dotT (Spec.unitRows X) L (i 0) (i 1) + B (ix2 0 (i 1))) + E i

theorem flushed1_6 (c : Dev nD) (t : Fin cfg1.N) :
    (dat1 V c).flushed 6 t = ((cfg1.win 6).blk t).view.read (Elt Ideal) (G1b (V c main_v6) (V c main_arg6) (V c main_v7) (V c main_arg1)) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S64x128) hz1, View.ld_unit_zero (S := S1x64) hz1, View.ld_unit_zero (S := S5000x64) hz1]
  obtain ⟨e0_0, e0_1, e1_0, e1_1, e2_0, e2_1, e3_0, e3_1, e4_0, e4_1, e5_0, e5_1, e6_0, e6_1⟩ := idx1 t
  funext j
  obtain ⟨p, n, rfl⟩ : ∃ (p : Fin 5000) (n : Fin 64), j = ix2 p n := ⟨j 0, j 1, eq_ix2 j⟩
  have hN : cfg1.N = 20 := N_1
  have ht : t.val < 20 := hN ▸ t.isLt
  have he : ((cfg1.win 6).blk t).view.emb (ix2 p n) = (ix2 (⟨5000 * t.val + p.val, by omega⟩ : Fin 100000) n : S100000x64.Idx) := by
    funext a
    apply Fin.ext
    match a with
    | ⟨0, _⟩ => show win1_6.index t 0 * 5000 + 1 * p.val = 5000 * t.val + p.val; rw [e6_0]; omega
    | ⟨1, _⟩ => show win1_6.index t 1 * 64 + 1 * n.val = n.val; rw [e6_1]; omega
  show k1_pay3 (F := Ideal) (iblk1 V c 0 t) (iblk1 V c 3 t) (iblk1 V c 4 t) (iblk1 V c 1 t) (ix2 p n) = G1b (V c main_v6) (V c main_arg6) (V c main_v7) (V c main_arg1) (((cfg1.win 6).blk t).view.emb (ix2 p n))
  rw [he]
  refine (Cert.TileBodies.k1_pay3_apply _ _ _ _ p n).trans ?_
  show Spec.leaky (Spec.dotT (Spec.unitRows _) _ p n + _) + _ = Spec.leaky (Spec.dotT (Spec.unitRows _) _ (⟨5000 * t.val + p.val, by omega⟩ : Fin 100000) n + _) + _
  unfold Spec.dotT
  refine congrArg₂ (· + ·) (congrArg Spec.leaky (congrArg₂ (· + ·) ?_ ?_)) ?_
  · exact Finset.sum_congr rfl fun k _ => congrArg₂ (· * ·)
      (unitAt_congr _ _ p (⟨5000 * t.val + p.val, by omega⟩ : Fin 100000) (fun j => blk1_0 V c t p j _ rfl) k) (blk1_3 V c t n k)
  · exact blk1_4 V c t 0 n
  · exact blk1_1 V c t p n _ rfl

/-- Every row of the output lies in the tile of the point ⌊row / 5000⌋, which is written back. -/
theorem covered1_6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0_0, e0_1, e1_0, e1_1, e2_0, e2_1, e3_0, e3_1, e4_0, e4_1, e5_0, e5_1, e6_0, e6_1⟩ := idx1 t
  refine ⟨t, flush1_6 t, ?_⟩
  show i ∈ ((View.whole main_v8_1).slice (win1_6.rect t)).set
  rw [View.set_slice_whole, Rect.mem_set_unit]
  intro a
  have ht : t.val = (i 0).val / 5000 := rfl
  match a with
  | ⟨0, _⟩ => show win1_6.index t 0 * 5000 ≤ (i 0).val ∧ (i 0).val < win1_6.index t 0 * 5000 + 5000; rw [e6_0, ht]; omega
  | ⟨1, _⟩ => show win1_6.index t 1 * 64 ≤ (i 1).val ∧ (i 1).val < win1_6.index t 1 * 64 + 64; rw [e6_1]; omega

theorem arr1_6 (c : Dev nD) : (dat1 V c).arrAt 6 cfg1.N = G1b (V c main_v6) (V c main_arg6) (V c main_v7) (V c main_arg1) :=
  (dat1 V c).arrAt_eq_of_cover 6 _ (fun t _ => flushed1_6 V c t) covered1_6

end Cert.KernelIdeal.Whole

end
-- ==== Proof.Region2.lean ====
/-
  Region 2 of the idealized kernel, as a whole array: the 20 grid points each write a tile of 5000 rows, tile t holding
  rows 5000·t … 5000·t + 4999 of  leaky((leaky(H) · Gᵀ + bias row) + Xh),  where H and Xh are read through the same rows
  and G and the bias row are read whole.  The tiles cover the array.
-/
import proofs.«124986_j71038759076272_1_alg».proof.Proof.Spec
import proofs.«124986_j71038759076272_1_alg».proof.Proof.TileBodies
import proofs.«124986_j71038759076272_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Region 2's index maps over its 20 points: a row tile moves with the point, an array read whole stays. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the tile of window 0 at point t is row 5000·t + p of its array. -/
theorem blk2_0 (c : Dev nD) (t : Fin cfg2.N) (p : Fin 5000) (k : Fin 128) (r : Fin 100000) (hr : r.val = 5000 * t.val + p.val) :
    (iblk2 V c 0 t : Vec Ideal S5000x128 .f32) (ix2 p k) = (V c main_v18 : S100000x128.Idx → EReal) (ix2 r k) := by
  obtain ⟨e0_0, e0_1, e1_0, e1_1, e2_0, e2_1, e3_0, e3_1, e4_0, e4_1⟩ := idx2 t
  unfold iblk2
  rw [View.read_apply]
  show V c main_v18 _ = V c main_v18 _
  congr 1
  funext a
  apply Fin.ext
  match a with
  | ⟨0, _⟩ => show win2_0.index t 0 * 5000 + 1 * p.val = r.val; rw [e0_0, hr]; omega
  | ⟨1, _⟩ => show win2_0.index t 1 * 128 + 1 * k.val = k.val; rw [e0_1]; omega

/-- Row p of the tile of window 1 at point t is row 5000·t + p of its array. -/
theorem blk2_1 (c : Dev nD) (t : Fin cfg2.N) (p : Fin 5000) (k : Fin 64) (r : Fin 100000) (hr : r.val = 5000 * t.val + p.val) :
    (iblk2 V c 1 t : Vec Ideal S5000x64 .f32) (ix2 p k) = (V c main_v8_1 : S100000x64.Idx → EReal) (ix2 r k) := by
  obtain ⟨e0_0, e0_1, e1_0, e1_1, e2_0, e2_1, e3_0, e3_1, e4_0, e4_1⟩ := idx2 t
  unfold iblk2
  rw [View.read_apply]
  show V c main_v8_1 _ = V c main_v8_1 _
  congr 1
  funext a
  apply Fin.ext
  match a with
  | ⟨0, _⟩ => show win2_1.index t 0 * 5000 + 1 * p.val = r.val; rw [e1_0, hr]; omega
  | ⟨1, _⟩ => show win2_1.index t 1 * 64 + 1 * k.val = k.val; rw [e1_1]; omega

/-- Window 2 reads its array whole at every point. -/
theorem blk2_2 (c : Dev nD) (t : Fin cfg2.N) (p : Fin 64) (k : Fin 128) :
    (iblk2 V c 2 t : Vec Ideal S64x128 .f32) (ix2 p k) = (V c main_arg8 : S64x128.Idx → EReal) (ix2 p k) := by
  obtain ⟨e0_0, e0_1, e1_0, e1_1, e2_0, e2_1, e3_0, e3_1, e4_0, e4_1⟩ := idx2 t
  unfold iblk2
  rw [View.read_apply]
  show V c main_arg8 _ = V c main_arg8 _
  congr 1
  funext a
  apply Fin.ext
  match a with
  | ⟨0, _⟩ => show win2_2.index t 0 * 64 + 1 * p.val = p.val; rw [e2_0]; omega
  | ⟨1, _⟩ => show win2_2.index t 1 * 128 + 1 * k.val = k.val; rw [e2_1]; omega

/-- Window 3 reads its array whole at every point. -/
theorem blk2_3 (c : Dev nD) (t : Fin cfg2.N) (p : Fin 1) (k : Fin 64) :
    (iblk2 V c 3 t : Vec Ideal S1x64 .f32) (ix2 p k) = (V c main_v19 : S1x64.Idx → EReal) (ix2 p k) := by
  obtain ⟨e0_0, e0_1, e1_0, e1_1, e2_0, e2_1, e3_0, e3_1, e4_0, e4_1⟩ := idx2 t
  unfold iblk2
  rw [View.read_apply]
  show V c main_v19 _ = V c main_v19 _
  congr 1
  funext a
  apply Fin.ext
  match a with
  | ⟨0, _⟩ => show win2_3.index t 0 * 1 + 1 * p.val = p.val; rw [e3_0]; omega
  | ⟨1, _⟩ => show win2_3.index t 1 * 64 + 1 * k.val = k.val; rw [e3_1]; omega

/-- What region 2 leaves in its output array: leaky((leaky(H) times Gᵀ, plus the bias row) plus Xh). -/
def G2 (H : Spec.Mat 100000 128) (Xh : Spec.Mat 100000 64) (G : Spec.Mat 64 128) (B : Spec.Mat 1 64) : Spec.Mat 100000 64 :=
  fun i => Spec.leaky ((Spec.dotT (Spec.leakyAll H) G (i 0) (i 1) + B (ix2 0 (i 1))) + Xh i)

theorem flushed2_4 (c : Dev nD) (t : Fin cfg2.N) :
    (dat2 V c).flushed 4 t = ((cfg2.win 4).blk t).view.read (Elt Ideal) (G2 (V c main_v18) (V c main_v8_1) (V c main_arg8) (V c main_v19)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S64x128) hz2, View.ld_unit_zero (S := S1x64) hz2, View.ld_unit_zero (S := S5000x64) hz2]
  obtain ⟨e0_0, e0_1, e1_0, e1_1, e2_0, e2_1, e3_0, e3_1, e4_0, e4_1⟩ := idx2 t
  funext j
  obtain ⟨p, n, rfl⟩ : ∃ (p : Fin 5000) (n : Fin 64), j = ix2 p n := ⟨j 0, j 1, eq_ix2 j⟩
  have hN : cfg2.N = 20 := N_2
  have ht : t.val < 20 := hN ▸ t.isLt
  have he : ((cfg2.win 4).blk t).view.emb (ix2 p n) = (ix2 (⟨5000 * t.val + p.val, by omega⟩ : Fin 100000) n : S100000x64.Idx) := by
    funext a
    apply Fin.ext
    match a with
    | ⟨0, _⟩ => show win2_4.index t 0 * 5000 + 1 * p.val = 5000 * t.val + p.val; rw [e4_0]; omega
    | ⟨1, _⟩ => show win2_4.index t 1 * 64 + 1 * n.val = n.val; rw [e4_1]; omega
  show k2_pay1 (F := Ideal) (iblk2 V c 0 t) (iblk2 V c 2 t) (iblk2 V c 3 t) (iblk2 V c 1 t) (ix2 p n) = G2 (V c main_v18) (V c main_v8_1) (V c main_arg8) (V c main_v19) (((cfg2.win 4).blk t).view.emb (ix2 p n))
  rw [he]
  refine (Cert.TileBodies.k2_pay1_apply _ _ _ _ p n).trans ?_
  show Spec.leaky ((Spec.dotT (Spec.leakyAll _) _ p n + _) + _) = Spec.leaky ((Spec.dotT (Spec.leakyAll _) _ (⟨5000 * t.val + p.val, by omega⟩ : Fin 100000) n + _) + _)
  unfold Spec.dotT
  refine congrArg Spec.leaky (congrArg₂ (· + ·) (congrArg₂ (· + ·) ?_ ?_) ?_)
  · exact Finset.sum_congr rfl fun k _ => congrArg₂ (· * ·)
      (congrArg Spec.leaky (blk2_0 V c t p k _ rfl)) (blk2_2 V c t n k)
  · exact blk2_3 V c t 0 n
  · exact blk2_1 V c t p n _ rfl

/-- Every row of the output lies in the tile of the point ⌊row / 5000⌋, which is written back. -/
theorem covered2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0_0, e0_1, e1_0, e1_1, e2_0, e2_1, e3_0, e3_1, e4_0, e4_1⟩ := idx2 t
  refine ⟨t, flush2_4 t, ?_⟩
  show i ∈ ((View.whole main_v20).slice (win2_4.rect t)).set
  rw [View.set_slice_whole, Rect.mem_set_unit]
  intro a
  have ht : t.val = (i 0).val / 5000 := rfl
  match a with
  | ⟨0, _⟩ => show win2_4.index t 0 * 5000 ≤ (i 0).val ∧ (i 0).val < win2_4.index t 0 * 5000 + 5000; rw [e4_0, ht]; omega
  | ⟨1, _⟩ => show win2_4.index t 1 * 64 ≤ (i 1).val ∧ (i 1).val < win2_4.index t 1 * 64 + 64; rw [e4_1]; omega

theorem arr2_4 (c : Dev nD) : (dat2 V c).arrAt 4 cfg2.N = G2 (V c main_v18) (V c main_v8_1) (V c main_arg8) (V c main_v19) :=
  (dat2 V c).arrAt_eq_of_cover 4 _ (fun t _ => flushed2_4 V c t) covered2_4

end Cert.KernelIdeal.Whole

end
-- ==== Proof.Region3.lean ====
/-
  Region 3 of the idealized kernel, as whole arrays: the 20 grid points each write a tile of 5000 rows of two arrays,
  tile t holding rows 5000·t … 5000·t + 4999 of  X · C  and of  leaky(X · Lᵀ + bias row) + E,  where X and E are read
  through the same rows and C, L and the bias row are read whole.  The tiles cover the arrays.
-/
import proofs.«124986_j71038759076272_1_alg».proof.Proof.Spec
import proofs.«124986_j71038759076272_1_alg».proof.Proof.TileBodies
import proofs.«124986_j71038759076272_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- Region 3's index maps over its 20 points: a row tile moves with the point, an array read whole stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row p of the tile of window 0 at point t is row 5000·t + p of its array. -/
theorem blk3_0 (c : Dev nD) (t : Fin cfg3.N) (p : Fin 5000) (k : Fin 64) (r : Fin 100000) (hr : r.val = 5000 * t.val + p.val) :
    (iblk3 V c 0 t : Vec Ideal S5000x64 .f32) (ix2 p k) = (V c main_v20 : S100000x64.Idx → EReal) (ix2 r k) := by
  obtain ⟨e0_0, e0_1, e1_0, e1_1, e2_0, e2_1, e3_0, e3_1, e4_0, e4_1, e5_0, e5_1, e6_0, e6_1⟩ := idx3 t
  unfold iblk3
  rw [View.read_apply]
  show V c main_v20 _ = V c main_v20 _
  congr 1
  funext a
  apply Fin.ext
  match a with
  | ⟨0, _⟩ => show win3_0.index t 0 * 5000 + 1 * p.val = r.val; rw [e0_0, hr]; omega
  | ⟨1, _⟩ => show win3_0.index t 1 * 64 + 1 * k.val = k.val; rw [e0_1]; omega

/-- Row p of the tile of window 1 at point t is row 5000·t + p of its array. -/
theorem blk3_1 (c : Dev nD) (t : Fin cfg3.N) (p : Fin 5000) (k : Fin 64) (r : Fin 100000) (hr : r.val = 5000 * t.val + p.val) :
    (iblk3 V c 1 t : Vec Ideal S5000x64 .f32) (ix2 p k) = (V c main_arg1 : S100000x64.Idx → EReal) (ix2 r k) := by
  obtain ⟨e0_0, e0_1, e1_0, e1_1, e2_0, e2_1, e3_0, e3_1, e4_0, e4_1, e5_0, e5_1, e6_0, e6_1⟩ := idx3 t
  unfold iblk3
  rw [View.read_apply]
  show V c main_arg1 _ = V c main_arg1 _
  congr 1
  funext a
  apply Fin.ext
  match a with
  | ⟨0, _⟩ => show win3_1.index t 0 * 5000 + 1 * p.val = r.val; rw [e1_0, hr]; omega
  | ⟨1, _⟩ => show win3_1.index t 1 * 64 + 1 * k.val = k.val; rw [e1_1]; omega

/-- Window 2 reads its array whole at every point. -/
theorem blk3_2 (c : Dev nD) (t : Fin cfg3.N) (p : Fin 64) (k : Fin 64) :
    (iblk3 V c 2 t : Vec Ideal S64x64 .f32) (ix2 p k) = (V c main_arg10 : S64x64.Idx → EReal) (ix2 p k) := by
  obtain ⟨e0_0, e0_1, e1_0, e1_1, e2_0, e2_1, e3_0, e3_1, e4_0, e4_1, e5_0, e5_1, e6_0, e6_1⟩ := idx3 t
  unfold iblk3
  rw [View.read_apply]
  show V c main_arg10 _ = V c main_arg10 _
  congr 1
  funext a
  apply Fin.ext
  match a with
  | ⟨0, _⟩ => show win3_2.index t 0 * 64 + 1 * p.val = p.val; rw [e2_0]; omega
  | ⟨1, _⟩ => show win3_2.index t 1 * 64 + 1 * k.val = k.val; rw [e2_1]; omega

/-- Window 3 reads its array whole at every point. -/
theorem blk3_3 (c : Dev nD) (t : Fin cfg3.N) (p : Fin 64) (k : Fin 64) :
    (iblk3 V c 3 t : Vec Ideal S64x64 .f32) (ix2 p k) = (V c main_arg11 : S64x64.Idx → EReal) (ix2 p k) := by
  obtain ⟨e0_0, e0_1, e1_0, e1_1, e2_0, e2_1, e3_0, e3_1, e4_0, e4_1, e5_0, e5_1, e6_0, e6_1⟩ := idx3 t
  unfold iblk3
  rw [View.read_apply]
  show V c main_arg11 _ = V c main_arg11 _
  congr 1
  funext a
  apply Fin.ext
  match a with
  | ⟨0, _⟩ => show win3_3.index t 0 * 64 + 1 * p.val = p.val; rw [e3_0]; omega
  | ⟨1, _⟩ => show win3_3.index t 1 * 64 + 1 * k.val = k.val; rw [e3_1]; omega

/-- Window 4 reads its array whole at every point. -/
theorem blk3_4 (c : Dev nD) (t : Fin cfg3.N) (p : Fin 1) (k : Fin 64) :
    (iblk3 V c 4 t : Vec Ideal S1x64 .f32) (ix2 p k) = (V c main_v21 : S1x64.Idx → EReal) (ix2 p k) := by
  obtain ⟨e0_0, e0_1, e1_0, e1_1, e2_0, e2_1, e3_0, e3_1, e4_0, e4_1, e5_0, e5_1, e6_0, e6_1⟩ := idx3 t
  unfold iblk3
  rw [View.read_apply]
  show V c main_v21 _ = V c main_v21 _
  congr 1
  funext a
  apply Fin.ext
  match a with
  | ⟨0, _⟩ => show win3_4.index t 0 * 1 + 1 * p.val = p.val; rw [e4_0]; omega
  | ⟨1, _⟩ => show win3_4.index t 1 * 64 + 1 * k.val = k.val; rw [e4_1]; omega

/-- What region 3 leaves in its first output array: X times C. -/
def G3a (X : Spec.Mat 100000 64) (C : Spec.Mat 64 64) : Spec.Mat 100000 64 :=
  fun i => Spec.dotN X C (i 0) (i 1)

theorem flushed3_5 (c : Dev nD) (t : Fin cfg3.N) :
    (dat3 V c).flushed 5 t = ((cfg3.win 5).blk t).view.read (Elt Ideal) (G3a (V c main_v20) (V c main_arg10)) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S64x64) hz3]
  obtain ⟨e0_0, e0_1, e1_0, e1_1, e2_0, e2_1, e3_0, e3_1, e4_0, e4_1, e5_0, e5_1, e6_0, e6_1⟩ := idx3 t
  funext j
  obtain ⟨p, n, rfl⟩ : ∃ (p : Fin 5000) (n : Fin 64), j = ix2 p n := ⟨j 0, j 1, eq_ix2 j⟩
  have hN : cfg3.N = 20 := N_3
  have ht : t.val < 20 := hN ▸ t.isLt
  have he : ((cfg3.win 5).blk t).view.emb (ix2 p n) = (ix2 (⟨5000 * t.val + p.val, by omega⟩ : Fin 100000) n : S100000x64.Idx) := by
    funext a
    apply Fin.ext
    match a with
    | ⟨0, _⟩ => show win3_5.index t 0 * 5000 + 1 * p.val = 5000 * t.val + p.val; rw [e5_0]; omega
    | ⟨1, _⟩ => show win3_5.index t 1 * 64 + 1 * n.val = n.val; rw [e5_1]; omega
  show k3_pay2 (F := Ideal) (iblk3 V c 0 t) (iblk3 V c 2 t) (ix2 p n) = G3a (V c main_v20) (V c main_arg10) (((cfg3.win 5).blk t).view.emb (ix2 p n))
  rw [he]
  refine (Cert.TileBodies.k3_pay2_apply _ _ p n).trans ?_
  show Spec.dotN _ _ p n = Spec.dotN _ _ (⟨5000 * t.val + p.val, by omega⟩ : Fin 100000) n
  unfold Spec.dotN
  exact Finset.sum_congr rfl fun k _ => congrArg₂ (· * ·) (blk3_0 V c t p k _ rfl) (blk3_2 V c t k n)

/-- Every row of the output lies in the tile of the point ⌊row / 5000⌋, which is written back. -/
theorem covered3_5 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0_0, e0_1, e1_0, e1_1, e2_0, e2_1, e3_0, e3_1, e4_0, e4_1, e5_0, e5_1, e6_0, e6_1⟩ := idx3 t
  refine ⟨t, flush3_5 t, ?_⟩
  show i ∈ ((View.whole main_v22_0).slice (win3_5.rect t)).set
  rw [View.set_slice_whole, Rect.mem_set_unit]
  intro a
  have ht : t.val = (i 0).val / 5000 := rfl
  match a with
  | ⟨0, _⟩ => show win3_5.index t 0 * 5000 ≤ (i 0).val ∧ (i 0).val < win3_5.index t 0 * 5000 + 5000; rw [e5_0, ht]; omega
  | ⟨1, _⟩ => show win3_5.index t 1 * 64 ≤ (i 1).val ∧ (i 1).val < win3_5.index t 1 * 64 + 64; rw [e5_1]; omega

theorem arr3_5 (c : Dev nD) : (dat3 V c).arrAt 5 cfg3.N = G3a (V c main_v20) (V c main_arg10) :=
  (dat3 V c).arrAt_eq_of_cover 5 _ (fun t _ => flushed3_5 V c t) covered3_5

/-- What region 3 leaves in its second output array: leaky(X times Lᵀ, plus the bias row) plus E. -/
def G3b (X : Spec.Mat 100000 64) (L : Spec.Mat 64 64) (B : Spec.Mat 1 64) (E : Spec.Mat 100000 64) : Spec.Mat 100000 64 :=
  fun i => Spec.leaky (Spec.dotT X L (i 0) (i 1) + B (ix2 0 (i 1))) + E i

theorem flushed3_6 (c : Dev nD) (t : Fin cfg3.N) :
    (dat3 V c).flushed 6 t = ((cfg3.win 6).blk t).view.read (Elt Ideal) (G3b (V c main_v20) (V c main_arg11) (V c main_v21) (V c main_arg1)) := by
  show (cfg3.win 6).cut (grid3.coords t) ((dat3 V c).after 6 t) = _
  rw [after3_6]
  unfold out3_6
  rw [View.canon_unit_zero hz3]
  simp only [View.ld_unit_zero (S := S5000x64) hz3, View.ld_unit_zero (S := S64x64) hz3, View.ld_unit_zero (S := S1x64) hz3]
  obtain ⟨e0_0, e0_1, e1_0, e1_1, e2_0, e2_1, e3_0, e3_1, e4_0, e4_1, e5_0, e5_1, e6_0, e6_1⟩ := idx3 t
  funext j
  obtain ⟨p, n, rfl⟩ : ∃ (p : Fin 5000) (n : Fin 64), j = ix2 p n := ⟨j 0, j 1, eq_ix2 j⟩
  have hN : cfg3.N = 20 := N_3
  have ht : t.val < 20 := hN ▸ t.isLt
  have he : ((cfg3.win 6).blk t).view.emb (ix2 p n) = (ix2 (⟨5000 * t.val + p.val, by omega⟩ : Fin 100000) n : S100000x64.Idx) := by
    funext a
    apply Fin.ext
    match a with
    | ⟨0, _⟩ => show win3_6.index t 0 * 5000 + 1 * p.val = 5000 * t.val + p.val; rw [e6_0]; omega
    | ⟨1, _⟩ => show win3_6.index t 1 * 64 + 1 * n.val = n.val; rw [e6_1]; omega
  show k3_pay3 (F := Ideal) (iblk3 V c 0 t) (iblk3 V c 3 t) (iblk3 V c 4 t) (iblk3 V c 1 t) (ix2 p n) = G3b (V c main_v20) (V c main_arg11) (V c main_v21) (V c main_arg1) (((cfg3.win 6).blk t).view.emb (ix2 p n))
  rw [he]
  refine (Cert.TileBodies.k3_pay3_apply _ _ _ _ p n).trans ?_
  show Spec.leaky (Spec.dotT _ _ p n + _) + _ = Spec.leaky (Spec.dotT _ _ (⟨5000 * t.val + p.val, by omega⟩ : Fin 100000) n + _) + _
  unfold Spec.dotT
  refine congrArg₂ (· + ·) (congrArg Spec.leaky (congrArg₂ (· + ·) ?_ ?_)) ?_
  · exact Finset.sum_congr rfl fun k _ => congrArg₂ (· * ·) (blk3_0 V c t p k _ rfl) (blk3_3 V c t n k)
  · exact blk3_4 V c t 0 n
  · exact blk3_1 V c t p n _ rfl

/-- Every row of the output lies in the tile of the point ⌊row / 5000⌋, which is written back. -/
theorem covered3_6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨e0_0, e0_1, e1_0, e1_1, e2_0, e2_1, e3_0, e3_1, e4_0, e4_1, e5_0, e5_1, e6_0, e6_1⟩ := idx3 t
  refine ⟨t, flush3_6 t, ?_⟩
  show i ∈ ((View.whole main_v22_1).slice (win3_6.rect t)).set
  rw [View.set_slice_whole, Rect.mem_set_unit]
  intro a
  have ht : t.val = (i 0).val / 5000 := rfl
  match a with
  | ⟨0, _⟩ => show win3_6.index t 0 * 5000 ≤ (i 0).val ∧ (i 0).val < win3_6.index t 0 * 5000 + 5000; rw [e6_0, ht]; omega
  | ⟨1, _⟩ => show win3_6.index t 1 * 64 ≤ (i 1).val ∧ (i 1).val < win3_6.index t 1 * 64 + 64; rw [e6_1]; omega

theorem arr3_6 (c : Dev nD) : (dat3 V c).arrAt 6 cfg3.N = G3b (V c main_v20) (V c main_arg11) (V c main_v21) (V c main_arg1) :=
  (dat3 V c).arrAt_eq_of_cover 6 _ (fun t _ => flushed3_6 V c t) covered3_6

end Cert.KernelIdeal.Whole

end
-- ==== Proof.Region4.lean ====
/-
  Region 4 of the idealized kernel, as a whole array: the 20 grid points each write a tile of 5000 rows, tile t holding
  rows 5000·t … 5000·t + 4999 of  leaky((leaky(H) · Gᵀ + bias row) + Xh),  where H and Xh are read through the same rows
  and G and the bias row are read whole.  The tiles cover the array.
-/
import proofs.«124986_j71038759076272_1_alg».proof.Proof.Spec
import proofs.«124986_j71038759076272_1_alg».proof.Proof.TileBodies
import proofs.«124986_j71038759076272_1_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- Region 4's index maps over its 20 points: a row tile moves with the point, an array read whole stays. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of the tile of window 0 at point t is row 5000·t + p of its array. -/
theorem blk4_0 (c : Dev nD) (t : Fin cfg4.N) (p : Fin 5000) (k : Fin 64) (r : Fin 100000) (hr : r.val = 5000 * t.val + p.val) :
    (iblk4 V c 0 t : Vec Ideal S5000x64 .f32) (ix2 p k) = (V c main_v32 : S100000x64.Idx → EReal) (ix2 r k) := by
  obtain ⟨e0_0, e0_1, e1_0, e1_1, e2_0, e2_1, e3_0, e3_1, e4_0, e4_1⟩ := idx4 t
  unfold iblk4
  rw [View.read_apply]
  show V c main_v32 _ = V c main_v32 _
  congr 1
  funext a
  apply Fin.ext
  match a with
  | ⟨0, _⟩ => show win4_0.index t 0 * 5000 + 1 * p.val = r.val; rw [e0_0, hr]; omega
  | ⟨1, _⟩ => show win4_0.index t 1 * 64 + 1 * k.val = k.val; rw [e0_1]; omega

/-- Row p of the tile of window 1 at point t is row 5000·t + p of its array. -/
theorem blk4_1 (c : Dev nD) (t : Fin cfg4.N) (p : Fin 5000) (k : Fin 64) (r : Fin 100000) (hr : r.val = 5000 * t.val + p.val) :
    (iblk4 V c 1 t : Vec Ideal S5000x64 .f32) (ix2 p k) = (V c main_v22_1 : S100000x64.Idx → EReal) (ix2 r k) := by
  obtain ⟨e0_0, e0_1, e1_0, e1_1, e2_0, e2_1, e3_0, e3_1, e4_0, e4_1⟩ := idx4 t
  unfold iblk4
  rw [View.read_apply]
  show V c main_v22_1 _ = V c main_v22_1 _
  congr 1
  funext a
  apply Fin.ext
  match a with
  | ⟨0, _⟩ => show win4_1.index t 0 * 5000 + 1 * p.val = r.val; rw [e1_0, hr]; omega
  | ⟨1, _⟩ => show win4_1.index t 1 * 64 + 1 * k.val = k.val; rw [e1_1]; omega

/-- Window 2 reads its array whole at every point. -/
theorem blk4_2 (c : Dev nD) (t : Fin cfg4.N) (p : Fin 64) (k : Fin 64) :
    (iblk4 V c 2 t : Vec Ideal S64x64 .f32) (ix2 p k) = (V c main_arg13 : S64x64.Idx → EReal) (ix2 p k) := by
  obtain ⟨e0_0, e0_1, e1_0, e1_1, e2_0, e2_1, e3_0, e3_1, e4_0, e4_1⟩ := idx4 t
  unfold iblk4
  rw [View.read_apply]
  show V c main_arg13 _ = V c main_arg13 _
  congr 1
  funext a
  apply Fin.ext
  match a with
  | ⟨0, _⟩ => show win4_2.index t 0 * 64 + 1 * p.val = p.val; rw [e2_0]; omega
  | ⟨1, _⟩ => show win4_2.index t 1 * 64 + 1 * k.val = k.val; rw [e2_1]; omega

/-- Window 3 reads its array whole at every point. -/
theorem blk4_3 (c : Dev nD) (t : Fin cfg4.N) (p : Fin 1) (k : Fin 64) :
    (iblk4 V c 3 t : Vec Ideal S1x64 .f32) (ix2 p k) = (V c main_v33 : S1x64.Idx → EReal) (ix2 p k) := by
  obtain ⟨e0_0, e0_1, e1_0, e1_1, e2_0, e2_1, e3_0, e3_1, e4_0, e4_1⟩ := idx4 t
  unfold iblk4
  rw [View.read_apply]
  show V c main_v33 _ = V c main_v33 _
  congr 1
  funext a
  apply Fin.ext
  match a with
  | ⟨0, _⟩ => show win4_3.index t 0 * 1 + 1 * p.val = p.val; rw [e3_0]; omega
  | ⟨1, _⟩ => show win4_3.index t 1 * 64 + 1 * k.val = k.val; rw [e3_1]; omega

/-- What region 4 leaves in its output array: leaky((leaky(H) times Gᵀ, plus the bias row) plus Xh). -/
def G4 (H : Spec.Mat 100000 64) (Xh : Spec.Mat 100000 64) (G : Spec.Mat 64 64) (B : Spec.Mat 1 64) : Spec.Mat 100000 64 :=
  fun i => Spec.leaky ((Spec.dotT (Spec.leakyAll H) G (i 0) (i 1) + B (ix2 0 (i 1))) + Xh i)

theorem flushed4_4 (c : Dev nD) (t : Fin cfg4.N) :
    (dat4 V c).flushed 4 t = ((cfg4.win 4).blk t).view.read (Elt Ideal) (G4 (V c main_v32) (V c main_v22_1) (V c main_arg13) (V c main_v33)) := by
  show (cfg4.win 4).cut (grid4.coords t) ((dat4 V c).after 4 t) = _
  rw [after4_4]
  unfold out4_4
  rw [View.canon_unit_zero hz4]
  simp only [View.ld_unit_zero (S := S5000x64) hz4, View.ld_unit_zero (S := S64x64) hz4, View.ld_unit_zero (S := S1x64) hz4]
  obtain ⟨e0_0, e0_1, e1_0, e1_1, e2_0, e2_1, e3_0, e3_1, e4_0, e4_1⟩ := idx4 t
  funext j
  obtain ⟨p, n, rfl⟩ : ∃ (p : Fin 5000) (n : Fin 64), j = ix2 p n := ⟨j 0, j 1, eq_ix2 j⟩
  have hN : cfg4.N = 20 := N_4
  have ht : t.val < 20 := hN ▸ t.isLt
  have he : ((cfg4.win 4).blk t).view.emb (ix2 p n) = (ix2 (⟨5000 * t.val + p.val, by omega⟩ : Fin 100000) n : S100000x64.Idx) := by
    funext a
    apply Fin.ext
    match a with
    | ⟨0, _⟩ => show win4_4.index t 0 * 5000 + 1 * p.val = 5000 * t.val + p.val; rw [e4_0]; omega
    | ⟨1, _⟩ => show win4_4.index t 1 * 64 + 1 * n.val = n.val; rw [e4_1]; omega
  show k4_pay1 (F := Ideal) (iblk4 V c 0 t) (iblk4 V c 2 t) (iblk4 V c 3 t) (iblk4 V c 1 t) (ix2 p n) = G4 (V c main_v32) (V c main_v22_1) (V c main_arg13) (V c main_v33) (((cfg4.win 4).blk t).view.emb (ix2 p n))
  rw [he]
  refine (Cert.TileBodies.k4_pay1_apply _ _ _ _ p n).trans ?_
  show Spec.leaky ((Spec.dotT (Spec.leakyAll _) _ p n + _) + _) = Spec.leaky ((Spec.dotT (Spec.leakyAll _) _ (⟨5000 * t.val + p.val, by omega⟩ : Fin 100000) n + _) + _)
  unfold Spec.dotT
  refine congrArg Spec.leaky (congrArg₂ (· + ·) (congrArg₂ (· + ·) ?_ ?_) ?_)
  · exact Finset.sum_congr rfl fun k _ => congrArg₂ (· * ·)
      (congrArg Spec.leaky (blk4_0 V c t p k _ rfl)) (blk4_2 V c t n k)
  · exact blk4_3 V c t 0 n
  · exact blk4_1 V c t p n _ rfl

/-- Every row of the output lies in the tile of the point ⌊row / 5000⌋, which is written back. -/
theorem covered4_4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨e0_0, e0_1, e1_0, e1_1, e2_0, e2_1, e3_0, e3_1, e4_0, e4_1⟩ := idx4 t
  refine ⟨t, flush4_4 t, ?_⟩
  show i ∈ ((View.whole main_v34).slice (win4_4.rect t)).set
  rw [View.set_slice_whole, Rect.mem_set_unit]
  intro a
  have ht : t.val = (i 0).val / 5000 := rfl
  match a with
  | ⟨0, _⟩ => show win4_4.index t 0 * 5000 ≤ (i 0).val ∧ (i 0).val < win4_4.index t 0 * 5000 + 5000; rw [e4_0, ht]; omega
  | ⟨1, _⟩ => show win4_4.index t 1 * 64 ≤ (i 1).val ∧ (i 1).val < win4_4.index t 1 * 64 + 64; rw [e4_1]; omega

theorem arr4_4 (c : Dev nD) : (dat4 V c).arrAt 4 cfg4.N = G4 (V c main_v32) (V c main_v22_1) (V c main_arg13) (V c main_v33) :=
  (dat4 V c).arrAt_eq_of_cover 4 _ (fun t _ => flushed4_4 V c t) covered4_4

end Cert.KernelIdeal.Whole

end
-- ==== Proof.KernelValue.lean ====
/-
  The idealized kernel's result array as ONE function of the argument arrays: the five regions' whole-array functions
  (Region0 … Region4) composed through the host stretches between them (KernelHost), every argument read where it was
  launched (KernelWalk).  In order: the dense transform of the item features; the user rows joined above it; the first
  layer's two products of the unit rows; the neighbourhood sums; the first combination; the second layer likewise.
-/
import proofs.«124986_j71038759076272_1_alg».proof.Proof.KernelHost
import proofs.«124986_j71038759076272_1_alg».proof.Proof.Region0
import proofs.«124986_j71038759076272_1_alg».proof.Proof.Region1
import proofs.«124986_j71038759076272_1_alg».proof.Proof.Region2
import proofs.«124986_j71038759076272_1_alg».proof.Proof.Region3
import proofs.«124986_j71038759076272_1_alg».proof.Proof.Region4

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## The stages, as functions of the launch memory -/

/-- A bias vector laid as a row. -/
def biasRow128 (b : (⟨S128, .f32⟩ : BufTy).Contents (Elt Ideal)) : S1x128.Idx → EReal := shapeCast S1x128 b shapeCasts_S128_S1x128
def biasRow64 (b : (⟨S64, .f32⟩ : BufTy).Contents (Elt Ideal)) : S1x64.Idx → EReal := shapeCast S1x64 b shapeCasts_S64_S1x64

/-- The dense transform of the item features. -/
def X5 (c : Dev nD) : Spec.Mat 60000 128 := G0 (m ((c : Thread nD τ).loc main_arg0)) (m ((c : Thread nD τ).loc main_arg3)) (biasRow128 (m ((c : Thread nD τ).loc main_arg4)))
/-- The user rows above the transformed item rows. -/
def X6 (c : Dev nD) : (⟨S100000x128, .f32⟩ : BufTy).Contents (Elt Ideal) :=
  concatenate S100000x128 0 [⟨S40000x128, (m ((c : Thread nD τ).loc main_arg2))⟩, ⟨S60000x128, X5 m c⟩] concatenates_S40000x128_S60000x128_S100000x128_d0
/-- Layer 1: the unit rows against the convolution weights, and the embedding branch. -/
def X8a (c : Dev nD) : Spec.Mat 100000 128 := G1a (X6 m c) (m ((c : Thread nD τ).loc main_arg5))
def X8b (c : Dev nD) : Spec.Mat 100000 64 := G1b (X6 m c) (m ((c : Thread nD τ).loc main_arg6)) (biasRow64 (m ((c : Thread nD τ).loc main_arg7))) (m ((c : Thread nD τ).loc main_arg1))
/-- Layer 1: the neighbourhood sums and the combination. -/
def X18 (c : Dev nD) : (⟨S100000x128, .f32⟩ : BufTy).Contents (Elt Ideal) := agg128 (X8a m c) (edgeRow0 (m ((c : Thread nD τ).loc main_arg15))) (edgeRow1 (m ((c : Thread nD τ).loc main_arg15)))
def X20 (c : Dev nD) : Spec.Mat 100000 64 := G2 (X18 m c) (X8b m c) (m ((c : Thread nD τ).loc main_arg8)) (biasRow64 (m ((c : Thread nD τ).loc main_arg9)))
/-- Layer 2. -/
def X22a (c : Dev nD) : Spec.Mat 100000 64 := G3a (X20 m c) (m ((c : Thread nD τ).loc main_arg10))
def X22b (c : Dev nD) : Spec.Mat 100000 64 := G3b (X20 m c) (m ((c : Thread nD τ).loc main_arg11)) (biasRow64 (m ((c : Thread nD τ).loc main_arg12))) (m ((c : Thread nD τ).loc main_arg1))
def X32 (c : Dev nD) : (⟨S100000x64, .f32⟩ : BufTy).Contents (Elt Ideal) := agg64 (X22a m c) (edgeRow0 (m ((c : Thread nD τ).loc main_arg15))) (edgeRow1 (m ((c : Thread nD τ).loc main_arg15)))
def X34 (c : Dev nD) : Spec.Mat 100000 64 := G4 (X32 m c) (X22b m c) (m ((c : Thread nD τ).loc main_arg13)) (biasRow64 (m ((c : Thread nD τ).loc main_arg14)))

/-! ## Each boundary of the fold holds its stage -/

theorem S5 (c : Dev nD) : (W2 m ρ c (Proc.devRef .tc main_v5)) = X5 m c :=
  (W2_arr m ρ c 3).trans ((arr0 (V1 m ρ) c).trans (by
    show G0 (W1 m ρ c (Proc.devRef .tc main_arg0)) (W1 m ρ c (Proc.devRef .tc main_arg3)) (W1 m ρ c (Proc.devRef .tc main_v4)) = _
    rw [W1_arg0, W1_arg3, W1_v4]; rfl))

theorem S6 (c : Dev nD) : (W3 m ρ c (Proc.devRef .tc main_v6)) = X6 m c :=
  (W3_v6 m ρ c).trans (by rw [W2_arg2, S5]; rfl)

theorem S7 (c : Dev nD) : (W3 m ρ c (Proc.devRef .tc main_v7)) = biasRow64 (m ((c : Thread nD τ).loc main_arg7)) :=
  (W3_v7 m ρ c).trans (by rw [W2_arg7]; rfl)

theorem S8a (c : Dev nD) : (W4 m ρ c (Proc.devRef .tc main_v8_0)) = X8a m c :=
  (W4_arr m ρ c 5).trans ((arr1_5 (V3 m ρ) c).trans (by
    show G1a (W3 m ρ c (Proc.devRef .tc main_v6)) (W3 m ρ c (Proc.devRef .tc main_arg5)) = _
    rw [S6, W3_arg5]; rfl))

theorem S8b (c : Dev nD) : (W4 m ρ c (Proc.devRef .tc main_v8_1)) = X8b m c :=
  (W4_arr m ρ c 6).trans ((arr1_6 (V3 m ρ) c).trans (by
    show G1b (W3 m ρ c (Proc.devRef .tc main_v6)) (W3 m ρ c (Proc.devRef .tc main_arg6)) (W3 m ρ c (Proc.devRef .tc main_v7)) (W3 m ρ c (Proc.devRef .tc main_arg1)) = _
    rw [S6, W3_arg6, S7, W3_arg1]; rfl))

theorem S4_v1 (c : Dev nD) : (W4 m ρ c (Proc.devRef .tc main_v1)) = edgeRow0 (m ((c : Thread nD τ).loc main_arg15)) := (W4_v1 m ρ c).trans (W1_v1 m ρ c)
theorem S4_v3 (c : Dev nD) : (W4 m ρ c (Proc.devRef .tc main_v3)) = edgeRow1 (m ((c : Thread nD τ).loc main_arg15)) := (W4_v3 m ρ c).trans (W1_v3 m ρ c)

theorem S18 (c : Dev nD) : (W5 m ρ c (Proc.devRef .tc main_v18)) = X18 m c :=
  (W5_v18 m ρ c).trans (by rw [S8a, S4_v1, S4_v3]; rfl)

theorem S5_8b (c : Dev nD) : (W5 m ρ c (Proc.devRef .tc main_v8_1)) = X8b m c := (W5_v8_1 m ρ c).trans (S8b m ρ c)

theorem S19 (c : Dev nD) : (W5 m ρ c (Proc.devRef .tc main_v19)) = biasRow64 (m ((c : Thread nD τ).loc main_arg9)) :=
  (W5_v19 m ρ c).trans (by rw [W4_arg9]; rfl)

theorem S20 (c : Dev nD) : (W6 m ρ c (Proc.devRef .tc main_v20)) = X20 m c :=
  (W6_arr m ρ c 4).trans ((arr2_4 (V5 m ρ) c).trans (by
    show G2 (W5 m ρ c (Proc.devRef .tc main_v18)) (W5 m ρ c (Proc.devRef .tc main_v8_1)) (W5 m ρ c (Proc.devRef .tc main_arg8)) (W5 m ρ c (Proc.devRef .tc main_v19)) = _
    rw [S18, S5_8b, W5_arg8, S19]; rfl))

theorem S7_20 (c : Dev nD) : (W7 m ρ c (Proc.devRef .tc main_v20)) = X20 m c := (W7_v20 m ρ c).trans (S20 m ρ c)

theorem S21 (c : Dev nD) : (W7 m ρ c (Proc.devRef .tc main_v21)) = biasRow64 (m ((c : Thread nD τ).loc main_arg12)) :=
  (W7_v21 m ρ c).trans (by rw [W6_arg12]; rfl)

theorem S22a (c : Dev nD) : (W8 m ρ c (Proc.devRef .tc main_v22_0)) = X22a m c :=
  (W8_arr m ρ c 5).trans ((arr3_5 (V7 m ρ) c).trans (by
    show G3a (W7 m ρ c (Proc.devRef .tc main_v20)) (W7 m ρ c (Proc.devRef .tc main_arg10)) = _
    rw [S7_20, W7_arg10]; rfl))

theorem S22b (c : Dev nD) : (W8 m ρ c (Proc.devRef .tc main_v22_1)) = X22b m c :=
  (W8_arr m ρ c 6).trans ((arr3_6 (V7 m ρ) c).trans (by
    show G3b (W7 m ρ c (Proc.devRef .tc main_v20)) (W7 m ρ c (Proc.devRef .tc main_arg11)) (W7 m ρ c (Proc.devRef .tc main_v21)) (W7 m ρ c (Proc.devRef .tc main_arg1)) = _
    rw [S7_20, W7_arg11, S21, W7_arg1]; rfl))

theorem S8_v1 (c : Dev nD) : (W8 m ρ c (Proc.devRef .tc main_v1)) = edgeRow0 (m ((c : Thread nD τ).loc main_arg15)) := (W8_v1 m ρ c).trans (W1_v1 m ρ c)
theorem S8_v3 (c : Dev nD) : (W8 m ρ c (Proc.devRef .tc main_v3)) = edgeRow1 (m ((c : Thread nD τ).loc main_arg15)) := (W8_v3 m ρ c).trans (W1_v3 m ρ c)

theorem S32 (c : Dev nD) : (W9 m ρ c (Proc.devRef .tc main_v32)) = X32 m c :=
  (W9_v32 m ρ c).trans (by rw [S22a, S8_v1, S8_v3]; rfl)

theorem S9_22b (c : Dev nD) : (W9 m ρ c (Proc.devRef .tc main_v22_1)) = X22b m c := (W9_v22_1 m ρ c).trans (S22b m ρ c)

theorem S33 (c : Dev nD) : (W9 m ρ c (Proc.devRef .tc main_v33)) = biasRow64 (m ((c : Thread nD τ).loc main_arg14)) :=
  (W9_v33 m ρ c).trans (by rw [W8_arg14]; rfl)

/-- The result array at the last boundary is the last stage. -/
theorem S34 (c : Dev nD) : (W10 m ρ c (Proc.devRef .tc main_v34)) = X34 m c :=
  (W10_arr m ρ c 4).trans ((arr4_4 (V9 m ρ) c).trans (by
    show G4 (W9 m ρ c (Proc.devRef .tc main_v32)) (W9 m ρ c (Proc.devRef .tc main_v22_1)) (W9 m ρ c (Proc.devRef .tc main_arg13)) (W9 m ρ c (Proc.devRef .tc main_v33)) = _
    rw [S32, S9_22b, W9_arg13, S33]; rfl))

end Cert.KernelIdeal.Whole

end
-- ==== Proof.RefRun.lean ====
/-
  The reference program's run, stage by stage: the program is a line of host operations; cut after the buffers that are
  read more than once, each piece of the line takes a memory holding the earlier stages to one holding the next, and a
  buffer a piece does not write keeps its contents through it.  Chained, the result buffer ends at the last stage of the
  reference read as a function of the arguments, and the arguments end as launched.
-/
import proofs.«124986_j71038759076272_1_alg».proof.Proof.RefOps
import proofs.«124986_j71038759076272_1_alg».proof.Proof.RefRead
import Idealize.ShloMosaic.Lib.StableHlo.Run

noncomputable section

namespace Cert.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The memory after two lines in a row is the memory after the second from the memory after the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The pieces of the line -/

/-- Piece 1: the operations up to the one writing `main_v9`. -/
def s1 : List (HloOp τ sig (Elt F)) :=
  [ unary main_arg15 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg15 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg3 main_v4 ((transpose S1024x128 [1, 0] · transposes_S128x1024_S1024x128_1_0) : (⟨S128x1024, .f32⟩ : BufTy).Contents (Elt F) → (⟨S1024x128, .f32⟩ : BufTy).Contents (Elt F)),
    binary main_arg0 main_v4 main_v5 ((fun l r => Host.dotGeneral dot_S60000x1024_S1024x128_S60000x128_1_0_0_1_n_n none l r) : (⟨S60000x1024, .f32⟩ : BufTy).Contents (Elt F) → (⟨S1024x128, .f32⟩ : BufTy).Contents (Elt F) → (⟨S60000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S60000x128 ![0, 1] bcast_S1x128_S60000x128_0_1 : (⟨S1x128, .f32⟩ : BufTy).Contents (Elt F) → (⟨S60000x128, .f32⟩ : BufTy).Contents (Elt F)),
    binary main_v5 main_v7 main_v8 (addf : (⟨S60000x128, .f32⟩ : BufTy).Contents (Elt F) → (⟨S60000x128, .f32⟩ : BufTy).Contents (Elt F) → (⟨S60000x128, .f32⟩ : BufTy).Contents (Elt F)),
    binary main_arg2 main_v8 main_v9 ((fun a b => concatenate S100000x128 0 [⟨S40000x128, a⟩, ⟨S60000x128, b⟩] concatenates_S40000x128_S60000x128_S100000x128_d0) : (⟨S40000x128, .f32⟩ : BufTy).Contents (Elt F) → (⟨S60000x128, .f32⟩ : BufTy).Contents (Elt F) → (⟨S100000x128, .f32⟩ : BufTy).Contents (Elt F)) ]
/-- The buffers piece 1 writes. -/
abbrev W1 : List (Ref sig .tc) := [main_v0, main_v1, main_v2, main_v3, main_v4, main_v5, main_v6, main_v7, main_v8, main_v9]
theorem s1_writes : (s1 : List (HloOp τ sig (Elt F))).Forall fun op => op.writes ⊆ (W1.map (Proc.devRef (τ := τ) .tc)).toFinset := by
  unfold s1
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 1 does not write keeps its contents through it. -/
theorem keep1 (V : Valuation τ sig (Elt F)) (r : Ref sig .tc) (h : r ∉ W1) : after s1 V (Proc.devRef .tc r) = V (Proc.devRef .tc r) :=
  after_of_writes_sub s1 V s1_writes h

/-- Piece 2: the operations up to the one writing `main_v13`. -/
def s2 : List (HloOp τ sig (Elt F)) :=
  [ TRef.binary (TRef.of (T := ⟨S100000x128, .f32⟩) main_v9) (TRef.of (T := ⟨S100000x128, .f32⟩) main_v9) (TRef.of (T := ⟨S100000x128, .f32⟩) main_call0_v0) mulf,
    TRef.nullary (TRef.of (T := ⟨S_, .f32⟩) main_call0_cst) (constant S_ .f32 0x00000000#32),
    TRef.binary (TRef.of (T := ⟨S100000x128, .f32⟩) main_call0_v0) (TRef.of (T := ⟨S_, .f32⟩) main_call0_cst) (TRef.of (T := ⟨S100000, .f32⟩) main_call0_v1) (fun x v => Host.reduceAdd x v reducesTo_S100000x128_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v10) Host.sqrt,
    nullary main_cst (constant S_ .f32 0x2B8CBCCC#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S100000x1, .f32⟩) main_call1_v1) (broadcastInDim S100000x1 ![] bcast_S_S100000x1),
    TRef.binary (TRef.of (T := ⟨S100000x1, .f32⟩) main_call1_v1) (TRef.of (T := ⟨S100000x1, .f32⟩) main_v10) (TRef.of (T := ⟨S100000x1, .f32⟩) main_v11) maximumf,
    unary main_v11 main_v12 (broadcastInDim S100000x128 ![0, 1] bcast_S100000x1_S100000x128_0_1 : (⟨S100000x1, .f32⟩ : BufTy).Contents (Elt F) → (⟨S100000x128, .f32⟩ : BufTy).Contents (Elt F)),
    binary main_v9 main_v12 main_v13 (Host.divf : (⟨S100000x128, .f32⟩ : BufTy).Contents (Elt F) → (⟨S100000x128, .f32⟩ : BufTy).Contents (Elt F) → (⟨S100000x128, .f32⟩ : BufTy).Contents (Elt F)) ]
/-- The buffers piece 2 writes. -/
abbrev W2 : List (Ref sig .tc) := [main_call0_v0, main_call0_cst, main_call0_v1, main_call0_v2, main_v10, main_cst, main_call1_v0, main_call1_v1, main_v11, main_v12, main_v13]
theorem s2_writes : (s2 : List (HloOp τ sig (Elt F))).Forall fun op => op.writes ⊆ (W2.map (Proc.devRef (τ := τ) .tc)).toFinset := by
  unfold s2
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 2 does not write keeps its contents through it. -/
theorem keep2 (V : Valuation τ sig (Elt F)) (r : Ref sig .tc) (h : r ∉ W2) : after s2 V (Proc.devRef .tc r) = V (Proc.devRef .tc r) :=
  after_of_writes_sub s2 V s2_writes h

/-- Piece 3: the operations up to the one writing `main_v14`. -/
def s3 : List (HloOp τ sig (Elt F)) :=
  [ binary main_v13 main_arg5 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers piece 3 writes. -/
abbrev W3 : List (Ref sig .tc) := [main_v14]
theorem s3_writes : (s3 : List (HloOp τ sig (Elt F))).Forall fun op => op.writes ⊆ (W3.map (Proc.devRef (τ := τ) .tc)).toFinset := by
  unfold s3
  simp only [List.Forall]
  exact (by simp only [nullary_writes, unary_writes, binary_writes, ternary_writes, quaternary_writes, reshape_writes, binaryIndexed_writes, unaryIndexed_writes, nary_writes, Finset.singleton_subset_iff, List.mem_toFinset]; exact List.mem_map_of_mem (by decide))
/-- A buffer piece 3 does not write keeps its contents through it. -/
theorem keep3 (V : Valuation τ sig (Elt F)) (r : Ref sig .tc) (h : r ∉ W3) : after s3 V (Proc.devRef .tc r) = V (Proc.devRef .tc r) :=
  after_of_writes_sub s3 V s3_writes h

/-- Piece 4: the operations up to the one writing `main_v24`. -/
def s4 : List (HloOp τ sig (Elt F)) :=
  [ nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_1 (constant S_ .f32 0x00000000#32),
    unary main_cst_1 main_v22 (broadcastInDim S100000x128 ![] bcast_S_S100000x128 : (⟨S_, .f32⟩ : BufTy).Contents (Elt F) → (⟨S100000x128, .f32⟩ : BufTy).Contents (Elt F)),
    unary main_v3 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers piece 4 writes. -/
abbrev W4 : List (Ref sig .tc) := [main_c, main_v15, main_v16, main_c_0, main_v17, main_v18, main_v19, main_v20, main_v21, main_cst_1, main_v22, main_v23, main_v24]
theorem s4_writes : (s4 : List (HloOp τ sig (Elt F))).Forall fun op => op.writes ⊆ (W4.map (Proc.devRef (τ := τ) .tc)).toFinset := by
  unfold s4
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 4 does not write keeps its contents through it. -/
theorem keep4 (V : Valuation τ sig (Elt F)) (r : Ref sig .tc) (h : r ∉ W4) : after s4 V (Proc.devRef .tc r) = V (Proc.devRef .tc r) :=
  after_of_writes_sub s4 V s4_writes h

/-- Piece 5: the operations up to the one writing `main_v29`. -/
def s5 : List (HloOp τ sig (Elt F)) :=
  [ nullary main_cst_2 (constant S_ .f32 0x00000000#32),
    unary main_cst_2 main_v25 (broadcastInDim S100000x128 ![] bcast_S_S100000x128 : (⟨S_, .f32⟩ : BufTy).Contents (Elt F) → (⟨S100000x128, .f32⟩ : BufTy).Contents (Elt F)),
    binary main_v24 main_v25 main_v26 (cmpf .ogt : (⟨S100000x128, .f32⟩ : BufTy).Contents (Elt F) → (⟨S100000x128, .f32⟩ : BufTy).Contents (Elt F) → (⟨S100000x128, .i1⟩ : BufTy).Contents (Elt F)),
    nullary main_cst_3 (constant S_ .f32 0x3C23D70A#32),
    unary main_cst_3 main_v27 (broadcastInDim S100000x128 ![] bcast_S_S100000x128 : (⟨S_, .f32⟩ : BufTy).Contents (Elt F) → (⟨S100000x128, .f32⟩ : BufTy).Contents (Elt F)),
    binary main_v27 main_v24 main_v28 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v26) (TRef.of (T := ⟨S100000x128, .f32⟩) main_v24) (TRef.of (T := ⟨S100000x128, .f32⟩) main_v28) (TRef.of (T := ⟨S100000x128, .f32⟩) main_v29) select ]
/-- The buffers piece 5 writes. -/
abbrev W5 : List (Ref sig .tc) := [main_cst_2, main_v25, main_v26, main_cst_3, main_v27, main_v28, main_v29]
theorem s5_writes : (s5 : List (HloOp τ sig (Elt F))).Forall fun op => op.writes ⊆ (W5.map (Proc.devRef (τ := τ) .tc)).toFinset := by
  unfold s5
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 5 does not write keeps its contents through it. -/
theorem keep5 (V : Valuation τ sig (Elt F)) (r : Ref sig .tc) (h : r ∉ W5) : after s5 V (Proc.devRef .tc r) = V (Proc.devRef .tc r) :=
  after_of_writes_sub s5 V s5_writes h

/-- Piece 6: the operations up to the one writing `main_v34`. -/
def s6 : List (HloOp τ sig (Elt F)) :=
  [ unary main_arg6 main_v30 ((transpose S128x64 [1, 0] · transposes_S64x128_S128x64_1_0) : (⟨S64x128, .f32⟩ : BufTy).Contents (Elt F) → (⟨S128x64, .f32⟩ : BufTy).Contents (Elt F)),
    binary main_v13 main_v30 main_v31 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg7 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)) ]
/-- The buffers piece 6 writes. -/
abbrev W6 : List (Ref sig .tc) := [main_v30, main_v31, main_v32, main_v33, main_v34]
theorem s6_writes : (s6 : List (HloOp τ sig (Elt F))).Forall fun op => op.writes ⊆ (W6.map (Proc.devRef (τ := τ) .tc)).toFinset := by
  unfold s6
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 6 does not write keeps its contents through it. -/
theorem keep6 (V : Valuation τ sig (Elt F)) (r : Ref sig .tc) (h : r ∉ W6) : after s6 V (Proc.devRef .tc r) = V (Proc.devRef .tc r) :=
  after_of_writes_sub s6 V s6_writes h

/-- Piece 7: the operations up to the one writing `main_v40`. -/
def s7 : List (HloOp τ sig (Elt F)) :=
  [ nullary main_cst_4 (constant S_ .f32 0x00000000#32),
    unary main_cst_4 main_v35 (broadcastInDim S100000x64 ![] bcast_S_S100000x64 : (⟨S_, .f32⟩ : BufTy).Contents (Elt F) → (⟨S100000x64, .f32⟩ : BufTy).Contents (Elt F)),
    binary main_v34 main_v35 main_v36 (cmpf .ogt : (⟨S100000x64, .f32⟩ : BufTy).Contents (Elt F) → (⟨S100000x64, .f32⟩ : BufTy).Contents (Elt F) → (⟨S100000x64, .i1⟩ : BufTy).Contents (Elt F)),
    nullary main_cst_5 (constant S_ .f32 0x3C23D70A#32),
    unary main_cst_5 main_v37 (broadcastInDim S100000x64 ![] bcast_S_S100000x64 : (⟨S_, .f32⟩ : BufTy).Contents (Elt F) → (⟨S100000x64, .f32⟩ : BufTy).Contents (Elt F)),
    binary main_v37 main_v34 main_v38 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v36) (TRef.of (T := ⟨S100000x64, .f32⟩) main_v34) (TRef.of (T := ⟨S100000x64, .f32⟩) main_v38) (TRef.of (T := ⟨S100000x64, .f32⟩) main_v39) select,
    binary main_v39 main_arg1 main_v40 (addf : (⟨S100000x64, .f32⟩ : BufTy).Contents (Elt F) → (⟨S100000x64, .f32⟩ : BufTy).Contents (Elt F) → (⟨S100000x64, .f32⟩ : BufTy).Contents (Elt F)) ]
/-- The buffers piece 7 writes. -/
abbrev W7 : List (Ref sig .tc) := [main_cst_4, main_v35, main_v36, main_cst_5, main_v37, main_v38, main_v39, main_v40]
theorem s7_writes : (s7 : List (HloOp τ sig (Elt F))).Forall fun op => op.writes ⊆ (W7.map (Proc.devRef (τ := τ) .tc)).toFinset := by
  unfold s7
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 7 does not write keeps its contents through it. -/
theorem keep7 (V : Valuation τ sig (Elt F)) (r : Ref sig .tc) (h : r ∉ W7) : after s7 V (Proc.devRef .tc r) = V (Proc.devRef .tc r) :=
  after_of_writes_sub s7 V s7_writes h

/-- Piece 8: the operations up to the one writing `main_v46`. -/
def s8 : List (HloOp τ sig (Elt F)) :=
  [ unary main_arg8 main_v41 ((transpose S128x64 [1, 0] · transposes_S64x128_S128x64_1_0) : (⟨S64x128, .f32⟩ : BufTy).Contents (Elt F) → (⟨S128x64, .f32⟩ : BufTy).Contents (Elt F)),
    binary main_v29 main_v41 main_v42 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg9 main_v43 (broadcastInDim S1x64 ![1] bcast_S64_S1x64_1 : (⟨S64, .f32⟩ : BufTy).Contents (Elt F) → (⟨S1x64, .f32⟩ : BufTy).Contents (Elt F)),
    unary main_v43 main_v44 (broadcastInDim S100000x64 ![0, 1] bcast_S1x64_S100000x64_0_1 : (⟨S1x64, .f32⟩ : BufTy).Contents (Elt F) → (⟨S100000x64, .f32⟩ : BufTy).Contents (Elt F)),
    binary main_v42 main_v44 main_v45 (addf : (⟨S100000x64, .f32⟩ : BufTy).Contents (Elt F) → (⟨S100000x64, .f32⟩ : BufTy).Contents (Elt F) → (⟨S100000x64, .f32⟩ : BufTy).Contents (Elt F)),
    binary main_v45 main_v40 main_v46 (addf : (⟨S100000x64, .f32⟩ : BufTy).Contents (Elt F) → (⟨S100000x64, .f32⟩ : BufTy).Contents (Elt F) → (⟨S100000x64, .f32⟩ : BufTy).Contents (Elt F)) ]
/-- The buffers piece 8 writes. -/
abbrev W8 : List (Ref sig .tc) := [main_v41, main_v42, main_v43, main_v44, main_v45, main_v46]
theorem s8_writes : (s8 : List (HloOp τ sig (Elt F))).Forall fun op => op.writes ⊆ (W8.map (Proc.devRef (τ := τ) .tc)).toFinset := by
  unfold s8
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 8 does not write keeps its contents through it. -/
theorem keep8 (V : Valuation τ sig (Elt F)) (r : Ref sig .tc) (h : r ∉ W8) : after s8 V (Proc.devRef .tc r) = V (Proc.devRef .tc r) :=
  after_of_writes_sub s8 V s8_writes h

/-- Piece 9: the operations up to the one writing `main_v51`. -/
def s9 : List (HloOp τ sig (Elt F)) :=
  [ nullary main_cst_6 (constant S_ .f32 0x00000000#32),
    unary main_cst_6 main_v47 (broadcastInDim S100000x64 ![] bcast_S_S100000x64 : (⟨S_, .f32⟩ : BufTy).Contents (Elt F) → (⟨S100000x64, .f32⟩ : BufTy).Contents (Elt F)),
    binary main_v46 main_v47 main_v48 (cmpf .ogt : (⟨S100000x64, .f32⟩ : BufTy).Contents (Elt F) → (⟨S100000x64, .f32⟩ : BufTy).Contents (Elt F) → (⟨S100000x64, .i1⟩ : BufTy).Contents (Elt F)),
    nullary main_cst_7 (constant S_ .f32 0x3C23D70A#32),
    unary main_cst_7 main_v49 (broadcastInDim S100000x64 ![] bcast_S_S100000x64 : (⟨S_, .f32⟩ : BufTy).Contents (Elt F) → (⟨S100000x64, .f32⟩ : BufTy).Contents (Elt F)),
    binary main_v49 main_v46 main_v50 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v48) (TRef.of (T := ⟨S100000x64, .f32⟩) main_v46) (TRef.of (T := ⟨S100000x64, .f32⟩) main_v50) (TRef.of (T := ⟨S100000x64, .f32⟩) main_v51) select ]
/-- The buffers piece 9 writes. -/
abbrev W9 : List (Ref sig .tc) := [main_cst_6, main_v47, main_v48, main_cst_7, main_v49, main_v50, main_v51]
theorem s9_writes : (s9 : List (HloOp τ sig (Elt F))).Forall fun op => op.writes ⊆ (W9.map (Proc.devRef (τ := τ) .tc)).toFinset := by
  unfold s9
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 9 does not write keeps its contents through it. -/
theorem keep9 (V : Valuation τ sig (Elt F)) (r : Ref sig .tc) (h : r ∉ W9) : after s9 V (Proc.devRef .tc r) = V (Proc.devRef .tc r) :=
  after_of_writes_sub s9 V s9_writes h

/-- Piece 10: the operations up to the one writing `main_v52`. -/
def s10 : List (HloOp τ sig (Elt F)) :=
  [ binary main_v51 main_arg10 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
/-- The buffers piece 10 writes. -/
abbrev W10 : List (Ref sig .tc) := [main_v52]
theorem s10_writes : (s10 : List (HloOp τ sig (Elt F))).Forall fun op => op.writes ⊆ (W10.map (Proc.devRef (τ := τ) .tc)).toFinset := by
  unfold s10
  simp only [List.Forall]
  exact (by simp only [nullary_writes, unary_writes, binary_writes, ternary_writes, quaternary_writes, reshape_writes, binaryIndexed_writes, unaryIndexed_writes, nary_writes, Finset.singleton_subset_iff, List.mem_toFinset]; exact List.mem_map_of_mem (by decide))
/-- A buffer piece 10 does not write keeps its contents through it. -/
theorem keep10 (V : Valuation τ sig (Elt F)) (r : Ref sig .tc) (h : r ∉ W10) : after s10 V (Proc.devRef .tc r) = V (Proc.devRef .tc r) :=
  after_of_writes_sub s10 V s10_writes h

/-- Piece 11: the operations up to the one writing `main_v62`. -/
def s11 : List (HloOp τ sig (Elt F)) :=
  [ nullary main_c_8 (constantI S_ 32 0#32),
    unary main_c_8 main_v53 (broadcastInDim S1600000 ![] bcast_S_S1600000 : (⟨S_, .i32⟩ : BufTy).Contents (Elt F) → (⟨S1600000, .i32⟩ : BufTy).Contents (Elt F)),
    binary main_v1 main_v53 main_v54 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v55 (broadcastInDim S1600000 ![] bcast_S_S1600000 : (⟨S_, .i32⟩ : BufTy).Contents (Elt F) → (⟨S1600000, .i32⟩ : BufTy).Contents (Elt F)),
    binary main_v1 main_v55 main_v56 (addi : (⟨S1600000, .i32⟩ : BufTy).Contents (Elt F) → (⟨S1600000, .i32⟩ : BufTy).Contents (Elt F) → (⟨S1600000, .i32⟩ : BufTy).Contents (Elt F)),
    ternary main_v54 main_v56 main_v1 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v57 main_v58 (broadcastInDim S1600000x1 ![0] bcast_S1600000_S1600000x1_0 : (⟨S1600000, .i32⟩ : BufTy).Contents (Elt F) → (⟨S1600000x1, .i32⟩ : BufTy).Contents (Elt F)),
    binary main_v52 main_v58 main_v59 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_10 (constant S_ .f32 0x00000000#32),
    unary main_cst_10 main_v60 (broadcastInDim S100000x64 ![] bcast_S_S100000x64 : (⟨S_, .f32⟩ : BufTy).Contents (Elt F) → (⟨S100000x64, .f32⟩ : BufTy).Contents (Elt F)),
    unary main_v3 main_v61 (broadcastInDim S1600000x1 ![0] bcast_S1600000_S1600000x1_0 : (⟨S1600000, .i32⟩ : BufTy).Contents (Elt F) → (⟨S1600000x1, .i32⟩ : BufTy).Contents (Elt F)),
    ternary main_v60 main_v61 main_v59 main_v62 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers piece 11 writes. -/
abbrev W11 : List (Ref sig .tc) := [main_c_8, main_v53, main_v54, main_c_9, main_v55, main_v56, main_v57, main_v58, main_v59, main_cst_10, main_v60, main_v61, main_v62]
theorem s11_writes : (s11 : List (HloOp τ sig (Elt F))).Forall fun op => op.writes ⊆ (W11.map (Proc.devRef (τ := τ) .tc)).toFinset := by
  unfold s11
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 11 does not write keeps its contents through it. -/
theorem keep11 (V : Valuation τ sig (Elt F)) (r : Ref sig .tc) (h : r ∉ W11) : after s11 V (Proc.devRef .tc r) = V (Proc.devRef .tc r) :=
  after_of_writes_sub s11 V s11_writes h

/-- Piece 12: the operations up to the one writing `main_v67`. -/
def s12 : List (HloOp τ sig (Elt F)) :=
  [ nullary main_cst_11 (constant S_ .f32 0x00000000#32),
    unary main_cst_11 main_v63 (broadcastInDim S100000x64 ![] bcast_S_S100000x64 : (⟨S_, .f32⟩ : BufTy).Contents (Elt F) → (⟨S100000x64, .f32⟩ : BufTy).Contents (Elt F)),
    binary main_v62 main_v63 main_v64 (cmpf .ogt : (⟨S100000x64, .f32⟩ : BufTy).Contents (Elt F) → (⟨S100000x64, .f32⟩ : BufTy).Contents (Elt F) → (⟨S100000x64, .i1⟩ : BufTy).Contents (Elt F)),
    nullary main_cst_12 (constant S_ .f32 0x3C23D70A#32),
    unary main_cst_12 main_v65 (broadcastInDim S100000x64 ![] bcast_S_S100000x64 : (⟨S_, .f32⟩ : BufTy).Contents (Elt F) → (⟨S100000x64, .f32⟩ : BufTy).Contents (Elt F)),
    binary main_v65 main_v62 main_v66 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v64) (TRef.of (T := ⟨S100000x64, .f32⟩) main_v62) (TRef.of (T := ⟨S100000x64, .f32⟩) main_v66) (TRef.of (T := ⟨S100000x64, .f32⟩) main_v67) select ]
/-- The buffers piece 12 writes. -/
abbrev W12 : List (Ref sig .tc) := [main_cst_11, main_v63, main_v64, main_cst_12, main_v65, main_v66, main_v67]
theorem s12_writes : (s12 : List (HloOp τ sig (Elt F))).Forall fun op => op.writes ⊆ (W12.map (Proc.devRef (τ := τ) .tc)).toFinset := by
  unfold s12
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 12 does not write keeps its contents through it. -/
theorem keep12 (V : Valuation τ sig (Elt F)) (r : Ref sig .tc) (h : r ∉ W12) : after s12 V (Proc.devRef .tc r) = V (Proc.devRef .tc r) :=
  after_of_writes_sub s12 V s12_writes h

/-- Piece 13: the operations up to the one writing `main_v72`. -/
def s13 : List (HloOp τ sig (Elt F)) :=
  [ unary main_arg11 main_v68 ((transpose S64x64 [1, 0] · transposes_S64x64_S64x64_1_0) : (⟨S64x64, .f32⟩ : BufTy).Contents (Elt F) → (⟨S64x64, .f32⟩ : BufTy).Contents (Elt F)),
    binary main_v51 main_v68 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)) ]
/-- The buffers piece 13 writes. -/
abbrev W13 : List (Ref sig .tc) := [main_v68, main_v69, main_v70, main_v71, main_v72]
theorem s13_writes : (s13 : List (HloOp τ sig (Elt F))).Forall fun op => op.writes ⊆ (W13.map (Proc.devRef (τ := τ) .tc)).toFinset := by
  unfold s13
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 13 does not write keeps its contents through it. -/
theorem keep13 (V : Valuation τ sig (Elt F)) (r : Ref sig .tc) (h : r ∉ W13) : after s13 V (Proc.devRef .tc r) = V (Proc.devRef .tc r) :=
  after_of_writes_sub s13 V s13_writes h

/-- Piece 14: the operations up to the one writing `main_v78`. -/
def s14 : List (HloOp τ sig (Elt F)) :=
  [ nullary main_cst_13 (constant S_ .f32 0x00000000#32),
    unary main_cst_13 main_v73 (broadcastInDim S100000x64 ![] bcast_S_S100000x64 : (⟨S_, .f32⟩ : BufTy).Contents (Elt F) → (⟨S100000x64, .f32⟩ : BufTy).Contents (Elt F)),
    binary main_v72 main_v73 main_v74 (cmpf .ogt : (⟨S100000x64, .f32⟩ : BufTy).Contents (Elt F) → (⟨S100000x64, .f32⟩ : BufTy).Contents (Elt F) → (⟨S100000x64, .i1⟩ : BufTy).Contents (Elt F)),
    nullary main_cst_14 (constant S_ .f32 0x3C23D70A#32),
    unary main_cst_14 main_v75 (broadcastInDim S100000x64 ![] bcast_S_S100000x64 : (⟨S_, .f32⟩ : BufTy).Contents (Elt F) → (⟨S100000x64, .f32⟩ : BufTy).Contents (Elt F)),
    binary main_v75 main_v72 main_v76 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v74) (TRef.of (T := ⟨S100000x64, .f32⟩) main_v72) (TRef.of (T := ⟨S100000x64, .f32⟩) main_v76) (TRef.of (T := ⟨S100000x64, .f32⟩) main_v77) select,
    binary main_v77 main_arg1 main_v78 (addf : (⟨S100000x64, .f32⟩ : BufTy).Contents (Elt F) → (⟨S100000x64, .f32⟩ : BufTy).Contents (Elt F) → (⟨S100000x64, .f32⟩ : BufTy).Contents (Elt F)) ]
/-- The buffers piece 14 writes. -/
abbrev W14 : List (Ref sig .tc) := [main_cst_13, main_v73, main_v74, main_cst_14, main_v75, main_v76, main_v77, main_v78]
theorem s14_writes : (s14 : List (HloOp τ sig (Elt F))).Forall fun op => op.writes ⊆ (W14.map (Proc.devRef (τ := τ) .tc)).toFinset := by
  unfold s14
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 14 does not write keeps its contents through it. -/
theorem keep14 (V : Valuation τ sig (Elt F)) (r : Ref sig .tc) (h : r ∉ W14) : after s14 V (Proc.devRef .tc r) = V (Proc.devRef .tc r) :=
  after_of_writes_sub s14 V s14_writes h

/-- Piece 15: the operations up to the one writing `main_v84`. -/
def s15 : List (HloOp τ sig (Elt F)) :=
  [ unary main_arg13 main_v79 ((transpose S64x64 [1, 0] · transposes_S64x64_S64x64_1_0) : (⟨S64x64, .f32⟩ : BufTy).Contents (Elt F) → (⟨S64x64, .f32⟩ : BufTy).Contents (Elt F)),
    binary main_v67 main_v79 main_v80 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg14 main_v81 (broadcastInDim S1x64 ![1] bcast_S64_S1x64_1 : (⟨S64, .f32⟩ : BufTy).Contents (Elt F) → (⟨S1x64, .f32⟩ : BufTy).Contents (Elt F)),
    unary main_v81 main_v82 (broadcastInDim S100000x64 ![0, 1] bcast_S1x64_S100000x64_0_1 : (⟨S1x64, .f32⟩ : BufTy).Contents (Elt F) → (⟨S100000x64, .f32⟩ : BufTy).Contents (Elt F)),
    binary main_v80 main_v82 main_v83 (addf : (⟨S100000x64, .f32⟩ : BufTy).Contents (Elt F) → (⟨S100000x64, .f32⟩ : BufTy).Contents (Elt F) → (⟨S100000x64, .f32⟩ : BufTy).Contents (Elt F)),
    binary main_v83 main_v78 main_v84 (addf : (⟨S100000x64, .f32⟩ : BufTy).Contents (Elt F) → (⟨S100000x64, .f32⟩ : BufTy).Contents (Elt F) → (⟨S100000x64, .f32⟩ : BufTy).Contents (Elt F)) ]
/-- The buffers piece 15 writes. -/
abbrev W15 : List (Ref sig .tc) := [main_v79, main_v80, main_v81, main_v82, main_v83, main_v84]
theorem s15_writes : (s15 : List (HloOp τ sig (Elt F))).Forall fun op => op.writes ⊆ (W15.map (Proc.devRef (τ := τ) .tc)).toFinset := by
  unfold s15
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 15 does not write keeps its contents through it. -/
theorem keep15 (V : Valuation τ sig (Elt F)) (r : Ref sig .tc) (h : r ∉ W15) : after s15 V (Proc.devRef .tc r) = V (Proc.devRef .tc r) :=
  after_of_writes_sub s15 V s15_writes h

/-- Piece 16: the operations up to the one writing `main_v89`. -/
def s16 : List (HloOp τ sig (Elt F)) :=
  [ nullary main_cst_15 (constant S_ .f32 0x00000000#32),
    unary main_cst_15 main_v85 (broadcastInDim S100000x64 ![] bcast_S_S100000x64 : (⟨S_, .f32⟩ : BufTy).Contents (Elt F) → (⟨S100000x64, .f32⟩ : BufTy).Contents (Elt F)),
    binary main_v84 main_v85 main_v86 (cmpf .ogt : (⟨S100000x64, .f32⟩ : BufTy).Contents (Elt F) → (⟨S100000x64, .f32⟩ : BufTy).Contents (Elt F) → (⟨S100000x64, .i1⟩ : BufTy).Contents (Elt F)),
    nullary main_cst_16 (constant S_ .f32 0x3C23D70A#32),
    unary main_cst_16 main_v87 (broadcastInDim S100000x64 ![] bcast_S_S100000x64 : (⟨S_, .f32⟩ : BufTy).Contents (Elt F) → (⟨S100000x64, .f32⟩ : BufTy).Contents (Elt F)),
    binary main_v87 main_v84 main_v88 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v86) (TRef.of (T := ⟨S100000x64, .f32⟩) main_v84) (TRef.of (T := ⟨S100000x64, .f32⟩) main_v88) (TRef.of (T := ⟨S100000x64, .f32⟩) main_v89) select ]
/-- The buffers piece 16 writes. -/
abbrev W16 : List (Ref sig .tc) := [main_cst_15, main_v85, main_v86, main_cst_16, main_v87, main_v88, main_v89]
theorem s16_writes : (s16 : List (HloOp τ sig (Elt F))).Forall fun op => op.writes ⊆ (W16.map (Proc.devRef (τ := τ) .tc)).toFinset := by
  unfold s16
  simp only [List.Forall]
  exact ⟨(by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide)),
    (by simp only [nullary_writes, unary_writes, binary_writes, ternary_writes, quaternary_writes, reshape_writes, binaryIndexed_writes, unaryIndexed_writes, nary_writes, Finset.singleton_subset_iff, List.mem_toFinset]; exact List.mem_map_of_mem (by decide))⟩
/-- A buffer piece 16 does not write keeps its contents through it. -/
theorem keep16 (V : Valuation τ sig (Elt F)) (r : Ref sig .tc) (h : r ∉ W16) : after s16 V (Proc.devRef .tc r) = V (Proc.devRef .tc r) :=
  after_of_writes_sub s16 V s16_writes h

set_option maxRecDepth 8192 in
/-- The line is its pieces in a row. -/
theorem ops_split : (ops : List (HloOp τ sig (Elt F))) = s1 ++ (s2 ++ (s3 ++ (s4 ++ (s5 ++ (s6 ++ (s7 ++ (s8 ++ (s9 ++ (s10 ++ (s11 ++ (s12 ++ (s13 ++ (s14 ++ (s15 ++ (s16))))))))))))))) := rfl

/-! ## Each piece computes its stage from the stages and arguments it reads -/

theorem stage1_main_v1 (V : Valuation τ sig (Elt F)) (x15 : (⟨S2x1600000, .i32⟩ : BufTy).Contents (Elt F))
    (h_main_arg15 : V (Proc.devRef .tc main_arg15) = x15) :
    after s1 V (Proc.devRef .tc main_v1) = val_main_v1 (F := F) x15 := by
  unfold s1
  after_results_simp
  rw [h_main_arg15]
  rfl

theorem stage1_main_v3 (V : Valuation τ sig (Elt F)) (x15 : (⟨S2x1600000, .i32⟩ : BufTy).Contents (Elt F))
    (h_main_arg15 : V (Proc.devRef .tc main_arg15) = x15) :
    after s1 V (Proc.devRef .tc main_v3) = val_main_v3 (F := F) x15 := by
  unfold s1
  after_results_simp
  rw [h_main_arg15]
  rfl

theorem stage1_main_v9 (V : Valuation τ sig (Elt F)) (x0 : (⟨S60000x1024, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F))
    (h_main_arg2 : V (Proc.devRef .tc main_arg2) = x2)
    (h_main_arg0 : V (Proc.devRef .tc main_arg0) = x0)
    (h_main_arg3 : V (Proc.devRef .tc main_arg3) = x3)
    (h_main_arg4 : V (Proc.devRef .tc main_arg4) = x4) :
    after s1 V (Proc.devRef .tc main_v9) = val_main_v9 (F := F) x0 x2 x3 x4 := by
  unfold s1
  after_results
  rw [h_main_arg2, h_main_arg0, h_main_arg3, h_main_arg4]
  rfl

theorem stage2_main_v13 (V : Valuation τ sig (Elt F)) (x0 : (⟨S60000x1024, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F))
    (h_main_v9 : V (Proc.devRef .tc main_v9) = val_main_v9 (F := F) x0 x2 x3 x4) :
    after s2 V (Proc.devRef .tc main_v13) = val_main_v13 (F := F) x0 x2 x3 x4 := by
  unfold s2
  after_results_simp
  rw [h_main_v9]
  rfl

theorem stage3_main_v14 (V : Valuation τ sig (Elt F)) (x0 : (⟨S60000x1024, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F))
    (h_main_v13 : V (Proc.devRef .tc main_v13) = val_main_v13 (F := F) x0 x2 x3 x4)
    (h_main_arg5 : V (Proc.devRef .tc main_arg5) = x5) :
    after s3 V (Proc.devRef .tc main_v14) = val_main_v14 (F := F) x0 x2 x3 x4 x5 := by
  unfold s3
  after_results_simp
  rw [h_main_v13, h_main_arg5]
  rfl

theorem stage4_main_v24 (V : Valuation τ sig (Elt F)) (x0 : (⟨S60000x1024, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x15 : (⟨S2x1600000, .i32⟩ : BufTy).Contents (Elt F))
    (h_main_v3 : V (Proc.devRef .tc main_v3) = val_main_v3 (F := F) x15)
    (h_main_v14 : V (Proc.devRef .tc main_v14) = val_main_v14 (F := F) x0 x2 x3 x4 x5)
    (h_main_v1 : V (Proc.devRef .tc main_v1) = val_main_v1 (F := F) x15) :
    after s4 V (Proc.devRef .tc main_v24) = val_main_v24 (F := F) x0 x2 x3 x4 x5 x15 := by
  unfold s4
  after_results_simp
  rw [h_main_v3, h_main_v14, h_main_v1]
  rfl

theorem stage5_main_v29 (V : Valuation τ sig (Elt F)) (x0 : (⟨S60000x1024, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x15 : (⟨S2x1600000, .i32⟩ : BufTy).Contents (Elt F))
    (h_main_v24 : V (Proc.devRef .tc main_v24) = val_main_v24 (F := F) x0 x2 x3 x4 x5 x15) :
    after s5 V (Proc.devRef .tc main_v29) = val_main_v29 (F := F) x0 x2 x3 x4 x5 x15 := by
  unfold s5
  after_results_simp
  rw [h_main_v24]
  rfl

theorem stage6_main_v34 (V : Valuation τ sig (Elt F)) (x0 : (⟨S60000x1024, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x6 : (⟨S64x128, .f32⟩ : BufTy).Contents (Elt F)) (x7 : (⟨S64, .f32⟩ : BufTy).Contents (Elt F))
    (h_main_v13 : V (Proc.devRef .tc main_v13) = val_main_v13 (F := F) x0 x2 x3 x4)
    (h_main_arg6 : V (Proc.devRef .tc main_arg6) = x6)
    (h_main_arg7 : V (Proc.devRef .tc main_arg7) = x7) :
    after s6 V (Proc.devRef .tc main_v34) = val_main_v34 (F := F) x0 x2 x3 x4 x6 x7 := by
  unfold s6
  after_results_simp
  rw [h_main_v13, h_main_arg6, h_main_arg7]
  rfl

theorem stage7_main_v40 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x6 : (⟨S64x128, .f32⟩ : BufTy).Contents (Elt F)) (x7 : (⟨S64, .f32⟩ : BufTy).Contents (Elt F))
    (h_main_v34 : V (Proc.devRef .tc main_v34) = val_main_v34 (F := F) x0 x2 x3 x4 x6 x7)
    (h_main_arg1 : V (Proc.devRef .tc main_arg1) = x1) :
    after s7 V (Proc.devRef .tc main_v40) = val_main_v40 (F := F) x0 x1 x2 x3 x4 x6 x7 := by
  unfold s7
  after_results_simp
  rw [h_main_v34, h_main_arg1]
  rfl

theorem stage8_main_v46 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x15 : (⟨S2x1600000, .i32⟩ : BufTy).Contents (Elt F))
    (h_main_v29 : V (Proc.devRef .tc main_v29) = val_main_v29 (F := F) x0 x2 x3 x4 x5 x15)
    (h_main_arg8 : V (Proc.devRef .tc main_arg8) = x8)
    (h_main_arg9 : V (Proc.devRef .tc main_arg9) = x9)
    (h_main_v40 : V (Proc.devRef .tc main_v40) = val_main_v40 (F := F) x0 x1 x2 x3 x4 x6 x7) :
    after s8 V (Proc.devRef .tc main_v46) = val_main_v46 (F := F) x0 x1 x2 x3 x4 x5 x6 x7 x8 x9 x15 := by
  unfold s8
  after_results_simp
  rw [h_main_v29, h_main_arg8, h_main_arg9, h_main_v40]
  rfl

theorem stage9_main_v51 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x15 : (⟨S2x1600000, .i32⟩ : BufTy).Contents (Elt F))
    (h_main_v46 : V (Proc.devRef .tc main_v46) = val_main_v46 (F := F) x0 x1 x2 x3 x4 x5 x6 x7 x8 x9 x15) :
    after s9 V (Proc.devRef .tc main_v51) = val_main_v51 (F := F) x0 x1 x2 x3 x4 x5 x6 x7 x8 x9 x15 := by
  unfold s9
  after_results_simp
  rw [h_main_v46]
  rfl

theorem stage10_main_v52 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x10 : (⟨S64x64, .f32⟩ : BufTy).Contents (Elt F)) (x15 : (⟨S2x1600000, .i32⟩ : BufTy).Contents (Elt F))
    (h_main_v51 : V (Proc.devRef .tc main_v51) = val_main_v51 (F := F) x0 x1 x2 x3 x4 x5 x6 x7 x8 x9 x15)
    (h_main_arg10 : V (Proc.devRef .tc main_arg10) = x10) :
    after s10 V (Proc.devRef .tc main_v52) = val_main_v52 (F := F) x0 x1 x2 x3 x4 x5 x6 x7 x8 x9 x10 x15 := by
  unfold s10
  after_results_simp
  rw [h_main_v51, h_main_arg10]
  rfl

theorem stage11_main_v62 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x10 : (⟨S64x64, .f32⟩ : BufTy).Contents (Elt F)) (x15 : (⟨S2x1600000, .i32⟩ : BufTy).Contents (Elt F))
    (h_main_v3 : V (Proc.devRef .tc main_v3) = val_main_v3 (F := F) x15)
    (h_main_v52 : V (Proc.devRef .tc main_v52) = val_main_v52 (F := F) x0 x1 x2 x3 x4 x5 x6 x7 x8 x9 x10 x15)
    (h_main_v1 : V (Proc.devRef .tc main_v1) = val_main_v1 (F := F) x15) :
    after s11 V (Proc.devRef .tc main_v62) = val_main_v62 (F := F) x0 x1 x2 x3 x4 x5 x6 x7 x8 x9 x10 x15 := by
  unfold s11
  after_results_simp
  rw [h_main_v3, h_main_v52, h_main_v1]
  rfl

theorem stage12_main_v67 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x10 : (⟨S64x64, .f32⟩ : BufTy).Contents (Elt F)) (x15 : (⟨S2x1600000, .i32⟩ : BufTy).Contents (Elt F))
    (h_main_v62 : V (Proc.devRef .tc main_v62) = val_main_v62 (F := F) x0 x1 x2 x3 x4 x5 x6 x7 x8 x9 x10 x15) :
    after s12 V (Proc.devRef .tc main_v67) = val_main_v67 (F := F) x0 x1 x2 x3 x4 x5 x6 x7 x8 x9 x10 x15 := by
  unfold s12
  after_results_simp
  rw [h_main_v62]
  rfl

theorem stage13_main_v72 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x11 : (⟨S64x64, .f32⟩ : BufTy).Contents (Elt F)) (x12 : (⟨S64, .f32⟩ : BufTy).Contents (Elt F)) (x15 : (⟨S2x1600000, .i32⟩ : BufTy).Contents (Elt F))
    (h_main_v51 : V (Proc.devRef .tc main_v51) = val_main_v51 (F := F) x0 x1 x2 x3 x4 x5 x6 x7 x8 x9 x15)
    (h_main_arg11 : V (Proc.devRef .tc main_arg11) = x11)
    (h_main_arg12 : V (Proc.devRef .tc main_arg12) = x12) :
    after s13 V (Proc.devRef .tc main_v72) = val_main_v72 (F := F) x0 x1 x2 x3 x4 x5 x6 x7 x8 x9 x11 x12 x15 := by
  unfold s13
  after_results_simp
  rw [h_main_v51, h_main_arg11, h_main_arg12]
  rfl

theorem stage14_main_v78 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x11 : (⟨S64x64, .f32⟩ : BufTy).Contents (Elt F)) (x12 : (⟨S64, .f32⟩ : BufTy).Contents (Elt F)) (x15 : (⟨S2x1600000, .i32⟩ : BufTy).Contents (Elt F))
    (h_main_v72 : V (Proc.devRef .tc main_v72) = val_main_v72 (F := F) x0 x1 x2 x3 x4 x5 x6 x7 x8 x9 x11 x12 x15)
    (h_main_arg1 : V (Proc.devRef .tc main_arg1) = x1) :
    after s14 V (Proc.devRef .tc main_v78) = val_main_v78 (F := F) x0 x1 x2 x3 x4 x5 x6 x7 x8 x9 x11 x12 x15 := by
  unfold s14
  after_results_simp
  rw [h_main_v72, h_main_arg1]
  rfl

theorem stage15_main_v84 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x10 : (⟨S64x64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S2x1600000, .i32⟩ : BufTy).Contents (Elt F))
    (h_main_v67 : V (Proc.devRef .tc main_v67) = val_main_v67 (F := F) x0 x1 x2 x3 x4 x5 x6 x7 x8 x9 x10 x15)
    (h_main_arg13 : V (Proc.devRef .tc main_arg13) = x13)
    (h_main_arg14 : V (Proc.devRef .tc main_arg14) = x14)
    (h_main_v78 : V (Proc.devRef .tc main_v78) = val_main_v78 (F := F) x0 x1 x2 x3 x4 x5 x6 x7 x8 x9 x11 x12 x15) :
    after s15 V (Proc.devRef .tc main_v84) = val_main_v84 (F := F) x0 x1 x2 x3 x4 x5 x6 x7 x8 x9 x10 x11 x12 x13 x14 x15 := by
  unfold s15
  after_results_simp
  rw [h_main_v67, h_main_arg13, h_main_arg14, h_main_v78]
  rfl

theorem stage16_main_v89 (V : Valuation τ sig (Elt F)) (x0 : (⟨S60000x1024, .f32⟩ : BufTy).Contents (Elt F)) (x1 : (⟨S100000x64, .f32⟩ : BufTy).Contents (Elt F)) (x2 : (⟨S40000x128, .f32⟩ : BufTy).Contents (Elt F)) (x3 : (⟨S128x1024, .f32⟩ : BufTy).Contents (Elt F)) (x4 : (⟨S128, .f32⟩ : BufTy).Contents (Elt F)) (x5 : (⟨S128x128, .f32⟩ : BufTy).Contents (Elt F)) (x6 : (⟨S64x128, .f32⟩ : BufTy).Contents (Elt F)) (x7 : (⟨S64, .f32⟩ : BufTy).Contents (Elt F)) (x8 : (⟨S64x128, .f32⟩ : BufTy).Contents (Elt F)) (x9 : (⟨S64, .f32⟩ : BufTy).Contents (Elt F)) (x10 : (⟨S64x64, .f32⟩ : BufTy).Contents (Elt F)) (x11 : (⟨S64x64, .f32⟩ : BufTy).Contents (Elt F)) (x12 : (⟨S64, .f32⟩ : BufTy).Contents (Elt F)) (x13 : (⟨S64x64, .f32⟩ : BufTy).Contents (Elt F)) (x14 : (⟨S64, .f32⟩ : BufTy).Contents (Elt F)) (x15 : (⟨S2x1600000, .i32⟩ : BufTy).Contents (Elt F))
    (h_main_v84 : V (Proc.devRef .tc main_v84) = val_main_v84 (F := F) x0 x1 x2 x3 x4 x5 x6 x7 x8 x9 x10 x11 x12 x13 x14 x15) :
    after s16 V (Proc.devRef .tc main_v89) = val_main_v89 (F := F) x0 x1 x2 x3 x4 x5 x6 x7 x8 x9 x10 x11 x12 x13 x14 x15 := by
  unfold s16
  after_results_simp
  rw [h_main_v84]
  rfl

/-! ## The memories along the line -/

/-- The memory after piece 1. -/
def V1 (L : Valuation τ sig (Elt F)) : Valuation τ sig (Elt F) := after s1 L
/-- The memory after piece 2. -/
def V2 (L : Valuation τ sig (Elt F)) : Valuation τ sig (Elt F) := after s2 (V1 L)
/-- The memory after piece 3. -/
def V3 (L : Valuation τ sig (Elt F)) : Valuation τ sig (Elt F) := after s3 (V2 L)
/-- The memory after piece 4. -/
def V4 (L : Valuation τ sig (Elt F)) : Valuation τ sig (Elt F) := after s4 (V3 L)
/-- The memory after piece 5. -/
def V5 (L : Valuation τ sig (Elt F)) : Valuation τ sig (Elt F) := after s5 (V4 L)
/-- The memory after piece 6. -/
def V6 (L : Valuation τ sig (Elt F)) : Valuation τ sig (Elt F) := after s6 (V5 L)
/-- The memory after piece 7. -/
def V7 (L : Valuation τ sig (Elt F)) : Valuation τ sig (Elt F) := after s7 (V6 L)
/-- The memory after piece 8. -/
def V8 (L : Valuation τ sig (Elt F)) : Valuation τ sig (Elt F) := after s8 (V7 L)
/-- The memory after piece 9. -/
def V9 (L : Valuation τ sig (Elt F)) : Valuation τ sig (Elt F) := after s9 (V8 L)
/-- The memory after piece 10. -/
def V10 (L : Valuation τ sig (Elt F)) : Valuation τ sig (Elt F) := after s10 (V9 L)
/-- The memory after piece 11. -/
def V11 (L : Valuation τ sig (Elt F)) : Valuation τ sig (Elt F) := after s11 (V10 L)
/-- The memory after piece 12. -/
def V12 (L : Valuation τ sig (Elt F)) : Valuation τ sig (Elt F) := after s12 (V11 L)
/-- The memory after piece 13. -/
def V13 (L : Valuation τ sig (Elt F)) : Valuation τ sig (Elt F) := after s13 (V12 L)
/-- The memory after piece 14. -/
def V14 (L : Valuation τ sig (Elt F)) : Valuation τ sig (Elt F) := after s14 (V13 L)
/-- The memory after piece 15. -/
def V15 (L : Valuation τ sig (Elt F)) : Valuation τ sig (Elt F) := after s15 (V14 L)
/-- The memory after piece 16. -/
def V16 (L : Valuation τ sig (Elt F)) : Valuation τ sig (Elt F) := after s16 (V15 L)

/-- A buffer none of the first pieces writes is as launched. -/
theorem asLaunched1 (L : Valuation τ sig (Elt F)) (r : Ref sig .tc) (h1 : r ∉ W1) : V1 L (Proc.devRef .tc r) = L (Proc.devRef .tc r) :=
  keep1 L r h1
theorem asLaunched2 (L : Valuation τ sig (Elt F)) (r : Ref sig .tc) (h1 : r ∉ W1) (h2 : r ∉ W2) : V2 L (Proc.devRef .tc r) = L (Proc.devRef .tc r) :=
  (keep2 (V1 L) r h2).trans (asLaunched1 L r h1)
theorem asLaunched3 (L : Valuation τ sig (Elt F)) (r : Ref sig .tc) (h1 : r ∉ W1) (h2 : r ∉ W2) (h3 : r ∉ W3) : V3 L (Proc.devRef .tc r) = L (Proc.devRef .tc r) :=
  (keep3 (V2 L) r h3).trans (asLaunched2 L r h1 h2)
theorem asLaunched4 (L : Valuation τ sig (Elt F)) (r : Ref sig .tc) (h1 : r ∉ W1) (h2 : r ∉ W2) (h3 : r ∉ W3) (h4 : r ∉ W4) : V4 L (Proc.devRef .tc r) = L (Proc.devRef .tc r) :=
  (keep4 (V3 L) r h4).trans (asLaunched3 L r h1 h2 h3)
theorem asLaunched5 (L : Valuation τ sig (Elt F)) (r : Ref sig .tc) (h1 : r ∉ W1) (h2 : r ∉ W2) (h3 : r ∉ W3) (h4 : r ∉ W4) (h5 : r ∉ W5) : V5 L (Proc.devRef .tc r) = L (Proc.devRef .tc r) :=
  (keep5 (V4 L) r h5).trans (asLaunched4 L r h1 h2 h3 h4)
theorem asLaunched6 (L : Valuation τ sig (Elt F)) (r : Ref sig .tc) (h1 : r ∉ W1) (h2 : r ∉ W2) (h3 : r ∉ W3) (h4 : r ∉ W4) (h5 : r ∉ W5) (h6 : r ∉ W6) : V6 L (Proc.devRef .tc r) = L (Proc.devRef .tc r) :=
  (keep6 (V5 L) r h6).trans (asLaunched5 L r h1 h2 h3 h4 h5)
theorem asLaunched7 (L : Valuation τ sig (Elt F)) (r : Ref sig .tc) (h1 : r ∉ W1) (h2 : r ∉ W2) (h3 : r ∉ W3) (h4 : r ∉ W4) (h5 : r ∉ W5) (h6 : r ∉ W6) (h7 : r ∉ W7) : V7 L (Proc.devRef .tc r) = L (Proc.devRef .tc r) :=
  (keep7 (V6 L) r h7).trans (asLaunched6 L r h1 h2 h3 h4 h5 h6)
theorem asLaunched8 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) : V8 L (Proc.devRef .tc r) = L (Proc.devRef .tc r) :=
  (keep8 (V7 L) r h8).trans (asLaunched7 L r h1 h2 h3 h4 h5 h6 h7)
theorem asLaunched9 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) : V9 L (Proc.devRef .tc r) = L (Proc.devRef .tc r) :=
  (keep9 (V8 L) r h9).trans (asLaunched8 L r h1 h2 h3 h4 h5 h6 h7 h8)
theorem asLaunched10 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) : V10 L (Proc.devRef .tc r) = L (Proc.devRef .tc r) :=
  (keep10 (V9 L) r h10).trans (asLaunched9 L r h1 h2 h3 h4 h5 h6 h7 h8 h9)
theorem asLaunched11 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) : V11 L (Proc.devRef .tc r) = L (Proc.devRef .tc r) :=
  (keep11 (V10 L) r h11).trans (asLaunched10 L r h1 h2 h3 h4 h5 h6 h7 h8 h9 h10)
theorem asLaunched12 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) : V12 L (Proc.devRef .tc r) = L (Proc.devRef .tc r) :=
  (keep12 (V11 L) r h12).trans (asLaunched11 L r h1 h2 h3 h4 h5 h6 h7 h8 h9 h10 h11)
theorem asLaunched13 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) (h13 : r ∉ W13) : V13 L (Proc.devRef .tc r) = L (Proc.devRef .tc r) :=
  (keep13 (V12 L) r h13).trans (asLaunched12 L r h1 h2 h3 h4 h5 h6 h7 h8 h9 h10 h11 h12)
theorem asLaunched14 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) (h13 : r ∉ W13) (h14 : r ∉ W14) : V14 L (Proc.devRef .tc r) = L (Proc.devRef .tc r) :=
  (keep14 (V13 L) r h14).trans (asLaunched13 L r h1 h2 h3 h4 h5 h6 h7 h8 h9 h10 h11 h12 h13)
theorem asLaunched15 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) (h13 : r ∉ W13) (h14 : r ∉ W14) (h15 : r ∉ W15) : V15 L (Proc.devRef .tc r) = L (Proc.devRef .tc r) :=
  (keep15 (V14 L) r h15).trans (asLaunched14 L r h1 h2 h3 h4 h5 h6 h7 h8 h9 h10 h11 h12 h13 h14)
theorem asLaunched16 (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) (h13 : r ∉ W13) (h14 : r ∉ W14) (h15 : r ∉ W15) (h16 : r ∉ W16) : V16 L (Proc.devRef .tc r) = L (Proc.devRef .tc r) :=
  (keep16 (V15 L) r h16).trans (asLaunched15 L r h1 h2 h3 h4 h5 h6 h7 h8 h9 h10 h11 h12 h13 h14 h15)

/-! ## The stages, in the memories along the line -/

theorem at1_main_v1 (L : Valuation τ sig (Elt F)) : V1 L (Proc.devRef .tc main_v1) = val_main_v1 (F := F) (L (Proc.devRef .tc main_arg15)) :=
  stage1_main_v1 L (L (Proc.devRef .tc main_arg15)) rfl
theorem at2_main_v1 (L : Valuation τ sig (Elt F)) : V2 L (Proc.devRef .tc main_v1) = val_main_v1 (F := F) (L (Proc.devRef .tc main_arg15)) :=
  (keep2 (V1 L) main_v1 (by decide)).trans (at1_main_v1 L)
theorem at3_main_v1 (L : Valuation τ sig (Elt F)) : V3 L (Proc.devRef .tc main_v1) = val_main_v1 (F := F) (L (Proc.devRef .tc main_arg15)) :=
  (keep3 (V2 L) main_v1 (by decide)).trans (at2_main_v1 L)
theorem at4_main_v1 (L : Valuation τ sig (Elt F)) : V4 L (Proc.devRef .tc main_v1) = val_main_v1 (F := F) (L (Proc.devRef .tc main_arg15)) :=
  (keep4 (V3 L) main_v1 (by decide)).trans (at3_main_v1 L)
theorem at5_main_v1 (L : Valuation τ sig (Elt F)) : V5 L (Proc.devRef .tc main_v1) = val_main_v1 (F := F) (L (Proc.devRef .tc main_arg15)) :=
  (keep5 (V4 L) main_v1 (by decide)).trans (at4_main_v1 L)
theorem at6_main_v1 (L : Valuation τ sig (Elt F)) : V6 L (Proc.devRef .tc main_v1) = val_main_v1 (F := F) (L (Proc.devRef .tc main_arg15)) :=
  (keep6 (V5 L) main_v1 (by decide)).trans (at5_main_v1 L)
theorem at7_main_v1 (L : Valuation τ sig (Elt F)) : V7 L (Proc.devRef .tc main_v1) = val_main_v1 (F := F) (L (Proc.devRef .tc main_arg15)) :=
  (keep7 (V6 L) main_v1 (by decide)).trans (at6_main_v1 L)
theorem at8_main_v1 (L : Valuation τ sig (Elt F)) : V8 L (Proc.devRef .tc main_v1) = val_main_v1 (F := F) (L (Proc.devRef .tc main_arg15)) :=
  (keep8 (V7 L) main_v1 (by decide)).trans (at7_main_v1 L)
theorem at9_main_v1 (L : Valuation τ sig (Elt F)) : V9 L (Proc.devRef .tc main_v1) = val_main_v1 (F := F) (L (Proc.devRef .tc main_arg15)) :=
  (keep9 (V8 L) main_v1 (by decide)).trans (at8_main_v1 L)
theorem at10_main_v1 (L : Valuation τ sig (Elt F)) : V10 L (Proc.devRef .tc main_v1) = val_main_v1 (F := F) (L (Proc.devRef .tc main_arg15)) :=
  (keep10 (V9 L) main_v1 (by decide)).trans (at9_main_v1 L)
theorem at1_main_v3 (L : Valuation τ sig (Elt F)) : V1 L (Proc.devRef .tc main_v3) = val_main_v3 (F := F) (L (Proc.devRef .tc main_arg15)) :=
  stage1_main_v3 L (L (Proc.devRef .tc main_arg15)) rfl
theorem at2_main_v3 (L : Valuation τ sig (Elt F)) : V2 L (Proc.devRef .tc main_v3) = val_main_v3 (F := F) (L (Proc.devRef .tc main_arg15)) :=
  (keep2 (V1 L) main_v3 (by decide)).trans (at1_main_v3 L)
theorem at3_main_v3 (L : Valuation τ sig (Elt F)) : V3 L (Proc.devRef .tc main_v3) = val_main_v3 (F := F) (L (Proc.devRef .tc main_arg15)) :=
  (keep3 (V2 L) main_v3 (by decide)).trans (at2_main_v3 L)
theorem at4_main_v3 (L : Valuation τ sig (Elt F)) : V4 L (Proc.devRef .tc main_v3) = val_main_v3 (F := F) (L (Proc.devRef .tc main_arg15)) :=
  (keep4 (V3 L) main_v3 (by decide)).trans (at3_main_v3 L)
theorem at5_main_v3 (L : Valuation τ sig (Elt F)) : V5 L (Proc.devRef .tc main_v3) = val_main_v3 (F := F) (L (Proc.devRef .tc main_arg15)) :=
  (keep5 (V4 L) main_v3 (by decide)).trans (at4_main_v3 L)
theorem at6_main_v3 (L : Valuation τ sig (Elt F)) : V6 L (Proc.devRef .tc main_v3) = val_main_v3 (F := F) (L (Proc.devRef .tc main_arg15)) :=
  (keep6 (V5 L) main_v3 (by decide)).trans (at5_main_v3 L)
theorem at7_main_v3 (L : Valuation τ sig (Elt F)) : V7 L (Proc.devRef .tc main_v3) = val_main_v3 (F := F) (L (Proc.devRef .tc main_arg15)) :=
  (keep7 (V6 L) main_v3 (by decide)).trans (at6_main_v3 L)
theorem at8_main_v3 (L : Valuation τ sig (Elt F)) : V8 L (Proc.devRef .tc main_v3) = val_main_v3 (F := F) (L (Proc.devRef .tc main_arg15)) :=
  (keep8 (V7 L) main_v3 (by decide)).trans (at7_main_v3 L)
theorem at9_main_v3 (L : Valuation τ sig (Elt F)) : V9 L (Proc.devRef .tc main_v3) = val_main_v3 (F := F) (L (Proc.devRef .tc main_arg15)) :=
  (keep9 (V8 L) main_v3 (by decide)).trans (at8_main_v3 L)
theorem at10_main_v3 (L : Valuation τ sig (Elt F)) : V10 L (Proc.devRef .tc main_v3) = val_main_v3 (F := F) (L (Proc.devRef .tc main_arg15)) :=
  (keep10 (V9 L) main_v3 (by decide)).trans (at9_main_v3 L)
theorem at1_main_v9 (L : Valuation τ sig (Elt F)) : V1 L (Proc.devRef .tc main_v9) = val_main_v9 (F := F) (L (Proc.devRef .tc main_arg0)) (L (Proc.devRef .tc main_arg2)) (L (Proc.devRef .tc main_arg3)) (L (Proc.devRef .tc main_arg4)) :=
  stage1_main_v9 L (L (Proc.devRef .tc main_arg0)) (L (Proc.devRef .tc main_arg2)) (L (Proc.devRef .tc main_arg3)) (L (Proc.devRef .tc main_arg4)) rfl rfl rfl rfl
theorem at2_main_v13 (L : Valuation τ sig (Elt F)) : V2 L (Proc.devRef .tc main_v13) = val_main_v13 (F := F) (L (Proc.devRef .tc main_arg0)) (L (Proc.devRef .tc main_arg2)) (L (Proc.devRef .tc main_arg3)) (L (Proc.devRef .tc main_arg4)) :=
  stage2_main_v13 (V1 L) (L (Proc.devRef .tc main_arg0)) (L (Proc.devRef .tc main_arg2)) (L (Proc.devRef .tc main_arg3)) (L (Proc.devRef .tc main_arg4)) (at1_main_v9 L)
theorem at3_main_v13 (L : Valuation τ sig (Elt F)) : V3 L (Proc.devRef .tc main_v13) = val_main_v13 (F := F) (L (Proc.devRef .tc main_arg0)) (L (Proc.devRef .tc main_arg2)) (L (Proc.devRef .tc main_arg3)) (L (Proc.devRef .tc main_arg4)) :=
  (keep3 (V2 L) main_v13 (by decide)).trans (at2_main_v13 L)
theorem at4_main_v13 (L : Valuation τ sig (Elt F)) : V4 L (Proc.devRef .tc main_v13) = val_main_v13 (F := F) (L (Proc.devRef .tc main_arg0)) (L (Proc.devRef .tc main_arg2)) (L (Proc.devRef .tc main_arg3)) (L (Proc.devRef .tc main_arg4)) :=
  (keep4 (V3 L) main_v13 (by decide)).trans (at3_main_v13 L)
theorem at5_main_v13 (L : Valuation τ sig (Elt F)) : V5 L (Proc.devRef .tc main_v13) = val_main_v13 (F := F) (L (Proc.devRef .tc main_arg0)) (L (Proc.devRef .tc main_arg2)) (L (Proc.devRef .tc main_arg3)) (L (Proc.devRef .tc main_arg4)) :=
  (keep5 (V4 L) main_v13 (by decide)).trans (at4_main_v13 L)
theorem at3_main_v14 (L : Valuation τ sig (Elt F)) : V3 L (Proc.devRef .tc main_v14) = val_main_v14 (F := F) (L (Proc.devRef .tc main_arg0)) (L (Proc.devRef .tc main_arg2)) (L (Proc.devRef .tc main_arg3)) (L (Proc.devRef .tc main_arg4)) (L (Proc.devRef .tc main_arg5)) :=
  stage3_main_v14 (V2 L) (L (Proc.devRef .tc main_arg0)) (L (Proc.devRef .tc main_arg2)) (L (Proc.devRef .tc main_arg3)) (L (Proc.devRef .tc main_arg4)) (L (Proc.devRef .tc main_arg5)) (at2_main_v13 L) (asLaunched2 L main_arg5 (by decide) (by decide))
theorem at4_main_v24 (L : Valuation τ sig (Elt F)) : V4 L (Proc.devRef .tc main_v24) = val_main_v24 (F := F) (L (Proc.devRef .tc main_arg0)) (L (Proc.devRef .tc main_arg2)) (L (Proc.devRef .tc main_arg3)) (L (Proc.devRef .tc main_arg4)) (L (Proc.devRef .tc main_arg5)) (L (Proc.devRef .tc main_arg15)) :=
  stage4_main_v24 (V3 L) (L (Proc.devRef .tc main_arg0)) (L (Proc.devRef .tc main_arg2)) (L (Proc.devRef .tc main_arg3)) (L (Proc.devRef .tc main_arg4)) (L (Proc.devRef .tc main_arg5)) (L (Proc.devRef .tc main_arg15)) (at3_main_v3 L) (at3_main_v14 L) (at3_main_v1 L)
theorem at5_main_v29 (L : Valuation τ sig (Elt F)) : V5 L (Proc.devRef .tc main_v29) = val_main_v29 (F := F) (L (Proc.devRef .tc main_arg0)) (L (Proc.devRef .tc main_arg2)) (L (Proc.devRef .tc main_arg3)) (L (Proc.devRef .tc main_arg4)) (L (Proc.devRef .tc main_arg5)) (L (Proc.devRef .tc main_arg15)) :=
  stage5_main_v29 (V4 L) (L (Proc.devRef .tc main_arg0)) (L (Proc.devRef .tc main_arg2)) (L (Proc.devRef .tc main_arg3)) (L (Proc.devRef .tc main_arg4)) (L (Proc.devRef .tc main_arg5)) (L (Proc.devRef .tc main_arg15)) (at4_main_v24 L)
theorem at6_main_v29 (L : Valuation τ sig (Elt F)) : V6 L (Proc.devRef .tc main_v29) = val_main_v29 (F := F) (L (Proc.devRef .tc main_arg0)) (L (Proc.devRef .tc main_arg2)) (L (Proc.devRef .tc main_arg3)) (L (Proc.devRef .tc main_arg4)) (L (Proc.devRef .tc main_arg5)) (L (Proc.devRef .tc main_arg15)) :=
  (keep6 (V5 L) main_v29 (by decide)).trans (at5_main_v29 L)
theorem at7_main_v29 (L : Valuation τ sig (Elt F)) : V7 L (Proc.devRef .tc main_v29) = val_main_v29 (F := F) (L (Proc.devRef .tc main_arg0)) (L (Proc.devRef .tc main_arg2)) (L (Proc.devRef .tc main_arg3)) (L (Proc.devRef .tc main_arg4)) (L (Proc.devRef .tc main_arg5)) (L (Proc.devRef .tc main_arg15)) :=
  (keep7 (V6 L) main_v29 (by decide)).trans (at6_main_v29 L)
theorem at6_main_v34 (L : Valuation τ sig (Elt F)) : V6 L (Proc.devRef .tc main_v34) = val_main_v34 (F := F) (L (Proc.devRef .tc main_arg0)) (L (Proc.devRef .tc main_arg2)) (L (Proc.devRef .tc main_arg3)) (L (Proc.devRef .tc main_arg4)) (L (Proc.devRef .tc main_arg6)) (L (Proc.devRef .tc main_arg7)) :=
  stage6_main_v34 (V5 L) (L (Proc.devRef .tc main_arg0)) (L (Proc.devRef .tc main_arg2)) (L (Proc.devRef .tc main_arg3)) (L (Proc.devRef .tc main_arg4)) (L (Proc.devRef .tc main_arg6)) (L (Proc.devRef .tc main_arg7)) (at5_main_v13 L) (asLaunched5 L main_arg6 (by decide) (by decide) (by decide) (by decide) (by decide)) (asLaunched5 L main_arg7 (by decide) (by decide) (by decide) (by decide) (by decide))
theorem at7_main_v40 (L : Valuation τ sig (Elt F)) : V7 L (Proc.devRef .tc main_v40) = val_main_v40 (F := F) (L (Proc.devRef .tc main_arg0)) (L (Proc.devRef .tc main_arg1)) (L (Proc.devRef .tc main_arg2)) (L (Proc.devRef .tc main_arg3)) (L (Proc.devRef .tc main_arg4)) (L (Proc.devRef .tc main_arg6)) (L (Proc.devRef .tc main_arg7)) :=
  stage7_main_v40 (V6 L) (L (Proc.devRef .tc main_arg0)) (L (Proc.devRef .tc main_arg1)) (L (Proc.devRef .tc main_arg2)) (L (Proc.devRef .tc main_arg3)) (L (Proc.devRef .tc main_arg4)) (L (Proc.devRef .tc main_arg6)) (L (Proc.devRef .tc main_arg7)) (at6_main_v34 L) (asLaunched6 L main_arg1 (by decide) (by decide) (by decide) (by decide) (by decide) (by decide))
theorem at8_main_v46 (L : Valuation τ sig (Elt F)) : V8 L (Proc.devRef .tc main_v46) = val_main_v46 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg15)) :=
  stage8_main_v46 (V7 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg15)) (at7_main_v29 L) (asLaunched7 L main_arg8 (by decide) (by decide) (by decide) (by decide) (by decide) (by decide) (by decide)) (asLaunched7 L main_arg9 (by decide) (by decide) (by decide) (by decide) (by decide) (by decide) (by decide)) (at7_main_v40 L)
theorem at9_main_v51 (L : Valuation τ sig (Elt F)) : V9 L (Proc.devRef .tc main_v51) = val_main_v51 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg15)) :=
  stage9_main_v51 (V8 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg15)) (at8_main_v46 L)
theorem at10_main_v51 (L : Valuation τ sig (Elt F)) : V10 L (Proc.devRef .tc main_v51) = val_main_v51 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg15)) :=
  (keep10 (V9 L) main_v51 (by decide)).trans (at9_main_v51 L)
theorem at11_main_v51 (L : Valuation τ sig (Elt F)) : V11 L (Proc.devRef .tc main_v51) = val_main_v51 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg15)) :=
  (keep11 (V10 L) main_v51 (by decide)).trans (at10_main_v51 L)
theorem at12_main_v51 (L : Valuation τ sig (Elt F)) : V12 L (Proc.devRef .tc main_v51) = val_main_v51 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg15)) :=
  (keep12 (V11 L) main_v51 (by decide)).trans (at11_main_v51 L)
theorem at10_main_v52 (L : Valuation τ sig (Elt F)) : V10 L (Proc.devRef .tc main_v52) = val_main_v52 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) :=
  stage10_main_v52 (V9 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) (at9_main_v51 L) (asLaunched9 L main_arg10 (by decide) (by decide) (by decide) (by decide) (by decide) (by decide) (by decide) (by decide) (by decide))
theorem at11_main_v62 (L : Valuation τ sig (Elt F)) : V11 L (Proc.devRef .tc main_v62) = val_main_v62 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) :=
  stage11_main_v62 (V10 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) (at10_main_v3 L) (at10_main_v52 L) (at10_main_v1 L)
theorem at12_main_v67 (L : Valuation τ sig (Elt F)) : V12 L (Proc.devRef .tc main_v67) = val_main_v67 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) :=
  stage12_main_v67 (V11 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) (at11_main_v62 L)
theorem at13_main_v67 (L : Valuation τ sig (Elt F)) : V13 L (Proc.devRef .tc main_v67) = val_main_v67 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) :=
  (keep13 (V12 L) main_v67 (by decide)).trans (at12_main_v67 L)
theorem at14_main_v67 (L : Valuation τ sig (Elt F)) : V14 L (Proc.devRef .tc main_v67) = val_main_v67 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg15)) :=
  (keep14 (V13 L) main_v67 (by decide)).trans (at13_main_v67 L)
theorem at13_main_v72 (L : Valuation τ sig (Elt F)) : V13 L (Proc.devRef .tc main_v72) = val_main_v72 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg11)) (L (Proc.devRef .tc main_arg12)) (L (Proc.devRef .tc main_arg15)) :=
  stage13_main_v72 (V12 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg11)) (L (Proc.devRef .tc main_arg12)) (L (Proc.devRef .tc main_arg15)) (at12_main_v51 L) (asLaunched12 L main_arg11 (by decide) (by decide) (by decide) (by decide) (by decide) (by decide) (by decide) (by decide) (by decide) (by decide) (by decide) (by decide)) (asLaunched12 L main_arg12 (by decide) (by decide) (by decide) (by decide) (by decide) (by decide) (by decide) (by decide) (by decide) (by decide) (by decide) (by decide))
theorem at14_main_v78 (L : Valuation τ sig (Elt F)) : V14 L (Proc.devRef .tc main_v78) = val_main_v78 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg11)) (L (Proc.devRef .tc main_arg12)) (L (Proc.devRef .tc main_arg15)) :=
  stage14_main_v78 (V13 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg11)) (L (Proc.devRef .tc main_arg12)) (L (Proc.devRef .tc main_arg15)) (at13_main_v72 L) (asLaunched13 L main_arg1 (by decide) (by decide) (by decide) (by decide) (by decide) (by decide) (by decide) (by decide) (by decide) (by decide) (by decide) (by decide) (by decide))
theorem at15_main_v84 (L : Valuation τ sig (Elt F)) : V15 L (Proc.devRef .tc main_v84) = val_main_v84 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) :=
  stage15_main_v84 (V14 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (at14_main_v67 L) (asLaunched14 L main_arg13 (by decide) (by decide) (by decide) (by decide) (by decide) (by decide) (by decide) (by decide) (by decide) (by decide) (by decide) (by decide) (by decide) (by decide)) (asLaunched14 L main_arg14 (by decide) (by decide) (by decide) (by decide) (by decide) (by decide) (by decide) (by decide) (by decide) (by decide) (by decide) (by decide) (by decide) (by decide)) (at14_main_v78 L)
theorem at16_main_v89 (L : Valuation τ sig (Elt F)) : V16 L (Proc.devRef .tc main_v89) = val_main_v89 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) :=
  stage16_main_v89 (V15 L) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (at15_main_v84 L)

/-- The result buffer after the whole line is the last stage of the reference at the launched arguments. -/
theorem result_eq (L : Valuation τ sig (Elt F)) : after (ops (F := F)) L (Proc.devRef .tc main_v89) = val_main_v89 (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) := by
  rw [ops_split]
  simp only [after_app]
  exact at16_main_v89 L

/-- No piece writes an argument: after the whole line it is as launched. -/
theorem arg_eq (L : Valuation τ sig (Elt F)) (r : Ref sig .tc) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) (h12 : r ∉ W12) (h13 : r ∉ W13) (h14 : r ∉ W14) (h15 : r ∉ W15) (h16 : r ∉ W16) :
    after (ops (F := F)) L (Proc.devRef .tc r) = L (Proc.devRef .tc r) := by
  rw [ops_split]
  simp only [after_app]
  exact asLaunched16 L r h1 h2 h3 h4 h5 h6 h7 h8 h9 h10 h11 h12 h13 h14 h15 h16

/-- On every device, from any memory with zero counters: every weakly fair execution of the reference terminates with the result
    buffer at the last stage of the reference, read as a function of the launched arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v89) = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v89).trans (result_eq (launchContents m c)),
      (h c main_arg0).trans (arg_eq (launchContents m c) main_arg0 (by decide) (by decide) (by decide) (by decide) (by decide) (by decide) (by decide) (by decide) (by decide) (by decide) (by decide) (by decide) (by decide) (by decide) (by decide) (by decide)),
      (h c main_arg1).trans (arg_eq (launchContents m c) main_arg1 (by decide) (by decide) (by decide) (by decide) (by decide) (by decide) (by decide) (by decide) (by decide) (by decide) (by decide) (by decide) (by decide) (by decide) (by decide) (by decide)),
      (h c main_arg2).trans (arg_eq (launchContents m c) main_arg2 (by decide) (by decide) (by decide) (by decide) (by decide) (by decide) (by decide) (by decide) (by decide) (by decide) (by decide) (by decide) (by decide) (by decide) (by decide) (by decide)),
      (h c main_arg3).trans (arg_eq (launchContents m c) main_arg3 (by decide) (by decide) (by decide) (by decide) (by decide) (by decide) (by decide) (by decide) (by decide) (by decide) (by decide) (by decide) (by decide) (by decide) (by decide) (by decide)),
      (h c main_arg4).trans (arg_eq (launchContents m c) main_arg4 (by decide) (by decide) (by decide) (by decide) (by decide) (by decide) (by decide) (by decide) (by decide) (by decide) (by decide) (by decide) (by decide) (by decide) (by decide) (by decide)),
      (h c main_arg5).trans (arg_eq (launchContents m c) main_arg5 (by decide) (by decide) (by decide) (by decide) (by decide) (by decide) (by decide) (by decide) (by decide) (by decide) (by decide) (by decide) (by decide) (by decide) (by decide) (by decide)),
      (h c main_arg6).trans (arg_eq (launchContents m c) main_arg6 (by decide) (by decide) (by decide) (by decide) (by decide) (by decide) (by decide) (by decide) (by decide) (by decide) (by decide) (by decide) (by decide) (by decide) (by decide) (by decide)),
      (h c main_arg7).trans (arg_eq (launchContents m c) main_arg7 (by decide) (by decide) (by decide) (by decide) (by decide) (by decide) (by decide) (by decide) (by decide) (by decide) (by decide) (by decide) (by decide) (by decide) (by decide) (by decide)),
      (h c main_arg8).trans (arg_eq (launchContents m c) main_arg8 (by decide) (by decide) (by decide) (by decide) (by decide) (by decide) (by decide) (by decide) (by decide) (by decide) (by decide) (by decide) (by decide) (by decide) (by decide) (by decide)),
      (h c main_arg9).trans (arg_eq (launchContents m c) main_arg9 (by decide) (by decide) (by decide) (by decide) (by decide) (by decide) (by decide) (by decide) (by decide) (by decide) (by decide) (by decide) (by decide) (by decide) (by decide) (by decide)),
      (h c main_arg10).trans (arg_eq (launchContents m c) main_arg10 (by decide) (by decide) (by decide) (by decide) (by decide) (by decide) (by decide) (by decide) (by decide) (by decide) (by decide) (by decide) (by decide) (by decide) (by decide) (by decide)),
      (h c main_arg11).trans (arg_eq (launchContents m c) main_arg11 (by decide) (by decide) (by decide) (by decide) (by decide) (by decide) (by decide) (by decide) (by decide) (by decide) (by decide) (by decide) (by decide) (by decide) (by decide) (by decide)),
      (h c main_arg12).trans (arg_eq (launchContents m c) main_arg12 (by decide) (by decide) (by decide) (by decide) (by decide) (by decide) (by decide) (by decide) (by decide) (by decide) (by decide) (by decide) (by decide) (by decide) (by decide) (by decide)),
      (h c main_arg13).trans (arg_eq (launchContents m c) main_arg13 (by decide) (by decide) (by decide) (by decide) (by decide) (by decide) (by decide) (by decide) (by decide) (by decide) (by decide) (by decide) (by decide) (by decide) (by decide) (by decide)),
      (h c main_arg14).trans (arg_eq (launchContents m c) main_arg14 (by decide) (by decide) (by decide) (by decide) (by decide) (by decide) (by decide) (by decide) (by decide) (by decide) (by decide) (by decide) (by decide) (by decide) (by decide) (by decide)),
      (h c main_arg15).trans (arg_eq (launchContents m c) main_arg15 (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.RefRun

end
-- ==== Proof.RefStages.lean ====
/-
  The reference program's stages are the row-wise formulas: each stage of the reference, read at an index,
  is the corresponding formula of the shared vocabulary applied to the stage(s) before it.
-/
import proofs.«124986_j71038759076272_1_alg».proof.Proof.Spec
import proofs.«124986_j71038759076272_1_alg».proof.Proof.RefRead

noncomputable section

namespace Cert.RefStages

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo

/-- The dense transform of the item features: `X · Wᵀ + b`. -/
theorem dense_stage (x0 : (⟨S60000x1024, .f32⟩ : BufTy).Contents (Elt Ideal)) (x3 : (⟨S128x1024, .f32⟩ : BufTy).Contents (Elt Ideal))
    (x4 : (⟨S128, .f32⟩ : BufTy).Contents (Elt Ideal)) :
    val_main_v8 (F := Ideal) x0 x3 x4 = Spec.dense x0 x3 x4 := by
  funext i
  obtain ⟨r, n, rfl⟩ : ∃ (r : Fin 60000) (n : Fin 128), i = ix2 r n := ⟨i 0, i 1, eq_ix2 i⟩
  rw [val_main_v8_apply, val_main_v5_apply, val_main_v7_apply, val_main_v6_apply, Spec.dense_ix2]
  simp only [val_main_v4_apply]
  have hl : ∀ k : Fin 1024, lidx_main_v5 (ix2 r n) k = ix2 r k := fun k => funext fun a => by
    match a with
    | ⟨0, _⟩ => rfl
    | ⟨1, _⟩ => rfl
  have hr : ∀ k : Fin 1024, idx_main_v4 (ridx_main_v5 (ix2 r n) k) = ix2 n k := fun k => funext fun a => by
    match a with
    | ⟨0, _⟩ => rfl
    | ⟨1, _⟩ => rfl
  have hb : idx_main_v6 (idx_main_v7 (ix2 r n)) = ix1 n := funext fun a => by
    match a with
    | ⟨0, _⟩ => rfl
  simp only [hl, hr, hb] <;> rfl

/-- Every row divided by its length clamped below by ε. -/
theorem unit_stage (x0 : (⟨S60000x1024, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) :
    val_main_v13 (F := Ideal) x0 x2 x3 x4 = Spec.unitRows (val_main_v9 (F := Ideal) x0 x2 x3 x4) := by
  funext i
  obtain ⟨r, n, rfl⟩ : ∃ (r : Fin 100000) (n : Fin 128), i = ix2 r n := ⟨i 0, i 1, eq_ix2 i⟩
  rw [val_main_v13_apply, val_main_v12_apply, val_main_v11_apply, val_main_call1_v1_apply, val_main_call1_v0_apply, val_main_cst_apply,
    val_main_v10_apply, val_main_call0_v2_apply, val_main_call0_v1_apply, val_main_call0_cst_apply, Spec.unitRows_ix2]
  simp only [val_main_call0_v0_apply]
  generalize val_main_v9 (F := Ideal) x0 x2 x3 x4 = X
  have hi : ∀ k : Fin 128, idx_main_call0_v1 (idx_main_call0_v2 (idx_main_v12 (ix2 r n))) k = ix2 r k := fun k => funext fun a => by
    match a with
    | ⟨0, _⟩ => rfl
    | ⟨1, _⟩ => rfl
  simp only [hi, Ideal.hostDivf_def, Ideal.maximumf_def, Ideal.hostUnary_sqrt_def, Ideal.mulf_def, Ideal.ofBits_def, Ideal.ofBits_zero_f32, zero_add]
  rw [max_comm]
  rfl

/-- The first layer's transform of the unit rows: `X · C`. -/
theorem conv1_stage (x0 : (⟨S60000x1024, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) :
    val_main_v14 (F := Ideal) x0 x2 x3 x4 x5 = Spec.conv (val_main_v13 (F := Ideal) x0 x2 x3 x4) x5 := by
  funext i
  obtain ⟨r, n, rfl⟩ : ∃ (r : Fin 100000) (n : Fin 128), i = ix2 r n := ⟨i 0, i 1, eq_ix2 i⟩
  rw [val_main_v14_apply, Spec.conv_ix2]
  generalize val_main_v13 (F := Ideal) x0 x2 x3 x4 = X
  have hl : ∀ k : Fin 128, lidx_main_v14 (ix2 r n) k = ix2 r k := fun k => funext fun a => by
    match a with
    | ⟨0, _⟩ => rfl
    | ⟨1, _⟩ => rfl
  have hr : ∀ k : Fin 128, ridx_main_v14 (ix2 r n) k = ix2 k n := fun k => funext fun a => by
    match a with
    | ⟨0, _⟩ => rfl
    | ⟨1, _⟩ => rfl
  simp only [hl, hr] <;> rfl

/-- The first layer's embedding branch: `leaky (X · Lᵀ + lb) + E`. -/
theorem hat1_stage (x0 : (⟨S60000x1024, .f32⟩ : BufTy).Contents (Elt Ideal)) (x1 : (⟨S100000x64, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x6 : (⟨S64x128, .f32⟩ : BufTy).Contents (Elt Ideal)) (x7 : (⟨S64, .f32⟩ : BufTy).Contents (Elt Ideal)) :
    val_main_v40 (F := Ideal) x0 x1 x2 x3 x4 x6 x7 = Spec.hat (val_main_v13 (F := Ideal) x0 x2 x3 x4) x6 x7 x1 := by
  funext i
  obtain ⟨r, n, rfl⟩ : ∃ (r : Fin 100000) (n : Fin 64), i = ix2 r n := ⟨i 0, i 1, eq_ix2 i⟩
  rw [val_main_v40_apply, val_main_v39_apply, val_main_v36_apply, val_main_v38_apply, val_main_v35_apply, val_main_cst_4_apply, val_main_v37_apply, val_main_cst_5_apply, val_main_v34_apply, val_main_v31_apply, val_main_v33_apply, val_main_v32_apply, Spec.hat_ix2]
  simp only [val_main_v30_apply]
  generalize val_main_v13 (F := Ideal) x0 x2 x3 x4 = X
  have hl : ∀ k : Fin 128, lidx_main_v31 (ix2 r n) k = ix2 r k := fun k => funext fun a => by
    match a with
    | ⟨0, _⟩ => rfl
    | ⟨1, _⟩ => rfl
  have hr : ∀ k : Fin 128, idx_main_v30 (ridx_main_v31 (ix2 r n) k) = ix2 n k := fun k => funext fun a => by
    match a with
    | ⟨0, _⟩ => rfl
    | ⟨1, _⟩ => rfl
  have hb : idx_main_v32 (idx_main_v33 (ix2 r n)) = ix1 n := funext fun a => by
    match a with
    | ⟨0, _⟩ => rfl
  simp only [hl, hr, hb] <;> rfl

/-- The rectified scatter result, entry by entry. -/
theorem leaky1_apply (x0 : (⟨S60000x1024, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x15 : (⟨S2x1600000, .i32⟩ : BufTy).Contents (Elt Ideal)) (j : S100000x128.Idx) :
    val_main_v29 (F := Ideal) x0 x2 x3 x4 x5 x15 j = Spec.leakyAll (val_main_v24 (F := Ideal) x0 x2 x3 x4 x5 x15) j := by
  rw [val_main_v29_apply, val_main_v26_apply, val_main_v28_apply, val_main_v25_apply, val_main_cst_2_apply, val_main_v27_apply, val_main_cst_3_apply]
  rfl

/-- The rectified scatter result against the rows of `G`. -/
theorem dotg1_apply (x0 : (⟨S60000x1024, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x8 : (⟨S64x128, .f32⟩ : BufTy).Contents (Elt Ideal)) (x15 : (⟨S2x1600000, .i32⟩ : BufTy).Contents (Elt Ideal)) (r : Fin 100000) (n : Fin 64) :
    val_main_v42 (F := Ideal) x0 x2 x3 x4 x5 x8 x15 (ix2 r n) = Spec.dotT (Spec.leakyAll (val_main_v24 (F := Ideal) x0 x2 x3 x4 x5 x15)) x8 r n := by
  have hl : ∀ k : Fin 128, lidx_main_v42 (ix2 r n) k = ix2 r k := fun k => funext fun a => by
    match a with
    | ⟨0, _⟩ => rfl
    | ⟨1, _⟩ => rfl
  have hr : ∀ k : Fin 128, idx_main_v41 (ridx_main_v42 (ix2 r n) k) = ix2 n k := fun k => funext fun a => by
    match a with
    | ⟨0, _⟩ => rfl
    | ⟨1, _⟩ => rfl
  rw [val_main_v42_apply]
  unfold Spec.dotT
  refine Finset.sum_congr rfl fun k _ => ?_
  rw [leaky1_apply, val_main_v41_apply, hl k, hr k]

/-- The first layer's closing combination: `leaky ((leaky H · Gᵀ + gb) + X̂)`. -/
theorem comb1_stage (x0 : (⟨S60000x1024, .f32⟩ : BufTy).Contents (Elt Ideal)) (x1 : (⟨S100000x64, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x6 : (⟨S64x128, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x15 : (⟨S2x1600000, .i32⟩ : BufTy).Contents (Elt Ideal)) :
    val_main_v51 (F := Ideal) x0 x1 x2 x3 x4 x5 x6 x7 x8 x9 x15 = Spec.comb (val_main_v24 (F := Ideal) x0 x2 x3 x4 x5 x15) (val_main_v40 (F := Ideal) x0 x1 x2 x3 x4 x6 x7) x8 x9 := by
  funext i
  obtain ⟨r, n, rfl⟩ : ∃ (r : Fin 100000) (n : Fin 64), i = ix2 r n := ⟨i 0, i 1, eq_ix2 i⟩
  have hb : idx_main_v43 (idx_main_v44 (ix2 r n)) = ix1 n := funext fun a => by
    match a with
    | ⟨0, _⟩ => rfl
  rw [val_main_v51_apply, val_main_v48_apply, val_main_v50_apply, val_main_v47_apply, val_main_cst_6_apply, val_main_v49_apply, val_main_cst_7_apply, val_main_v46_apply, val_main_v45_apply, dotg1_apply, val_main_v44_apply, val_main_v43_apply, hb, Spec.comb_ix2]
  generalize val_main_v24 (F := Ideal) x0 x2 x3 x4 x5 x15 = H
  generalize val_main_v40 (F := Ideal) x0 x1 x2 x3 x4 x6 x7 = Xh
  rfl

/-- The second layer's transform: `X · C`. -/
theorem conv2_stage (x0 : (⟨S60000x1024, .f32⟩ : BufTy).Contents (Elt Ideal)) (x1 : (⟨S100000x64, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x6 : (⟨S64x128, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x10 : (⟨S64x64, .f32⟩ : BufTy).Contents (Elt Ideal)) (x15 : (⟨S2x1600000, .i32⟩ : BufTy).Contents (Elt Ideal)) :
    val_main_v52 (F := Ideal) x0 x1 x2 x3 x4 x5 x6 x7 x8 x9 x10 x15 = Spec.conv (val_main_v51 (F := Ideal) x0 x1 x2 x3 x4 x5 x6 x7 x8 x9 x15) x10 := by
  funext i
  obtain ⟨r, n, rfl⟩ : ∃ (r : Fin 100000) (n : Fin 64), i = ix2 r n := ⟨i 0, i 1, eq_ix2 i⟩
  rw [val_main_v52_apply, Spec.conv_ix2]
  generalize val_main_v51 (F := Ideal) x0 x1 x2 x3 x4 x5 x6 x7 x8 x9 x15 = X
  have hl : ∀ k : Fin 64, lidx_main_v52 (ix2 r n) k = ix2 r k := fun k => funext fun a => by
    match a with
    | ⟨0, _⟩ => rfl
    | ⟨1, _⟩ => rfl
  have hr : ∀ k : Fin 64, ridx_main_v52 (ix2 r n) k = ix2 k n := fun k => funext fun a => by
    match a with
    | ⟨0, _⟩ => rfl
    | ⟨1, _⟩ => rfl
  simp only [hl, hr] <;> rfl

/-- The second layer's embedding branch: `leaky (X · Lᵀ + lb) + E`. -/
theorem hat2_stage (x0 : (⟨S60000x1024, .f32⟩ : BufTy).Contents (Elt Ideal)) (x1 : (⟨S100000x64, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x6 : (⟨S64x128, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x11 : (⟨S64x64, .f32⟩ : BufTy).Contents (Elt Ideal)) (x12 : (⟨S64, .f32⟩ : BufTy).Contents (Elt Ideal)) (x15 : (⟨S2x1600000, .i32⟩ : BufTy).Contents (Elt Ideal)) :
    val_main_v78 (F := Ideal) x0 x1 x2 x3 x4 x5 x6 x7 x8 x9 x11 x12 x15 = Spec.hat (val_main_v51 (F := Ideal) x0 x1 x2 x3 x4 x5 x6 x7 x8 x9 x15) x11 x12 x1 := by
  funext i
  obtain ⟨r, n, rfl⟩ : ∃ (r : Fin 100000) (n : Fin 64), i = ix2 r n := ⟨i 0, i 1, eq_ix2 i⟩
  rw [val_main_v78_apply, val_main_v77_apply, val_main_v74_apply, val_main_v76_apply, val_main_v73_apply, val_main_cst_13_apply, val_main_v75_apply, val_main_cst_14_apply, val_main_v72_apply, val_main_v69_apply, val_main_v71_apply, val_main_v70_apply, Spec.hat_ix2]
  simp only [val_main_v68_apply]
  generalize val_main_v51 (F := Ideal) x0 x1 x2 x3 x4 x5 x6 x7 x8 x9 x15 = X
  have hl : ∀ k : Fin 64, lidx_main_v69 (ix2 r n) k = ix2 r k := fun k => funext fun a => by
    match a with
    | ⟨0, _⟩ => rfl
    | ⟨1, _⟩ => rfl
  have hr : ∀ k : Fin 64, idx_main_v68 (ridx_main_v69 (ix2 r n) k) = ix2 n k := fun k => funext fun a => by
    match a with
    | ⟨0, _⟩ => rfl
    | ⟨1, _⟩ => rfl
  have hb : idx_main_v70 (idx_main_v71 (ix2 r n)) = ix1 n := funext fun a => by
    match a with
    | ⟨0, _⟩ => rfl
  simp only [hl, hr, hb] <;> rfl

/-- The rectified scatter result, entry by entry. -/
theorem leaky2_apply (x0 : (⟨S60000x1024, .f32⟩ : BufTy).Contents (Elt Ideal)) (x1 : (⟨S100000x64, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x6 : (⟨S64x128, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x10 : (⟨S64x64, .f32⟩ : BufTy).Contents (Elt Ideal)) (x15 : (⟨S2x1600000, .i32⟩ : BufTy).Contents (Elt Ideal)) (j : S100000x64.Idx) :
    val_main_v67 (F := Ideal) x0 x1 x2 x3 x4 x5 x6 x7 x8 x9 x10 x15 j = Spec.leakyAll (val_main_v62 (F := Ideal) x0 x1 x2 x3 x4 x5 x6 x7 x8 x9 x10 x15) j := by
  rw [val_main_v67_apply, val_main_v64_apply, val_main_v66_apply, val_main_v63_apply, val_main_cst_11_apply, val_main_v65_apply, val_main_cst_12_apply]
  rfl

/-- The rectified scatter result against the rows of `G`. -/
theorem dotg2_apply (x0 : (⟨S60000x1024, .f32⟩ : BufTy).Contents (Elt Ideal)) (x1 : (⟨S100000x64, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x6 : (⟨S64x128, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x10 : (⟨S64x64, .f32⟩ : BufTy).Contents (Elt Ideal)) (x13 : (⟨S64x64, .f32⟩ : BufTy).Contents (Elt Ideal)) (x15 : (⟨S2x1600000, .i32⟩ : BufTy).Contents (Elt Ideal)) (r : Fin 100000) (n : Fin 64) :
    val_main_v80 (F := Ideal) x0 x1 x2 x3 x4 x5 x6 x7 x8 x9 x10 x13 x15 (ix2 r n) = Spec.dotT (Spec.leakyAll (val_main_v62 (F := Ideal) x0 x1 x2 x3 x4 x5 x6 x7 x8 x9 x10 x15)) x13 r n := by
  have hl : ∀ k : Fin 64, lidx_main_v80 (ix2 r n) k = ix2 r k := fun k => funext fun a => by
    match a with
    | ⟨0, _⟩ => rfl
    | ⟨1, _⟩ => rfl
  have hr : ∀ k : Fin 64, idx_main_v79 (ridx_main_v80 (ix2 r n) k) = ix2 n k := fun k => funext fun a => by
    match a with
    | ⟨0, _⟩ => rfl
    | ⟨1, _⟩ => rfl
  rw [val_main_v80_apply]
  unfold Spec.dotT
  refine Finset.sum_congr rfl fun k _ => ?_
  rw [leaky2_apply, val_main_v79_apply, hl k, hr k]

/-- The second layer's closing combination: `leaky ((leaky H · Gᵀ + gb) + X̂)`. -/
theorem comb2_stage (x0 : (⟨S60000x1024, .f32⟩ : BufTy).Contents (Elt Ideal)) (x1 : (⟨S100000x64, .f32⟩ : BufTy).Contents (Elt Ideal)) (x2 : (⟨S40000x128, .f32⟩ : BufTy).Contents (Elt Ideal)) (x3 : (⟨S128x1024, .f32⟩ : BufTy).Contents (Elt Ideal)) (x4 : (⟨S128, .f32⟩ : BufTy).Contents (Elt Ideal)) (x5 : (⟨S128x128, .f32⟩ : BufTy).Contents (Elt Ideal)) (x6 : (⟨S64x128, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S2x1600000, .i32⟩ : BufTy).Contents (Elt Ideal)) :
    val_main_v89 (F := Ideal) x0 x1 x2 x3 x4 x5 x6 x7 x8 x9 x10 x11 x12 x13 x14 x15 = Spec.comb (val_main_v62 (F := Ideal) x0 x1 x2 x3 x4 x5 x6 x7 x8 x9 x10 x15) (val_main_v78 (F := Ideal) x0 x1 x2 x3 x4 x5 x6 x7 x8 x9 x11 x12 x15) x13 x14 := by
  funext i
  obtain ⟨r, n, rfl⟩ : ∃ (r : Fin 100000) (n : Fin 64), i = ix2 r n := ⟨i 0, i 1, eq_ix2 i⟩
  have hb : idx_main_v81 (idx_main_v82 (ix2 r n)) = ix1 n := funext fun a => by
    match a with
    | ⟨0, _⟩ => rfl
  rw [val_main_v89_apply, val_main_v86_apply, val_main_v88_apply, val_main_v85_apply, val_main_cst_15_apply, val_main_v87_apply, val_main_cst_16_apply, val_main_v84_apply, val_main_v83_apply, dotg2_apply, val_main_v82_apply, val_main_v81_apply, hb, Spec.comb_ix2]
  generalize val_main_v62 (F := Ideal) x0 x1 x2 x3 x4 x5 x6 x7 x8 x9 x10 x15 = H
  generalize val_main_v78 (F := Ideal) x0 x1 x2 x3 x4 x5 x6 x7 x8 x9 x11 x12 x15 = Xh
  rfl

end Cert.RefStages

end
-- ==== Proof.Bridge.lean ====
/-
  The idealized kernel's result array and the reference's result array are the same function of the sixteen argument
  arrays.  Stage by stage: the dense transform, the joined rows, the unit rows, the first layer's two products, the
  neighbourhood sums, the first combination, and the second layer likewise.  Each kernel stage is a row-wise formula of
  the shared vocabulary with its bias vector laid as a row; each reference stage is the same formula with the bias
  vector read directly; a row read at (0, n) is the vector at n.  The neighbourhood sums are the same gather and
  scatter-add of the same arrays, compared as terms and never evaluated.
-/
import proofs.«124986_j71038759076272_1_alg».proof.Proof.KernelValue
import proofs.«124986_j71038759076272_1_alg».proof.Proof.RefStages
import Idealize.ShloMosaic.Lib.ValueLayout

set_option maxRecDepth 16384

noncomputable section

namespace Cert.Bridge

open Cert.KernelIdeal Cert.KernelIdeal.Gen Cert.KernelIdeal.Whole
open Idealize.ShloMosaic Idealize.ShloMosaic.TcCoe Idealize.ShloMosaic.ValueIdx Idealize.ShloMosaic.StableHlo
open Idealize.SL.Sem
open Cert.ReferenceIdeal.ReadP

/-! ## A bias vector laid as a row, read at (0, n), is the vector at n -/

theorem biasRow128_apply (b : (⟨S128, .f32⟩ : BufTy).Contents (Elt Ideal)) (u : Fin 1) (n : Fin 128) :
    biasRow128 b (ix2 u n) = b (ix1 n) := by
  unfold biasRow128
  exact shapeCast_a_1a_apply b shapeCasts_S128_S1x128 u n

theorem biasRow64_apply (b : (⟨S64, .f32⟩ : BufTy).Contents (Elt Ideal)) (u : Fin 1) (n : Fin 64) :
    biasRow64 b (ix2 u n) = b (ix1 n) := by
  unfold biasRow64
  exact shapeCast_a_1a_apply b shapeCasts_S64_S1x64 u n

/-! ## Each region's whole-array function is a formula of the shared vocabulary -/

theorem G0_eq_dense (X : Spec.Mat 60000 1024) (W : Spec.Mat 128 1024) (b : (⟨S128, .f32⟩ : BufTy).Contents (Elt Ideal)) :
    G0 X W (biasRow128 b) = Spec.dense X W b := by
  funext i
  obtain ⟨r, n, rfl⟩ : ∃ (r : Fin 60000) (n : Fin 128), i = ix2 r n := ⟨i 0, i 1, eq_ix2 i⟩
  show Spec.dotT X W r n + biasRow128 b (ix2 0 n) = Spec.dotT X W r n + b (ix1 n)
  rw [biasRow128_apply]

theorem G1a_eq_conv (X : Spec.Mat 100000 128) (C : Spec.Mat 128 128) : G1a X C = Spec.conv (Spec.unitRows X) C := rfl

theorem G1b_eq_hat (X : Spec.Mat 100000 128) (L : Spec.Mat 64 128) (b : (⟨S64, .f32⟩ : BufTy).Contents (Elt Ideal)) (E : Spec.Mat 100000 64) :
    G1b X L (biasRow64 b) E = Spec.hat (Spec.unitRows X) L b E := by
  funext i
  obtain ⟨r, n, rfl⟩ : ∃ (r : Fin 100000) (n : Fin 64), i = ix2 r n := ⟨i 0, i 1, eq_ix2 i⟩
  show Spec.leaky (Spec.dotT (Spec.unitRows X) L r n + biasRow64 b (ix2 0 n)) + E (ix2 r n)
    = Spec.leaky (Spec.dotT (Spec.unitRows X) L r n + b (ix1 n)) + E (ix2 r n)
  rw [biasRow64_apply]

theorem G2_eq_comb (H : Spec.Mat 100000 128) (Xh : Spec.Mat 100000 64) (G : Spec.Mat 64 128) (b : (⟨S64, .f32⟩ : BufTy).Contents (Elt Ideal)) :
    G2 H Xh G (biasRow64 b) = Spec.comb H Xh G b := by
  funext i
  obtain ⟨r, n, rfl⟩ : ∃ (r : Fin 100000) (n : Fin 64), i = ix2 r n := ⟨i 0, i 1, eq_ix2 i⟩
  show Spec.leaky ((Spec.dotT (Spec.leakyAll H) G r n + biasRow64 b (ix2 0 n)) + Xh (ix2 r n))
    = Spec.leaky ((Spec.dotT (Spec.leakyAll H) G r n + b (ix1 n)) + Xh (ix2 r n))
  rw [biasRow64_apply]

theorem G3a_eq_conv (X : Spec.Mat 100000 64) (C : Spec.Mat 64 64) : G3a X C = Spec.conv X C := rfl

theorem G3b_eq_hat (X : Spec.Mat 100000 64) (L : Spec.Mat 64 64) (b : (⟨S64, .f32⟩ : BufTy).Contents (Elt Ideal)) (E : Spec.Mat 100000 64) :
    G3b X L (biasRow64 b) E = Spec.hat X L b E := by
  funext i
  obtain ⟨r, n, rfl⟩ : ∃ (r : Fin 100000) (n : Fin 64), i = ix2 r n := ⟨i 0, i 1, eq_ix2 i⟩
  show Spec.leaky (Spec.dotT X L r n + biasRow64 b (ix2 0 n)) + E (ix2 r n)
    = Spec.leaky (Spec.dotT X L r n + b (ix1 n)) + E (ix2 r n)
  rw [biasRow64_apply]

theorem G4_eq_comb (H : Spec.Mat 100000 64) (Xh : Spec.Mat 100000 64) (G : Spec.Mat 64 64) (b : (⟨S64, .f32⟩ : BufTy).Contents (Elt Ideal)) :
    G4 H Xh G (biasRow64 b) = Spec.comb H Xh G b := by
  funext i
  obtain ⟨r, n, rfl⟩ : ∃ (r : Fin 100000) (n : Fin 64), i = ix2 r n := ⟨i 0, i 1, eq_ix2 i⟩
  show Spec.leaky ((Spec.dotT (Spec.leakyAll H) G r n + biasRow64 b (ix2 0 n)) + Xh (ix2 r n))
    = Spec.leaky ((Spec.dotT (Spec.leakyAll H) G r n + b (ix1 n)) + Xh (ix2 r n))
  rw [biasRow64_apply]

/-! ## The neighbourhood sums: the same gather and scatter-add of the same arrays -/

theorem agg128_eq (Y : (⟨S100000x128, .f32⟩ : BufTy).Contents (Elt Ideal)) (e : (⟨S2x1600000, .i32⟩ : BufTy).Contents (Elt Ideal)) :
    agg128 Y (edgeRow0 e) (edgeRow1 e)
      = Host.scatterAdd (F := Ideal) (φ := .f32) Cert.ReferenceIdeal.scatter_S100000x128_S1600000x1_S1600000x128_1_0_0_1 (val_main_v22 (F := Ideal)) (val_main_v23 (F := Ideal) e)
          (Host.gather Cert.ReferenceIdeal.gather_S100000x128_S1600000x1_S1600000x128_1_0_n_n_0_1_1128 Y (val_main_v20 (F := Ideal) e)) := by
  unfold agg128 edgeRow0 edgeRow1 val_main_v22 val_main_v23 val_main_v20 val_main_v19 val_main_v16 val_main_v18 val_main_v15 val_main_v17
    val_main_v1 val_main_v3 val_main_v0 val_main_v2 val_main_c val_main_c_0 val_main_cst_1
  rfl

theorem agg64_eq (Y : (⟨S100000x64, .f32⟩ : BufTy).Contents (Elt Ideal)) (e : (⟨S2x1600000, .i32⟩ : BufTy).Contents (Elt Ideal)) :
    agg64 Y (edgeRow0 e) (edgeRow1 e)
      = Host.scatterAdd (F := Ideal) (φ := .f32) Cert.ReferenceIdeal.scatter_S100000x64_S1600000x1_S1600000x64_1_0_0_1 (val_main_v60 (F := Ideal)) (val_main_v61 (F := Ideal) e)
          (Host.gather Cert.ReferenceIdeal.gather_S100000x64_S1600000x1_S1600000x64_1_0_n_n_0_1_164 Y (val_main_v58 (F := Ideal) e)) := by
  unfold agg64 edgeRow0 edgeRow1 val_main_v60 val_main_v61 val_main_v58 val_main_v57 val_main_v54 val_main_v56 val_main_v53 val_main_v55
    val_main_v1 val_main_v3 val_main_v0 val_main_v2 val_main_c_8 val_main_c_9 val_main_cst_10
  rfl

/-! ## Stage by stage, at the launch arrays -/

variable (m : (ℓ : Loc nD τ sig) → Buf (Elt Ideal) ℓ) (c : Dev nD)

theorem X5_eq : X5 m c = val_main_v8 (F := Ideal) (m ((c : Thread nD τ).loc main_arg0)) (m ((c : Thread nD τ).loc main_arg3)) (m ((c : Thread nD τ).loc main_arg4)) := by
  rw [Cert.RefStages.dense_stage]
  unfold X5
  exact G0_eq_dense _ _ _

theorem X6_eq : X6 m c = val_main_v9 (F := Ideal) (m ((c : Thread nD τ).loc main_arg0)) (m ((c : Thread nD τ).loc main_arg2)) (m ((c : Thread nD τ).loc main_arg3)) (m ((c : Thread nD τ).loc main_arg4)) := by
  unfold X6 val_main_v9
  rw [X5_eq]

theorem U13_eq : val_main_v13 (F := Ideal) (m ((c : Thread nD τ).loc main_arg0)) (m ((c : Thread nD τ).loc main_arg2)) (m ((c : Thread nD τ).loc main_arg3)) (m ((c : Thread nD τ).loc main_arg4)) = Spec.unitRows (X6 m c) := by
  rw [Cert.RefStages.unit_stage, ← X6_eq]

theorem X8a_eq : X8a m c = val_main_v14 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  rw [Cert.RefStages.conv1_stage, U13_eq]
  rfl

theorem X8b_eq : X8b m c = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  rw [Cert.RefStages.hat1_stage, U13_eq]
  unfold X8b
  exact G1b_eq_hat _ _ _ _

theorem X18_eq : X18 m c = val_main_v24 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg15)) := by
  unfold X18 val_main_v24 val_main_v21
  rw [agg128_eq, X8a_eq]

theorem X20_eq : X20 m c = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg15)) := by
  rw [Cert.RefStages.comb1_stage, ← X18_eq, ← X8b_eq]
  unfold X20
  exact G2_eq_comb _ _ _ _

theorem X22a_eq : X22a m c = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) := by
  rw [Cert.RefStages.conv2_stage, ← X20_eq]
  rfl

theorem X22b_eq : X22b m c = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg15)) := by
  rw [Cert.RefStages.hat2_stage, ← X20_eq]
  unfold X22b
  exact G3b_eq_hat _ _ _ _

theorem X32_eq : X32 m c = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) := by
  unfold X32 val_main_v62 val_main_v59
  rw [agg64_eq, X22a_eq]

/-- The kernel's result array is the reference's. -/
theorem result_eq : X34 m c = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Cert.RefStages.comb2_stage, ← X32_eq, ← X22b_eq]
  unfold X34
  exact G4_eq_comb _ _ _ _

end Cert.Bridge

end
-- ==== Proof.lean ====
/-
  A two-layer graph convolution with a dense transform of the item features in front, as five row-tiled kernels
  with the neighbourhood sums left to host operations, against the plain array program.

  At the extended reals the two programs compute the same function of the sixteen argument arrays.  Every kernel is
  row-local: a tile of rows of its output is a function of the same rows of its row operands and of the whole
  weights, so the tiles of a region assemble into one whole-array function (Region0 … Region4 over the bodies'
  arithmetic read at an index in TileBodies); the host stretches between the regions are the reference's own
  operations (the concatenation of user and item rows, the gather and scatter-add of the neighbourhood sums), applied
  to equal arrays.  Stage by stage the kernel's arrays are the reference's (Bridge over RefStages): the dense
  transform  X · Wᵀ + b;  the rows divided by their clamped lengths;  the products with the convolution weights;
  leaky (x · Lᵀ + lb) + id;  leaky ((leaky h · Gᵀ + gb) + x̂).  No law used needs a finite operand: sums are taken
  over the same index sets in both programs, and a change of float format is the identity.

  The kernel's run with its result named is KernelRun (over the fold through @main's ten segments), the value of the
  fold at the result array is KernelValue; the reference's run is RefRun over the stages of RefRead.
-/
import proofs.«124986_j71038759076272_1_alg».proof.Defs
import proofs.«124986_j71038759076272_1_alg».proof.Proof.Gen.Kernel
import proofs.«124986_j71038759076272_1_alg».proof.Proof.Gen.Kernel.Skeleton
import proofs.«124986_j71038759076272_1_alg».proof.Proof.Gen.Kernel.Launch
import proofs.«124986_j71038759076272_1_alg».proof.Proof.Gen.Kernel.Points
import proofs.«124986_j71038759076272_1_alg».proof.Proof.Gen.Kernel.Frame
import proofs.«124986_j71038759076272_1_alg».proof.Proof.Gen.KernelIdeal
import proofs.«124986_j71038759076272_1_alg».proof.Proof.Gen.KernelIdeal.Skeleton
import proofs.«124986_j71038759076272_1_alg».proof.Proof.Gen.KernelIdeal.Launch
import proofs.«124986_j71038759076272_1_alg».proof.Proof.Gen.KernelIdeal.Points
import proofs.«124986_j71038759076272_1_alg».proof.Proof.Gen.KernelIdeal.Frame
import proofs.«124986_j71038759076272_1_alg».proof.Proof.Gen.ReferenceIdeal
import proofs.«124986_j71038759076272_1_alg».proof.Proof.Gen.Pre_finite_inputs
import proofs.«124986_j71038759076272_1_alg».proof.Proof.KernelRun
import proofs.«124986_j71038759076272_1_alg».proof.Proof.KernelValue
import proofs.«124986_j71038759076272_1_alg».proof.Proof.RefRun
import proofs.«124986_j71038759076272_1_alg».proof.Proof.Bridge
import Idealize.ShloMosaic.Adequacy
import Idealize.ShloMosaic.Init

noncomputable section

namespace Cert.Proof

open Idealize.ShloMosaic Idealize.SL.Sem

/-- The three programs run and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

/-- The ideal pass rewrote nothing. -/
theorem preserves : Cert.preserves_Kernel_KernelIdeal := trivial

/-- Both idealized programs end with the result array at the same function of arguments that agree. -/
theorem algebraic : Cert.algebraic_KernelIdeal_ReferenceIdeal := by
  intro m ρ m' ρ' _ hagree
  refine ⟨fun c => Cert.KernelIdeal.Whole.X34 m c, ?_, ?_⟩
  · exact (θ_run Cert.KernelIdeal.defs _ _).mono
      (fun r h c => ⟨(h c).1.trans (Cert.KernelIdeal.Whole.S34 m ρ c), (h c).2⟩)
      (Cert.KernelIdeal.Whole.run_value m ρ)
  · refine (θ_run Cert.ReferenceIdeal.defs _ _).mono (fun r h c => ⟨(h c).1.trans ?_, (h c).2⟩)
      (Cert.RefRun.run m' ρ')
    obtain ⟨e0, e1, e2, e3, e4, e5, e6, e7, e8, e9, e10, e11, e12, e13, e14, e15⟩ := hagree c
    rw [e0, e1, e2, e3, e4, e5, e6, e7, e8, e9, e10, e11, e12, e13, e14, e15]
    exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
